-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v86)) (v1 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_v89) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v155) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S128x32 : Shape := ⟨2, ![128, 32]⟩
abbrev S128 : Shape := ⟨1, ![128]⟩
abbrev S32x32 : Shape := ⟨2, ![32, 32]⟩
abbrev S32 : Shape := ⟨1, ![32]⟩
abbrev S32x1 : Shape := ⟨2, ![32, 1]⟩
abbrev S1 : Shape := ⟨1, ![1]⟩
abbrev S32x10 : Shape := ⟨2, ![32, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x32 : S_.BroadcastsInDim S128x32 (![] : Fin 0 → Fin S128x32.rank)
  reducesTo_S128x32_S_d0_1 : S128x32.ReducesTo [0, 1] S_
  bcast_S_S128 : S_.BroadcastsInDim S128 (![] : Fin 0 → Fin S128.rank)
  reducesTo_S128_S_d0 : S128.ReducesTo [0] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_arg22 : FVec F S32x10 .f32) (main_arg23 : FVec F S10 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S32x10 .f32 := Host.absf main_arg22
  let main_cst_40 : FVec F S_ .f32 := constant S_ .f32 0x7F800000#32
  let main_v105 : FVec F S32x10 .f32 := broadcastInDim S32x10 ![] bcast_S_S32x10 main_cst_40
  let main_v106 : IVec S32x10 1 := cmpf .olt main_v104 main_v105
  let main_c_41 : IVec S_ 1 := constantI S_ 1 1#1
  let main_v107 : IVec S_ 1 := (fun x v => Host.reduce IntOp.andi x v reducesTo_S32x10_S_d0_1 h_S_) main_v106 main_c_41
  let main_v108 : IVec S_ 1 := andi main_v103 main_v107
  let main_v109 : FVec F S10 .f32 := Host.absf main_arg23
  let main_cst_42 : FVec F S_ .f32 := constant S_ .f32 0x7F800000#32
  let main_v110 : FVec F S10 .f32 := broadcastInDim S10 ![] bcast_S_S10 main_cst_42
  let main_v111 : IVec S10 1 := cmpf .olt main_v109 main_v110
  let main_c_43 : IVec S_ 1 := constantI S_ 1 1#1
  let main_v112 : IVec S_ 1 := (fun x v => Host.reduce IntOp.andi x v reducesTo_S10_S_d0 h_S_) main_v111 main_c_43
  let main_v113 : IVec S_ 1 := andi main_v108 main_v112
  main_v113

def fn_part5 {F : FTy → Type} [FloatOps F] (main_arg19 : FVec F S1 .f32) (main_arg20 : FVec F S32x32 .f32) (main_arg21 : FVec F S32 .f32) (main_arg22 : FVec F S32x10 .f32) (main_arg23 : FVec F S10 .f32) (main_v83 : IVec S_ 1) (main_v84 : FVec F S32x1 .f32) (main_cst_32 : FVec F S_ .f32) : IVec S_ 1 :=
  let main_v85 : FVec F S32x1 .f32 := broadcastInDim S32x1 ![] bcast_S_S32x1 main_cst_32
  let main_v86 : IVec S32x1 1 := cmpf .olt main_v84 main_v85
  let main_c_33 : IVec S_ 1 := constantI S_ 1 1#1
  let main_v87 : IVec S_ 1 := (fun x v => Host.reduce IntOp.andi x v reducesTo_S32x1_S_d0_1 h_S_) main_v86 main_c_33
  let main_v88 : IVec S_ 1 := andi main_v83 main_v87
  let main_v89 : FVec F S1 .f32 := Host.absf main_arg19
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S32x32 .f32 := Host.absf main_arg20
  let main_cst_36 : FVec F S_ .f32 := constant S_ .f32 0x7F800000#32
  let main_v95 : FVec F S32x32 .f32 := broadcastInDim S32x32 ![] bcast_S_S32x32 main_cst_36
  let main_v96 : IVec S32x32 1 := cmpf .olt main_v94 main_v95
  let main_c_37 : IVec S_ 1 := constantI S_ 1 1#1
  let main_v97 : IVec S_ 1 := (fun x v => Host.reduce IntOp.andi x v reducesTo_S32x32_S_d0_1 h_S_) main_v96 main_c_37
  let main_v98 : IVec S_ 1 := andi main_v93 main_v97
  let main_v99 : FVec F S32 .f32 := Host.absf main_arg21
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg22 main_arg23 main_v98 main_v101 main_c_39

def fn_part4 {F : FTy → Type} [FloatOps F] (main_arg15 : FVec F S128 .f32) (main_arg16 : FVec F S32x32 .f32) (main_arg17 : FVec F S32 .f32) (main_arg18 : FVec F S32x1 .f32) (main_arg19 : FVec F S1 .f32) (main_arg20 : FVec F S32x32 .f32) (main_arg21 : FVec F S32 .f32) (main_arg22 : FVec F S32x10 .f32) (main_arg23 : FVec F S10 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S32x32 .f32 := Host.absf main_arg16
  let main_cst_28 : FVec F S_ .f32 := constant S_ .f32 0x7F800000#32
  let main_v75 : FVec F S32x32 .f32 := broadcastInDim S32x32 ![] bcast_S_S32x32 main_cst_28
  let main_v76 : IVec S32x32 1 := cmpf .olt main_v74 main_v75
  let main_c_29 : IVec S_ 1 := constantI S_ 1 1#1
  let main_v77 : IVec S_ 1 := (fun x v => Host.reduce IntOp.andi x v reducesTo_S32x32_S_d0_1 h_S_) main_v76 main_c_29
  let main_v78 : IVec S_ 1 := andi main_v73 main_v77
  let main_v79 : FVec F S32 .f32 := Host.absf main_arg17
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x1 .f32 := Host.absf main_arg18
  let main_cst_32 : FVec F S_ .f32 := constant S_ .f32 0x7F800000#32
  fn_part5 (F := F) main_arg19 main_arg20 main_arg21 main_arg22 main_arg23 main_v83 main_v84 main_cst_32

def fn_part3 {F : FTy → Type} [FloatOps F] (main_arg12 : FVec F S128x32 .f32) (main_arg13 : FVec F S128x32 .f32) (main_arg14 : FVec F S128 .f32) (main_arg15 : FVec F S128 .f32) (main_arg16 : FVec F S32x32 .f32) (main_arg17 : FVec F S32 .f32) (main_arg18 : FVec F S32x1 .f32) (main_arg19 : FVec F S1 .f32) (main_arg20 : FVec F S32x32 .f32) (main_arg21 : FVec F S32 .f32) (main_arg22 : FVec F S32x10 .f32) (main_arg23 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x32 .f32 := Host.absf main_arg12
  let main_cst_20 : FVec F S_ .f32 := constant S_ .f32 0x7F800000#32
  let main_v55 : FVec F S128x32 .f32 := broadcastInDim S128x32 ![] bcast_S_S128x32 main_cst_20
  let main_v56 : IVec S128x32 1 := cmpf .olt main_v54 main_v55
  let main_c_21 : IVec S_ 1 := constantI S_ 1 1#1
  let main_v57 : IVec S_ 1 := (fun x v => Host.reduce IntOp.andi x v reducesTo_S128x32_S_d0_1 h_S_) main_v56 main_c_21
  let main_v58 : IVec S_ 1 := andi main_v53 main_v57
  let main_v59 : FVec F S128x32 .f32 := Host.absf main_arg13
  let main_cst_22 : FVec F S_ .f32 := constant S_ .f32 0x7F800000#32
  let main_v60 : FVec F S128x32 .f32 := broadcastInDim S128x32 ![] bcast_S_S128x32 main_cst_22
  let main_v61 : IVec S128x32 1 := cmpf .olt main_v59 main_v60
  let main_c_23 : IVec S_ 1 := constantI S_ 1 1#1
  let main_v62 : IVec S_ 1 := (fun x v => Host.reduce IntOp.andi x v reducesTo_S128x32_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_arg23 main_v63 main_v67

def fn_part2 {F : FTy → Type} [FloatOps F] (main_arg8 : FVec F S128x64 .f32) (main_arg9 : FVec F S128x32 .f32) (main_arg10 : FVec F S128 .f32) (main_arg11 : FVec F S128 .f32) (main_arg12 : FVec F S128x32 .f32) (main_arg13 : FVec F S128x32 .f32) (main_arg14 : FVec F S128 .f32) (main_arg15 : FVec F S128 .f32) (main_arg16 : FVec F S32x32 .f32) (main_arg17 : FVec F S32 .f32) (main_arg18 : FVec F S32x1 .f32) (main_arg19 : FVec F S1 .f32) (main_arg20 : FVec F S32x32 .f32) (main_arg21 : FVec F S32 .f32) (main_arg22 : FVec F S32x10 .f32) (main_arg23 : FVec F S10 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x32 .f32 := Host.absf main_arg9
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_arg22 main_arg23 main_v48 main_v49 main_v50

def fn_part1 {F : FTy → Type} [FloatOps F] (main_arg5 : FVec F S64 .f32) (main_arg6 : FVec F S64x64 .f32) (main_arg7 : FVec F S64 .f32) (main_arg8 : FVec F S128x64 .f32) (main_arg9 : FVec F S128x32 .f32) (main_arg10 : FVec F S128 .f32) (main_arg11 : FVec F S128 .f32) (main_arg12 : FVec F S128x32 .f32) (main_arg13 : FVec F S128x32 .f32) (main_arg14 : FVec F S128 .f32) (main_arg15 : FVec F S128 .f32) (main_arg16 : FVec F S32x32 .f32) (main_arg17 : FVec F S32 .f32) (main_arg18 : FVec F S32x1 .f32) (main_arg19 : FVec F S1 .f32) (main_arg20 : FVec F S32x32 .f32) (main_arg21 : FVec F S32 .f32) (main_arg22 : FVec F S32x10 .f32) (main_arg23 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S128x64 .f32) (main_arg9 : FVec F S128x32 .f32) (main_arg10 : FVec F S128 .f32) (main_arg11 : FVec F S128 .f32) (main_arg12 : FVec F S128x32 .f32) (main_arg13 : FVec F S128x32 .f32) (main_arg14 : FVec F S128 .f32) (main_arg15 : FVec F S128 .f32) (main_arg16 : FVec F S32x32 .f32) (main_arg17 : FVec F S32 .f32) (main_arg18 : FVec F S32x1 .f32) (main_arg19 : FVec F S1 .f32) (main_arg20 : FVec F S32x32 .f32) (main_arg21 : FVec F S32 .f32) (main_arg22 : FVec F S32x10 .f32) (main_arg23 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S128x32 : Shape := ⟨2, ![128, 32]⟩
abbrev S128 : Shape := ⟨1, ![128]⟩
abbrev S32x32 : Shape := ⟨2, ![32, 32]⟩
abbrev S32 : Shape := ⟨1, ![32]⟩
abbrev S32x1 : Shape := ⟨2, ![32, 1]⟩
abbrev S1 : Shape := ⟨1, ![1]⟩
abbrev S32x10 : Shape := ⟨2, ![32, 10]⟩
abbrev S10 : Shape := ⟨1, ![10]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S64x128 : Shape := ⟨2, ![64, 128]⟩
abbrev S1x128 : Shape := ⟨2, ![1, 128]⟩
abbrev S100000x32 : Shape := ⟨2, ![100000, 32]⟩
abbrev S10000x32 : Shape := ⟨2, ![10000, 32]⟩
abbrev S32x128 : Shape := ⟨2, ![32, 128]⟩
abbrev S1x32 : Shape := ⟨2, ![1, 32]⟩
abbrev S1x1 : Shape := ⟨2, ![1, 1]⟩
abbrev S100000x1 : Shape := ⟨2, ![100000, 1]⟩
abbrev S10000x1 : Shape := ⟨2, ![10000, 1]⟩
abbrev S1x10 : Shape := ⟨2, ![1, 10]⟩
abbrev S100000x10 : Shape := ⟨2, ![100000, 10]⟩
abbrev S10000x10 : Shape := ⟨2, ![10000, 10]⟩

abbrev nBuf : Space → Nat
  | .hbm => 133
  | .vmem => 58
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S128x64, .f32⟩
  | 9 => ⟨S128x32, .f32⟩
  | 10 => ⟨S128, .f32⟩
  | 11 => ⟨S128, .f32⟩
  | 12 => ⟨S128x32, .f32⟩
  | 13 => ⟨S128x32, .f32⟩
  | 14 => ⟨S128, .f32⟩
  | 15 => ⟨S128, .f32⟩
  | 16 => ⟨S32x32, .f32⟩
  | 17 => ⟨S32, .f32⟩
  | 18 => ⟨S32x1, .f32⟩
  | 19 => ⟨S1, .f32⟩
  | 20 => ⟨S32x32, .f32⟩
  | 21 => ⟨S32, .f32⟩
  | 22 => ⟨S32x10, .f32⟩
  | 23 => ⟨S10, .f32⟩
  | 24 => ⟨S100000, .i32⟩
  | 25 => ⟨S1x1600000, .i32⟩
  | 26 => ⟨S1600000, .i32⟩
  | 27 => ⟨S1700000, .i32⟩
  | 28 => ⟨S1x1600000, .i32⟩
  | 29 => ⟨S1600000, .i32⟩
  | 30 => ⟨S1700000, .i32⟩
  | 31 => ⟨S_, .f32⟩
  | 32 => ⟨S1700000, .f32⟩
  | 33 => ⟨S_, .f32⟩
  | 34 => ⟨S100000, .f32⟩
  | 35 => ⟨S1700000x1, .i32⟩
  | 36 => ⟨S100000, .f32⟩
  | 37 => ⟨S_, .f32⟩
  | 38 => ⟨S100000, .f32⟩
  | 39 => ⟨S100000, .i1⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000, .f32⟩
  | 63 => ⟨S1700000, .f32⟩
  | 64 => ⟨S1700000x1, .f32⟩
  | 65 => ⟨S100000x64, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x64, .f32⟩
  | 75 => ⟨S1700000x64, .f32⟩
  | 76 => ⟨S1700000x64, .f32⟩
  | 77 => ⟨S_, .f32⟩
  | 78 => ⟨S100000x64, .f32⟩
  | 79 => ⟨S1700000x1, .i32⟩
  | 80 => ⟨S100000x64, .f32⟩
  | 81 => ⟨S1x64, .f32⟩
  | 82 => ⟨S100000x64, .f32⟩
  | 83 => ⟨S100000x64, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000x64, .f32⟩
  | 93 => ⟨S1700000x64, .f32⟩
  | 94 => ⟨S1700000x64, .f32⟩
  | 95 => ⟨S_, .f32⟩
  | 96 => ⟨S100000x64, .f32⟩
  | 97 => ⟨S1700000x1, .i32⟩
  | 98 => ⟨S100000x64, .f32⟩
  | 99 => ⟨S1x64, .f32⟩
  | 100 => ⟨S100000x64, .f32⟩
  | 101 => ⟨S100000x64, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x64, .f32⟩
  | 111 => ⟨S1700000x64, .f32⟩
  | 112 => ⟨S1700000x64, .f32⟩
  | 113 => ⟨S_, .f32⟩
  | 114 => ⟨S100000x64, .f32⟩
  | 115 => ⟨S1700000x1, .i32⟩
  | 116 => ⟨S100000x64, .f32⟩
  | 117 => ⟨S1x64, .f32⟩
  | 118 => ⟨S100000x64, .f32⟩
  | 119 => ⟨S64x128, .f32⟩
  | 120 => ⟨S128, .f32⟩
  | 121 => ⟨S1x128, .f32⟩
  | 122 => ⟨S100000x32, .f32⟩
  | 123 => ⟨S32x128, .f32⟩
  | 124 => ⟨S128, .f32⟩
  | 125 => ⟨S1x128, .f32⟩
  | 126 => ⟨S100000x32, .f32⟩
  | 127 => ⟨S1x32, .f32⟩
  | _ => ⟨S100000x128, .f32⟩

abbrev hbmTy0_1 (i : Nat) : BufTy := match i % 128 with
  | 0 => ⟨S1x1, .f32⟩
  | 1 => ⟨S100000x1, .f32⟩
  | 2 => ⟨S1x32, .f32⟩
  | 3 => ⟨S1x10, .f32⟩
  | 4 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S64x128, .f32⟩
  | .local _ .vmem, ⟨33, _⟩ => ⟨S1x128, .f32⟩
  | .local _ .vmem, ⟨34, _⟩ => ⟨S10000x32, .f32⟩
  | .local _ .vmem, ⟨35, _⟩ => ⟨S10000x32, .f32⟩
  | .local _ .vmem, ⟨36, _⟩ => ⟨S10000x32, .f32⟩
  | .local _ .vmem, ⟨37, _⟩ => ⟨S10000x32, .f32⟩
  | .local _ .vmem, ⟨38, _⟩ => ⟨S32x128, .f32⟩
  | .local _ .vmem, ⟨39, _⟩ => ⟨S1x128, .f32⟩
  | .local _ .vmem, ⟨40, _⟩ => ⟨S10000x32, .f32⟩
  | .local _ .vmem, ⟨41, _⟩ => ⟨S10000x32, .f32⟩
  | .local _ .vmem, ⟨42, _⟩ => ⟨S10000x32, .f32⟩
  | .local _ .vmem, ⟨43, _⟩ => ⟨S10000x32, .f32⟩
  | .local _ .vmem, ⟨44, _⟩ => ⟨S32x32, .f32⟩
  | .local _ .vmem, ⟨45, _⟩ => ⟨S1x32, .f32⟩
  | .local _ .vmem, ⟨46, _⟩ => ⟨S32x1, .f32⟩
  | .local _ .vmem, ⟨47, _⟩ => ⟨S1x1, .f32⟩
  | .local _ .vmem, ⟨48, _⟩ => ⟨S10000x1, .f32⟩
  | .local _ .vmem, ⟨49, _⟩ => ⟨S10000x1, .f32⟩
  | .local _ .vmem, ⟨50, _⟩ => ⟨S10000x32, .f32⟩
  | .local _ .vmem, ⟨51, _⟩ => ⟨S10000x32, .f32⟩
  | .local _ .vmem, ⟨52, _⟩ => ⟨S32x32, .f32⟩
  | .local _ .vmem, ⟨53, _⟩ => ⟨S1x32, .f32⟩
  | .local _ .vmem, ⟨54, _⟩ => ⟨S32x10, .f32⟩
  | .local _ .vmem, ⟨55, _⟩ => ⟨S1x10, .f32⟩
  | .local _ .vmem, ⟨56, _⟩ => ⟨S10000x10, .f32⟩
  | .local _ .vmem, ⟨57, _⟩ => ⟨S10000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_cst_0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_v14 : Ref sig .tc := ⟨.hbm, 44, rfl⟩
abbrev main_c : Ref sig .tc := ⟨.hbm, 45, rfl⟩
abbrev main_v15 : Ref sig .tc := ⟨.hbm, 46, rfl⟩
abbrev main_v16 : Ref sig .tc := ⟨.hbm, 47, rfl⟩
abbrev main_c_3 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_c_4 : Ref sig .tc := ⟨.hbm, 54, rfl⟩
abbrev main_v22 : Ref sig .tc := ⟨.hbm, 55, rfl⟩
abbrev main_v23 : Ref sig .tc := ⟨.hbm, 56, rfl⟩
abbrev main_c_5 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_6 : Ref sig .tc := ⟨.hbm, 66, rfl⟩
abbrev main_v32 : Ref sig .tc := ⟨.hbm, 67, rfl⟩
abbrev main_v33 : Ref sig .tc := ⟨.hbm, 68, rfl⟩
abbrev main_c_7 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_8 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_c_9 : Ref sig .tc := ⟨.hbm, 84, rfl⟩
abbrev main_v47 : Ref sig .tc := ⟨.hbm, 85, rfl⟩
abbrev main_v48 : Ref sig .tc := ⟨.hbm, 86, rfl⟩
abbrev main_c_10 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_11 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_c_12 : Ref sig .tc := ⟨.hbm, 102, rfl⟩
abbrev main_v62 : Ref sig .tc := ⟨.hbm, 103, rfl⟩
abbrev main_v63 : Ref sig .tc := ⟨.hbm, 104, rfl⟩
abbrev main_c_13 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_14 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg3_0 : Ref sig .tc := ⟨.vmem, 40, rfl⟩
abbrev cc7_stg3_1 : Ref sig .tc := ⟨.vmem, 41, rfl⟩
abbrev cc8_stg0_0 : Ref sig .tc := ⟨.vmem, 42, rfl⟩
abbrev cc8_stg0_1 : Ref sig .tc := ⟨.vmem, 43, rfl⟩
abbrev cc8_stg1_0 : Ref sig .tc := ⟨.vmem, 44, rfl⟩
abbrev cc8_stg2_0 : Ref sig .tc := ⟨.vmem, 45, rfl⟩
abbrev cc8_stg3_0 : Ref sig .tc := ⟨.vmem, 46, rfl⟩
abbrev cc8_stg4_0 : Ref sig .tc := ⟨.vmem, 47, rfl⟩
abbrev cc8_stg5_0 : Ref sig .tc := ⟨.vmem, 48, rfl⟩
abbrev cc8_stg5_1 : Ref sig .tc := ⟨.vmem, 49, rfl⟩
abbrev cc9_stg0_0 : Ref sig .tc := ⟨.vmem, 50, rfl⟩
abbrev cc9_stg0_1 : Ref sig .tc := ⟨.vmem, 51, rfl⟩
abbrev cc9_stg1_0 : Ref sig .tc := ⟨.vmem, 52, rfl⟩
abbrev cc9_stg2_0 : Ref sig .tc := ⟨.vmem, 53, rfl⟩
abbrev cc9_stg3_0 : Ref sig .tc := ⟨.vmem, 54, rfl⟩
abbrev cc9_stg4_0 : Ref sig .tc := ⟨.vmem, 55, rfl⟩
abbrev cc9_stg5_0 : Ref sig .tc := ⟨.vmem, 56, rfl⟩
abbrev cc9_stg5_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35
abbrev cc7_sem0_0 : DmaSem sig := 36
abbrev cc7_sem0_1 : DmaSem sig := 37
abbrev cc7_sem1_0 : DmaSem sig := 38
abbrev cc7_sem2_0 : DmaSem sig := 39
abbrev cc7_sem3_0 : DmaSem sig := 40
abbrev cc7_sem3_1 : DmaSem sig := 41
abbrev cc8_sem0_0 : DmaSem sig := 42
abbrev cc8_sem0_1 : DmaSem sig := 43
abbrev cc8_sem1_0 : DmaSem sig := 44
abbrev cc8_sem2_0 : DmaSem sig := 45
abbrev cc8_sem3_0 : DmaSem sig := 46
abbrev cc8_sem4_0 : DmaSem sig := 47
abbrev cc8_sem5_0 : DmaSem sig := 48
abbrev cc8_sem5_1 : DmaSem sig := 49
abbrev cc9_sem0_0 : DmaSem sig := 50
abbrev cc9_sem0_1 : DmaSem sig := 51
abbrev cc9_sem1_0 : DmaSem sig := 52
abbrev cc9_sem2_0 : DmaSem sig := 53
abbrev cc9_sem3_0 : DmaSem sig := 54
abbrev cc9_sem4_0 : DmaSem sig := 55
abbrev cc9_sem5_0 : DmaSem sig := 56
abbrev cc9_sem5_1 : DmaSem sig := 57

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S32x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S32x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S32x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x1 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S32x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S32x10 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x10 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S10000x10 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  transposes_S128x64_S64x128_1_0 : S128x64.Transposes [1, 0] S64x128
  shapeCasts_S128_S1x128 : S128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S10000x128_o0_0_S10000x32 : S10000x128.Slices ![0, 0] S10000x32
  slices_S10000x128_o0_32_S10000x32 : S10000x128.Slices ![0, 32] S10000x32
  slices_S10000x128_o0_64_S10000x32 : S10000x128.Slices ![0, 64] S10000x32
  slices_S10000x128_o0_96_S10000x32 : S10000x128.Slices ![0, 96] S10000x32
  inb_S10000x32_S10000x32_0_0 : ∀ a, (![0, 0] : Fin 2 → Nat) a + S10000x32.size a ≤ S10000x32.size a
  h_S10000x32 : 0 < S10000x32.numel
  transposes_S128x32_S32x128_1_0 : S128x32.Transposes [1, 0] S32x128
  shapeCasts_S10000x32_S10000x32 : S10000x32.ShapeCasts S10000x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  shapeCasts_S32_S1x32 : S32.ShapeCasts S1x32
  shapeCasts_S1_S1x1 : S1.ShapeCasts S1x1
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S10_S1x10 : S10.ShapeCasts S1x10
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  inb_S10000x10_S10000x10_0_0 : ∀ a, (![0, 0] : Fin 2 → Nat) a + S10000x10.size a ≤ S10000x10.size a
  h_S10000x10 : 0 < S10000x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x128_S10000x128_1_0_0_1_n_n_wf : DotDims.WF S10000x64 S64x128 S10000x128 [1] [0] [0] [1] [] []
  dot_S10000x32_S32x128_S10000x128_1_0_0_1_n_n_wf : DotDims.WF S10000x32 S32x128 S10000x128 [1] [0] [0] [1] [] []
  dot_S10000x32_S32x32_S10000x32_1_0_0_1_n_n_wf : DotDims.WF S10000x32 S32x32 S10000x32 [1] [0] [0] [1] [] []
  dot_S10000x32_S32x1_S10000x1_1_0_0_1_n_n_wf : DotDims.WF S10000x32 S32x1 S10000x1 [1] [0] [0] [1] [] []
  dot_S10000x32_S32x10_S10000x10_1_0_0_1_n_n_wf : DotDims.WF S10000x32 S32x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x128.size a ≤ S64x128.size a
  hwx6_1 : ∀ i : grid6.Coords, EltTy.bits .f32 = 32 ∨ (Rect.block (s := S64x128) S64x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x32.size a ≤ S100000x32.size a
  hwx6_3 : ∀ i : grid6.Coords, EltTy.bits .f32 = 32 ∨ (Rect.block (s := S100000x32) S10000x32.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x32.size a ≤ S100000x32.size a
  hwx7_0 : ∀ i : grid7.Coords, EltTy.bits .f32 = 32 ∨ (Rect.block (s := S100000x32) S10000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S32x128.size a ≤ S32x128.size a
  hwx7_1 : ∀ i : grid7.Coords, EltTy.bits .f32 = 32 ∨ (Rect.block (s := S32x128) S32x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x32.size a ≤ S100000x32.size a
  hwx7_3 : ∀ i : grid7.Coords, EltTy.bits .f32 = 32 ∨ (Rect.block (s := S100000x32) S10000x32.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x32.size a ≤ S100000x32.size a
  hwx8_0 : ∀ i : grid8.Coords, EltTy.bits .f32 = 32 ∨ (Rect.block (s := S100000x32) S10000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S32x32.size a ≤ S32x32.size a
  hwx8_1 : ∀ i : grid8.Coords, EltTy.bits .f32 = 32 ∨ (Rect.block (s := S32x32) S32x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x32.size a ≤ S1x32.size a
  hwx8_2 : ∀ i : grid8.Coords, EltTy.bits .f32 = 32 ∨ (Rect.block (s := S1x32) S1x32.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S32x1.size a ≤ S32x1.size a
  hwx8_3 : ∀ i : grid8.Coords, EltTy.bits .f32 = 32 ∨ (Rect.block (s := S32x1) S32x1.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x1.size a ≤ S1x1.size a
  hwx8_4 : ∀ i : grid8.Coords, EltTy.bits .f32 = 32 ∨ (Rect.block (s := S1x1) S1x1.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x1.size a ≤ S100000x1.size a
  hwx8_5 : ∀ i : grid8.Coords, EltTy.bits .f32 = 32 ∨ (Rect.block (s := S100000x1) S10000x1.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x32.size a ≤ S100000x32.size a
  hwx9_0 : ∀ i : grid9.Coords, EltTy.bits .f32 = 32 ∨ (Rect.block (s := S100000x32) S10000x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S32x32.size a ≤ S32x32.size a
  hwx9_1 : ∀ i : grid9.Coords, EltTy.bits .f32 = 32 ∨ (Rect.block (s := S32x32) S32x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x32.size a ≤ S1x32.size a
  hwx9_2 : ∀ i : grid9.Coords, EltTy.bits .f32 = 32 ∨ (Rect.block (s := S1x32) S1x32.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S32x10.size a ≤ S32x10.size a
  hwx9_3 : ∀ i : grid9.Coords, EltTy.bits .f32 = 32 ∨ (Rect.block (s := S32x10) S32x10.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x10.size a ≤ S1x10.size a
  hwx9_4 : ∀ i : grid9.Coords, EltTy.bits .f32 = 32 ∨ (Rect.block (s := S1x10) S1x10.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S10000x10.size a ≤ S100000x10.size a
  hwx9_5 : ∀ i : grid9.Coords, EltTy.bits .f32 = 32 ∨ (Rect.block (s := S100000x10) S10000x10.size (cc9_transform_5 i) (hinb9_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def dot_S10000x32_S32x10_S10000x10_1_0_0_1_n_n : DotDims S10000x32 S32x10 S10000x10 where
  lhsContracting := [1]
  rhsContracting := [0]
  lhsNonContracting := [0]
  rhsNonContracting := [1]
  lhsBatch := []
  rhsBatch := []
  wf := dot_S10000x32_S32x10_S10000x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v75) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v76) S64x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v79) S10000x32.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v79) S10000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v80) S32x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v82) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v83) S10000x32.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v83) S10000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg16) S32x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v84) S1x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg18) S32x1.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v85) S1x1.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v86) S10000x1.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v83) S10000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg20) S32x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v87) S1x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg22) S32x10.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v88) S1x10.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v89) S10000x10.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S128x32 : Shape := ⟨2, ![128, 32]⟩
abbrev S128 : Shape := ⟨1, ![128]⟩
abbrev S32x32 : Shape := ⟨2, ![32, 32]⟩
abbrev S32 : Shape := ⟨1, ![32]⟩
abbrev S32x1 : Shape := ⟨2, ![32, 1]⟩
abbrev S1 : Shape := ⟨1, ![1]⟩
abbrev S32x10 : Shape := ⟨2, ![32, 10]⟩
abbrev S10 : Shape := ⟨1, ![10]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S64x128 : Shape := ⟨2, ![64, 128]⟩
abbrev S1x128 : Shape := ⟨2, ![1, 128]⟩
abbrev S100000x32 : Shape := ⟨2, ![100000, 32]⟩
abbrev S32x128 : Shape := ⟨2, ![32, 128]⟩
abbrev S1x32 : Shape := ⟨2, ![1, 32]⟩
abbrev S100000x1 : Shape := ⟨2, ![100000, 1]⟩
abbrev S1x1 : Shape := ⟨2, ![1, 1]⟩
abbrev S100000x10 : Shape := ⟨2, ![100000, 10]⟩
abbrev S1x10 : Shape := ⟨2, ![1, 10]⟩

abbrev nBuf : Space → Nat
  | .hbm => 217
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S128x64, .f32⟩
  | 9 => ⟨S128x32, .f32⟩
  | 10 => ⟨S128, .f32⟩
  | 11 => ⟨S128, .f32⟩
  | 12 => ⟨S128x32, .f32⟩
  | 13 => ⟨S128x32, .f32⟩
  | 14 => ⟨S128, .f32⟩
  | 15 => ⟨S128, .f32⟩
  | 16 => ⟨S32x32, .f32⟩
  | 17 => ⟨S32, .f32⟩
  | 18 => ⟨S32x1, .f32⟩
  | 19 => ⟨S1, .f32⟩
  | 20 => ⟨S32x32, .f32⟩
  | 21 => ⟨S32, .f32⟩
  | 22 => ⟨S32x10, .f32⟩
  | 23 => ⟨S10, .f32⟩
  | 24 => ⟨S100000, .i32⟩
  | 25 => ⟨S1x1600000, .i32⟩
  | 26 => ⟨S1600000, .i32⟩
  | 27 => ⟨S1700000, .i32⟩
  | 28 => ⟨S1x1600000, .i32⟩
  | 29 => ⟨S1600000, .i32⟩
  | 30 => ⟨S1700000, .i32⟩
  | 31 => ⟨S_, .f32⟩
  | 32 => ⟨S1700000, .f32⟩
  | 33 => ⟨S_, .f32⟩
  | 34 => ⟨S100000, .f32⟩
  | 35 => ⟨S1700000x1, .i32⟩
  | 36 => ⟨S100000, .f32⟩
  | 37 => ⟨S_, .f32⟩
  | 38 => ⟨S100000, .f32⟩
  | 39 => ⟨S100000, .i1⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000, .f32⟩
  | 63 => ⟨S1700000, .f32⟩
  | 64 => ⟨S1700000x1, .f32⟩
  | 65 => ⟨S100000x64, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x64, .f32⟩
  | 75 => ⟨S1700000x64, .f32⟩
  | 76 => ⟨S1700000x64, .f32⟩
  | 77 => ⟨S_, .f32⟩
  | 78 => ⟨S100000x64, .f32⟩
  | 79 => ⟨S1700000x1, .i32⟩
  | 80 => ⟨S100000x64, .f32⟩
  | 81 => ⟨S1x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S100000x64, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000x64, .f32⟩
  | 97 => ⟨S1700000x64, .f32⟩
  | 98 => ⟨S1700000x64, .f32⟩
  | 99 => ⟨S_, .f32⟩
  | 100 => ⟨S100000x64, .f32⟩
  | 101 => ⟨S1700000x1, .i32⟩
  | 102 => ⟨S100000x64, .f32⟩
  | 103 => ⟨S1x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S100000x64, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x64, .f32⟩
  | 120 => ⟨S1700000x64, .f32⟩
  | 121 => ⟨S_, .f32⟩
  | 122 => ⟨S100000x64, .f32⟩
  | 123 => ⟨S1700000x1, .i32⟩
  | 124 => ⟨S100000x64, .f32⟩
  | 125 => ⟨S1x64, .f32⟩
  | 126 => ⟨S100000x64, .f32⟩
  | 127 => ⟨S100000x64, .f32⟩
  | _ => ⟨S100000x128, .f32⟩

abbrev hbmTy0_1 (i : Nat) : BufTy := match i % 128 with
  | 0 => ⟨S_, .f32⟩
  | 1 => ⟨S100000x64, .f32⟩
  | 2 => ⟨S100000x64, .f32⟩
  | 3 => ⟨S64x128, .f32⟩
  | 4 => ⟨S100000x128, .f32⟩
  | 5 => ⟨S1x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S100000x32, .f32⟩
  | 12 => ⟨S100000x32, .f32⟩
  | 13 => ⟨S100000x32, .f32⟩
  | 14 => ⟨S100000x32, .f32⟩
  | 15 => ⟨S100000x32, .f32⟩
  | 16 => ⟨S100000x32, .f32⟩
  | 17 => ⟨S_, .f32⟩
  | 18 => ⟨S100000x32, .f32⟩
  | 19 => ⟨S100000x32, .f32⟩
  | 20 => ⟨S_, .f32⟩
  | 21 => ⟨S100000x32, .f32⟩
  | 22 => ⟨S100000x32, .f32⟩
  | 23 => ⟨S100000x32, .f32⟩
  | 24 => ⟨S100000x32, .f32⟩
  | 25 => ⟨S100000x32, .f32⟩
  | 26 => ⟨S100000x32, .f32⟩
  | 27 => ⟨S_, .f32⟩
  | 28 => ⟨S100000x32, .f32⟩
  | 29 => ⟨S100000x32, .f32⟩
  | 30 => ⟨S_, .f32⟩
  | 31 => ⟨S100000x32, .f32⟩
  | 32 => ⟨S100000x32, .f32⟩
  | 33 => ⟨S100000x32, .f32⟩
  | 34 => ⟨S100000x32, .f32⟩
  | 35 => ⟨S32x128, .f32⟩
  | 36 => ⟨S100000x128, .f32⟩
  | 37 => ⟨S1x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S100000x32, .f32⟩
  | 44 => ⟨S100000x32, .f32⟩
  | 45 => ⟨S100000x32, .f32⟩
  | 46 => ⟨S100000x32, .f32⟩
  | 47 => ⟨S100000x32, .f32⟩
  | 48 => ⟨S100000x32, .f32⟩
  | 49 => ⟨S_, .f32⟩
  | 50 => ⟨S100000x32, .f32⟩
  | 51 => ⟨S100000x32, .f32⟩
  | 52 => ⟨S_, .f32⟩
  | 53 => ⟨S100000x32, .f32⟩
  | 54 => ⟨S100000x32, .f32⟩
  | 55 => ⟨S100000x32, .f32⟩
  | 56 => ⟨S100000x32, .f32⟩
  | 57 => ⟨S100000x32, .f32⟩
  | 58 => ⟨S100000x32, .f32⟩
  | 59 => ⟨S_, .f32⟩
  | 60 => ⟨S100000x32, .f32⟩
  | 61 => ⟨S100000x32, .f32⟩
  | 62 => ⟨S_, .f32⟩
  | 63 => ⟨S100000x32, .f32⟩
  | 64 => ⟨S100000x32, .f32⟩
  | 65 => ⟨S100000x32, .f32⟩
  | 66 => ⟨S100000x32, .f32⟩
  | 67 => ⟨S100000x32, .f32⟩
  | 68 => ⟨S1x32, .f32⟩
  | 69 => ⟨S100000x32, .f32⟩
  | 70 => ⟨S100000x32, .f32⟩
  | 71 => ⟨S_, .f32⟩
  | 72 => ⟨S100000x32, .f32⟩
  | 73 => ⟨S100000x32, .f32⟩
  | 74 => ⟨S100000x1, .f32⟩
  | 75 => ⟨S1x1, .f32⟩
  | 76 => ⟨S100000x1, .f32⟩
  | 77 => ⟨S100000x1, .f32⟩
  | 78 => ⟨S100000x32, .f32⟩
  | 79 => ⟨S1x32, .f32⟩
  | 80 => ⟨S100000x32, .f32⟩
  | 81 => ⟨S100000x32, .f32⟩
  | 82 => ⟨S_, .f32⟩
  | 83 => ⟨S100000x32, .f32⟩
  | 84 => ⟨S100000x32, .f32⟩
  | 85 => ⟨S100000x10, .f32⟩
  | 86 => ⟨S1x10, .f32⟩
  | 87 => ⟨S100000x10, .f32⟩
  | 88 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_cst_0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_v14 : Ref sig .tc := ⟨.hbm, 44, rfl⟩
abbrev main_c : Ref sig .tc := ⟨.hbm, 45, rfl⟩
abbrev main_v15 : Ref sig .tc := ⟨.hbm, 46, rfl⟩
abbrev main_v16 : Ref sig .tc := ⟨.hbm, 47, rfl⟩
abbrev main_c_3 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_c_4 : Ref sig .tc := ⟨.hbm, 54, rfl⟩
abbrev main_v22 : Ref sig .tc := ⟨.hbm, 55, rfl⟩
abbrev main_v23 : Ref sig .tc := ⟨.hbm, 56, rfl⟩
abbrev main_c_5 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_6 : Ref sig .tc := ⟨.hbm, 66, rfl⟩
abbrev main_v32 : Ref sig .tc := ⟨.hbm, 67, rfl⟩
abbrev main_v33 : Ref sig .tc := ⟨.hbm, 68, rfl⟩
abbrev main_c_7 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_8 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_call1_cst : Ref sig .tc := ⟨.hbm, 84, rfl⟩
abbrev main_call1_v0 : Ref sig .tc := ⟨.hbm, 85, rfl⟩
abbrev main_v47 : Ref sig .tc := ⟨.hbm, 86, rfl⟩
abbrev main_v48 : Ref sig .tc := ⟨.hbm, 87, rfl⟩
abbrev main_c_9 : Ref sig .tc := ⟨.hbm, 88, rfl⟩
abbrev main_v49 : Ref sig .tc := ⟨.hbm, 89, rfl⟩
abbrev main_v50 : Ref sig .tc := ⟨.hbm, 90, rfl⟩
abbrev main_c_10 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_11 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_call2_cst : Ref sig .tc := ⟨.hbm, 106, rfl⟩
abbrev main_call2_v0 : Ref sig .tc := ⟨.hbm, 107, rfl⟩
abbrev main_v64 : Ref sig .tc := ⟨.hbm, 108, rfl⟩
abbrev main_v65 : Ref sig .tc := ⟨.hbm, 109, rfl⟩
abbrev main_c_12 : Ref sig .tc := ⟨.hbm, 110, rfl⟩
abbrev main_v66 : Ref sig .tc := ⟨.hbm, 111, rfl⟩
abbrev main_v67 : Ref sig .tc := ⟨.hbm, 112, rfl⟩
abbrev main_c_13 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_14 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_call3_cst : Ref sig .tc := ⟨.hbm, 128, rfl⟩
abbrev main_call3_v0 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_cst_15 : Ref sig .tc := ⟨.hbm, 145, rfl⟩
abbrev main_v96 : Ref sig .tc := ⟨.hbm, 146, rfl⟩
abbrev main_v97 : Ref sig .tc := ⟨.hbm, 147, rfl⟩
abbrev main_cst_16 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_17 : Ref sig .tc := ⟨.hbm, 155, rfl⟩
abbrev main_v104 : Ref sig .tc := ⟨.hbm, 156, rfl⟩
abbrev main_v105 : Ref sig .tc := ⟨.hbm, 157, rfl⟩
abbrev main_cst_18 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_19 : Ref sig .tc := ⟨.hbm, 177, rfl⟩
abbrev main_v124 : Ref sig .tc := ⟨.hbm, 178, rfl⟩
abbrev main_v125 : Ref sig .tc := ⟨.hbm, 179, rfl⟩
abbrev main_cst_20 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_21 : Ref sig .tc := ⟨.hbm, 187, rfl⟩
abbrev main_v132 : Ref sig .tc := ⟨.hbm, 188, rfl⟩
abbrev main_v133 : Ref sig .tc := ⟨.hbm, 189, rfl⟩
abbrev main_cst_22 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_call4_cst : Ref sig .tc := ⟨.hbm, 199, rfl⟩
abbrev main_call4_v0 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_call5_cst : Ref sig .tc := ⟨.hbm, 210, rfl⟩
abbrev main_call5_v0 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S100000x128_S100000x32_0_0 : S100000x128.Slices ![0, 0] S100000x32
  slices_S100000x128_S100000x32_0_32 : S100000x128.Slices ![0, 32] S100000x32
  slices_S100000x128_S100000x32_0_64 : S100000x128.Slices ![0, 64] S100000x32
  slices_S100000x128_S100000x32_0_96 : S100000x128.Slices ![0, 96] S100000x32
  bcast_S_S100000x32 : S_.BroadcastsInDim S100000x32 (![] : Fin 0 → Fin S100000x32.rank)
  transposes_S128x32_S32x128_1_0 : S128x32.Transposes [1, 0] S32x128
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x128_S100000x128_1_0_0_1_n_n_wf : DotDims.WF S100000x64 S64x128 S100000x128 [1] [0] [0] [1] [] []
  dot_S100000x32_S32x128_S100000x128_1_0_0_1_n_n_wf : DotDims.WF S100000x32 S32x128 S100000x128 [1] [0] [0] [1] [] []
  dot_S100000x32_S32x32_S100000x32_1_0_0_1_n_n_wf : DotDims.WF S100000x32 S32x32 S100000x32 [1] [0] [0] [1] [] []
  dot_S100000x32_S32x1_S100000x1_1_0_0_1_n_n_wf : DotDims.WF S100000x32 S32x1 S100000x1 [1] [0] [0] [1] [] []
  dot_S100000x32_S32x10_S100000x10_1_0_0_1_n_n_wf : DotDims.WF S100000x32 S32x10 S100000x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def dot_S100000x32_S32x10_S100000x10_1_0_0_1_n_n : DotDims S100000x32 S32x10 S100000x10 where
  lhsContracting := [1]
  rhsContracting := [0]
  lhsNonContracting := [0]
  rhsNonContracting := [1]
  lhsBatch := []
  rhsBatch := []
  wf := dot_S100000x32_S32x10_S100000x10_1_0_0_1_n_n_wf

class Facts : Prop extends Facts₀ where

variable [Facts]
-- ==== Proof.KernelContents.lean ====
/-
  The idealized kernel program's run, with its two RESULT arrays named.

  @main is twenty segments: ten stretches of host operations and ten pipelined regions.  The buffer contents at each
  segment boundary form a fold from the launch memory (`Gen.W0` … `Gen.W20`): a host stretch applies its operations,
  a region replaces its arrays by what its write-backs leave and keeps every other buffer.  The launch theorem for
  such a chain of segments ends in a thread state that holds every unscoped buffer at the last boundary's contents
  `Gen.W20`; the frame statement keeps of this only the argument arrays.  Here the same launch is read at the two
  result buffers as well, so that the value of each result is `Gen.W20 m ρ c` at its buffer.
-/
import proofs.«128439_j84791244358296_1_alg».proof.Proof.Gen.KernelIdeal.Frame

set_option maxRecDepth 16384

noncomputable section

namespace Cert.KernelIdeal.Contents

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in its final state each result buffer holds
    the last boundary's contents at that buffer, and each argument array is as launched. -/
theorem run : θ_run defs (onTc (τ := τ) (main (F := F))) ⟨m, fun _ => 0, ρ⟩ (fun r => ∀ c : Dev nD,
      r.2.mem ((c.tc : Thread nD τ).loc main_v86) = W20 m ρ c (Proc.devRef .tc main_v86)
      ∧ r.2.mem ((c.tc : Thread nD τ).loc main_v89) = W20 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v86 (by decide)),
       h c _ (mem_uc main_v89 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c),
       (h c _ (mem_uc main_arg17 (by decide))).trans (W20_main_arg17 m ρ c),
       (h c _ (mem_uc main_arg18 (by decide))).trans (W20_main_arg18 m ρ c),
       (h c _ (mem_uc main_arg19 (by decide))).trans (W20_main_arg19 m ρ c),
       (h c _ (mem_uc main_arg20 (by decide))).trans (W20_main_arg20 m ρ c),
       (h c _ (mem_uc main_arg21 (by decide))).trans (W20_main_arg21 m ρ c),
       (h c _ (mem_uc main_arg22 (by decide))).trans (W20_main_arg22 m ρ c),
       (h c _ (mem_uc main_arg23 (by decide))).trans (W20_main_arg23 m ρ c)⟩)

end Cert.KernelIdeal.Contents

end
-- ==== Proof.KernelCarry.lean ====
/-
  Buffers that nothing has written yet.

  Between the launch and the place where it is consumed, an argument array is written by no host operation and by no
  region (a region that stages it through an input window leaves the array as it was).  So at the boundary where it is
  consumed it still holds its launch contents.  The same holds, from the boundary after the first host stretch on, for
  the three buffers that describe the graph (the source and destination node of every edge with the self-loops appended,
  and the symmetric normalisation weight of every edge): they are computed once and only read afterwards.
-/
import proofs.«128439_j84791244358296_1_alg».proof.Proof.Gen.KernelIdeal.Frame

noncomputable section

set_option maxRecDepth 16384

namespace Cert.KernelIdeal.Carry

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

/-- A stretch of host operations none of which writes the buffer leaves the buffer's contents: every operation writes
    exactly its result buffer, and that is another reference. -/
macro "host_keeps" : tactic => `(tactic| (
  refine StableHlo.after_of_forall_not_mem _ _ (List.forall_iff_forall_mem.mp ?_)
  simp only [hostOps0, hostOps0_1, hostOps0_2, hostOps1, hostOps3, hostOps5, hostOps6, hostOps7, hostOps8, hostOps9,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable {F : FTy → Type} [FloatOps F]
variable (m : (ℓ : Loc nD τ sig) → Buf (Elt F) ℓ) (ρ : Dev nD → PrngReg) (c : Dev nD)

/-! ## The argument arrays, each at the boundary where it is consumed -/

theorem arg0_at_3 : W3 m ρ c (Proc.devRef .tc main_arg0) = m ((c : Thread nD τ).loc main_arg0) :=
  ((show W3 m ρ c (Proc.devRef .tc main_arg0) = W2 m ρ c (Proc.devRef .tc main_arg0) by show StableHlo.after hostOps0_2 (W2 m ρ c) (Proc.devRef .tc main_arg0) = _; host_keeps).trans ((show W2 m ρ c (Proc.devRef .tc main_arg0) = W1 m ρ c (Proc.devRef .tc main_arg0) by show StableHlo.after hostOps0_1 (W1 m ρ c) (Proc.devRef .tc main_arg0) = _; host_keeps).trans (show W1 m ρ c (Proc.devRef .tc main_arg0) = W0 m ρ c (Proc.devRef .tc main_arg0) by show StableHlo.after hostOps0 (W0 m ρ c) (Proc.devRef .tc main_arg0) = _; host_keeps)))

theorem arg2_at_3 : W3 m ρ c (Proc.devRef .tc main_arg2) = m ((c : Thread nD τ).loc main_arg2) :=
  ((show W3 m ρ c (Proc.devRef .tc main_arg2) = W2 m ρ c (Proc.devRef .tc main_arg2) by show StableHlo.after hostOps0_2 (W2 m ρ c) (Proc.devRef .tc main_arg2) = _; host_keeps).trans ((show W2 m ρ c (Proc.devRef .tc main_arg2) = W1 m ρ c (Proc.devRef .tc main_arg2) by show StableHlo.after hostOps0_1 (W1 m ρ c) (Proc.devRef .tc main_arg2) = _; host_keeps).trans (show W1 m ρ c (Proc.devRef .tc main_arg2) = W0 m ρ c (Proc.devRef .tc main_arg2) by show StableHlo.after hostOps0 (W0 m ρ c) (Proc.devRef .tc main_arg2) = _; host_keeps)))

theorem arg3_at_4 : W4 m ρ c (Proc.devRef .tc main_arg3) = m ((c : Thread nD τ).loc main_arg3) :=
  ((W4_of_ne m ρ c main_arg3 (by decide)).trans ((show W3 m ρ c (Proc.devRef .tc main_arg3) = W2 m ρ c (Proc.devRef .tc main_arg3) by show StableHlo.after hostOps0_2 (W2 m ρ c) (Proc.devRef .tc main_arg3) = _; host_keeps).trans ((show W2 m ρ c (Proc.devRef .tc main_arg3) = W1 m ρ c (Proc.devRef .tc main_arg3) by show StableHlo.after hostOps0_1 (W1 m ρ c) (Proc.devRef .tc main_arg3) = _; host_keeps).trans (show W1 m ρ c (Proc.devRef .tc main_arg3) = W0 m ρ c (Proc.devRef .tc main_arg3) by show StableHlo.after hostOps0 (W0 m ρ c) (Proc.devRef .tc main_arg3) = _; host_keeps))))

theorem arg4_at_6 : W6 m ρ c (Proc.devRef .tc main_arg4) = m ((c : Thread nD τ).loc main_arg4) :=
  ((W6_of_ne m ρ c main_arg4 (by decide)).trans ((show W5 m ρ c (Proc.devRef .tc main_arg4) = W4 m ρ c (Proc.devRef .tc main_arg4) by show StableHlo.after hostOps1 (W4 m ρ c) (Proc.devRef .tc main_arg4) = _; host_keeps).trans ((W4_of_ne m ρ c main_arg4 (by decide)).trans ((show W3 m ρ c (Proc.devRef .tc main_arg4) = W2 m ρ c (Proc.devRef .tc main_arg4) by show StableHlo.after hostOps0_2 (W2 m ρ c) (Proc.devRef .tc main_arg4) = _; host_keeps).trans ((show W2 m ρ c (Proc.devRef .tc main_arg4) = W1 m ρ c (Proc.devRef .tc main_arg4) by show StableHlo.after hostOps0_1 (W1 m ρ c) (Proc.devRef .tc main_arg4) = _; host_keeps).trans (show W1 m ρ c (Proc.devRef .tc main_arg4) = W0 m ρ c (Proc.devRef .tc main_arg4) by show StableHlo.after hostOps0 (W0 m ρ c) (Proc.devRef .tc main_arg4) = _; host_keeps))))))

theorem arg5_at_7 : W7 m ρ c (Proc.devRef .tc main_arg5) = m ((c : Thread nD τ).loc main_arg5) :=
  ((W7_of_ne m ρ c main_arg5 (by decide)).trans ((W6_of_ne m ρ c main_arg5 (by decide)).trans ((show W5 m ρ c (Proc.devRef .tc main_arg5) = W4 m ρ c (Proc.devRef .tc main_arg5) by show StableHlo.after hostOps1 (W4 m ρ c) (Proc.devRef .tc main_arg5) = _; host_keeps).trans ((W4_of_ne m ρ c main_arg5 (by decide)).trans ((show W3 m ρ c (Proc.devRef .tc main_arg5) = W2 m ρ c (Proc.devRef .tc main_arg5) by show StableHlo.after hostOps0_2 (W2 m ρ c) (Proc.devRef .tc main_arg5) = _; host_keeps).trans ((show W2 m ρ c (Proc.devRef .tc main_arg5) = W1 m ρ c (Proc.devRef .tc main_arg5) by show StableHlo.after hostOps0_1 (W1 m ρ c) (Proc.devRef .tc main_arg5) = _; host_keeps).trans (show W1 m ρ c (Proc.devRef .tc main_arg5) = W0 m ρ c (Proc.devRef .tc main_arg5) by show StableHlo.after hostOps0 (W0 m ρ c) (Proc.devRef .tc main_arg5) = _; host_keeps)))))))

theorem arg6_at_9 : W9 m ρ c (Proc.devRef .tc main_arg6) = m ((c : Thread nD τ).loc main_arg6) :=
  ((W9_of_ne m ρ c main_arg6 (by decide)).trans ((show W8 m ρ c (Proc.devRef .tc main_arg6) = W7 m ρ c (Proc.devRef .tc main_arg6) by show StableHlo.after hostOps3 (W7 m ρ c) (Proc.devRef .tc main_arg6) = _; host_keeps).trans ((W7_of_ne m ρ c main_arg6 (by decide)).trans ((W6_of_ne m ρ c main_arg6 (by decide)).trans ((show W5 m ρ c (Proc.devRef .tc main_arg6) = W4 m ρ c (Proc.devRef .tc main_arg6) by show StableHlo.after hostOps1 (W4 m ρ c) (Proc.devRef .tc main_arg6) = _; host_keeps).trans ((W4_of_ne m ρ c main_arg6 (by decide)).trans ((show W3 m ρ c (Proc.devRef .tc main_arg6) = W2 m ρ c (Proc.devRef .tc main_arg6) by show StableHlo.after hostOps0_2 (W2 m ρ c) (Proc.devRef .tc main_arg6) = _; host_keeps).trans ((show W2 m ρ c (Proc.devRef .tc main_arg6) = W1 m ρ c (Proc.devRef .tc main_arg6) by show StableHlo.after hostOps0_1 (W1 m ρ c) (Proc.devRef .tc main_arg6) = _; host_keeps).trans (show W1 m ρ c (Proc.devRef .tc main_arg6) = W0 m ρ c (Proc.devRef .tc main_arg6) by show StableHlo.after hostOps0 (W0 m ρ c) (Proc.devRef .tc main_arg6) = _; host_keeps)))))))))

theorem arg7_at_10 : W10 m ρ c (Proc.devRef .tc main_arg7) = m ((c : Thread nD τ).loc main_arg7) :=
  ((W10_of_ne m ρ c main_arg7 (by decide)).trans ((W9_of_ne m ρ c main_arg7 (by decide)).trans ((show W8 m ρ c (Proc.devRef .tc main_arg7) = W7 m ρ c (Proc.devRef .tc main_arg7) by show StableHlo.after hostOps3 (W7 m ρ c) (Proc.devRef .tc main_arg7) = _; host_keeps).trans ((W7_of_ne m ρ c main_arg7 (by decide)).trans ((W6_of_ne m ρ c main_arg7 (by decide)).trans ((show W5 m ρ c (Proc.devRef .tc main_arg7) = W4 m ρ c (Proc.devRef .tc main_arg7) by show StableHlo.after hostOps1 (W4 m ρ c) (Proc.devRef .tc main_arg7) = _; host_keeps).trans ((W4_of_ne m ρ c main_arg7 (by decide)).trans ((show W3 m ρ c (Proc.devRef .tc main_arg7) = W2 m ρ c (Proc.devRef .tc main_arg7) by show StableHlo.after hostOps0_2 (W2 m ρ c) (Proc.devRef .tc main_arg7) = _; host_keeps).trans ((show W2 m ρ c (Proc.devRef .tc main_arg7) = W1 m ρ c (Proc.devRef .tc main_arg7) by show StableHlo.after hostOps0_1 (W1 m ρ c) (Proc.devRef .tc main_arg7) = _; host_keeps).trans (show W1 m ρ c (Proc.devRef .tc main_arg7) = W0 m ρ c (Proc.devRef .tc main_arg7) by show StableHlo.after hostOps0 (W0 m ρ c) (Proc.devRef .tc main_arg7) = _; host_keeps))))))))))

theorem arg8_at_12 : W12 m ρ c (Proc.devRef .tc main_arg8) = m ((c : Thread nD τ).loc main_arg8) :=
  (((W20_of_ne m ρ c main_arg8 (by decide)).trans ((show W19 m ρ c (Proc.devRef .tc main_arg8) = W18 m ρ c (Proc.devRef .tc main_arg8) by show StableHlo.after hostOps9 (W18 m ρ c) (Proc.devRef .tc main_arg8) = _; host_keeps).trans ((W18_of_ne m ρ c main_arg8 (by decide)).trans ((show W17 m ρ c (Proc.devRef .tc main_arg8) = W16 m ρ c (Proc.devRef .tc main_arg8) by show StableHlo.after hostOps8 (W16 m ρ c) (Proc.devRef .tc main_arg8) = _; host_keeps).trans ((W16_of_ne m ρ c main_arg8 (by decide)).trans ((show W15 m ρ c (Proc.devRef .tc main_arg8) = W14 m ρ c (Proc.devRef .tc main_arg8) by show StableHlo.after hostOps7 (W14 m ρ c) (Proc.devRef .tc main_arg8) = _; host_keeps).trans ((W14_of_ne m ρ c main_arg8 (by decide)).trans (show W13 m ρ c (Proc.devRef .tc main_arg8) = W12 m ρ c (Proc.devRef .tc main_arg8) by show StableHlo.after hostOps6 (W12 m ρ c) (Proc.devRef .tc main_arg8) = _; host_keeps))))))))).symm.trans (W20_main_arg8 m ρ c)

theorem arg10_at_12 : W12 m ρ c (Proc.devRef .tc main_arg10) = m ((c : Thread nD τ).loc main_arg10) :=
  (((W20_of_ne m ρ c main_arg10 (by decide)).trans ((show W19 m ρ c (Proc.devRef .tc main_arg10) = W18 m ρ c (Proc.devRef .tc main_arg10) by show StableHlo.after hostOps9 (W18 m ρ c) (Proc.devRef .tc main_arg10) = _; host_keeps).trans ((W18_of_ne m ρ c main_arg10 (by decide)).trans ((show W17 m ρ c (Proc.devRef .tc main_arg10) = W16 m ρ c (Proc.devRef .tc main_arg10) by show StableHlo.after hostOps8 (W16 m ρ c) (Proc.devRef .tc main_arg10) = _; host_keeps).trans ((W16_of_ne m ρ c main_arg10 (by decide)).trans ((show W15 m ρ c (Proc.devRef .tc main_arg10) = W14 m ρ c (Proc.devRef .tc main_arg10) by show StableHlo.after hostOps7 (W14 m ρ c) (Proc.devRef .tc main_arg10) = _; host_keeps).trans ((W14_of_ne m ρ c main_arg10 (by decide)).trans (show W13 m ρ c (Proc.devRef .tc main_arg10) = W12 m ρ c (Proc.devRef .tc main_arg10) by show StableHlo.after hostOps6 (W12 m ρ c) (Proc.devRef .tc main_arg10) = _; host_keeps))))))))).symm.trans (W20_main_arg10 m ρ c)

theorem arg11_at_12 : W12 m ρ c (Proc.devRef .tc main_arg11) = m ((c : Thread nD τ).loc main_arg11) :=
  (((W20_of_ne m ρ c main_arg11 (by decide)).trans ((show W19 m ρ c (Proc.devRef .tc main_arg11) = W18 m ρ c (Proc.devRef .tc main_arg11) by show StableHlo.after hostOps9 (W18 m ρ c) (Proc.devRef .tc main_arg11) = _; host_keeps).trans ((W18_of_ne m ρ c main_arg11 (by decide)).trans ((show W17 m ρ c (Proc.devRef .tc main_arg11) = W16 m ρ c (Proc.devRef .tc main_arg11) by show StableHlo.after hostOps8 (W16 m ρ c) (Proc.devRef .tc main_arg11) = _; host_keeps).trans ((W16_of_ne m ρ c main_arg11 (by decide)).trans ((show W15 m ρ c (Proc.devRef .tc main_arg11) = W14 m ρ c (Proc.devRef .tc main_arg11) by show StableHlo.after hostOps7 (W14 m ρ c) (Proc.devRef .tc main_arg11) = _; host_keeps).trans ((W14_of_ne m ρ c main_arg11 (by decide)).trans (show W13 m ρ c (Proc.devRef .tc main_arg11) = W12 m ρ c (Proc.devRef .tc main_arg11) by show StableHlo.after hostOps6 (W12 m ρ c) (Proc.devRef .tc main_arg11) = _; host_keeps))))))))).symm.trans (W20_main_arg11 m ρ c)

theorem arg12_at_14 : W14 m ρ c (Proc.devRef .tc main_arg12) = m ((c : Thread nD τ).loc main_arg12) :=
  (((W20_of_ne m ρ c main_arg12 (by decide)).trans ((show W19 m ρ c (Proc.devRef .tc main_arg12) = W18 m ρ c (Proc.devRef .tc main_arg12) by show StableHlo.after hostOps9 (W18 m ρ c) (Proc.devRef .tc main_arg12) = _; host_keeps).trans ((W18_of_ne m ρ c main_arg12 (by decide)).trans ((show W17 m ρ c (Proc.devRef .tc main_arg12) = W16 m ρ c (Proc.devRef .tc main_arg12) by show StableHlo.after hostOps8 (W16 m ρ c) (Proc.devRef .tc main_arg12) = _; host_keeps).trans ((W16_of_ne m ρ c main_arg12 (by decide)).trans (show W15 m ρ c (Proc.devRef .tc main_arg12) = W14 m ρ c (Proc.devRef .tc main_arg12) by show StableHlo.after hostOps7 (W14 m ρ c) (Proc.devRef .tc main_arg12) = _; host_keeps))))))).symm.trans (W20_main_arg12 m ρ c)

theorem arg14_at_14 : W14 m ρ c (Proc.devRef .tc main_arg14) = m ((c : Thread nD τ).loc main_arg14) :=
  (((W20_of_ne m ρ c main_arg14 (by decide)).trans ((show W19 m ρ c (Proc.devRef .tc main_arg14) = W18 m ρ c (Proc.devRef .tc main_arg14) by show StableHlo.after hostOps9 (W18 m ρ c) (Proc.devRef .tc main_arg14) = _; host_keeps).trans ((W18_of_ne m ρ c main_arg14 (by decide)).trans ((show W17 m ρ c (Proc.devRef .tc main_arg14) = W16 m ρ c (Proc.devRef .tc main_arg14) by show StableHlo.after hostOps8 (W16 m ρ c) (Proc.devRef .tc main_arg14) = _; host_keeps).trans ((W16_of_ne m ρ c main_arg14 (by decide)).trans (show W15 m ρ c (Proc.devRef .tc main_arg14) = W14 m ρ c (Proc.devRef .tc main_arg14) by show StableHlo.after hostOps7 (W14 m ρ c) (Proc.devRef .tc main_arg14) = _; host_keeps))))))).symm.trans (W20_main_arg14 m ρ c)

theorem arg15_at_14 : W14 m ρ c (Proc.devRef .tc main_arg15) = m ((c : Thread nD τ).loc main_arg15) :=
  (((W20_of_ne m ρ c main_arg15 (by decide)).trans ((show W19 m ρ c (Proc.devRef .tc main_arg15) = W18 m ρ c (Proc.devRef .tc main_arg15) by show StableHlo.after hostOps9 (W18 m ρ c) (Proc.devRef .tc main_arg15) = _; host_keeps).trans ((W18_of_ne m ρ c main_arg15 (by decide)).trans ((show W17 m ρ c (Proc.devRef .tc main_arg15) = W16 m ρ c (Proc.devRef .tc main_arg15) by show StableHlo.after hostOps8 (W16 m ρ c) (Proc.devRef .tc main_arg15) = _; host_keeps).trans ((W16_of_ne m ρ c main_arg15 (by decide)).trans (show W15 m ρ c (Proc.devRef .tc main_arg15) = W14 m ρ c (Proc.devRef .tc main_arg15) by show StableHlo.after hostOps7 (W14 m ρ c) (Proc.devRef .tc main_arg15) = _; host_keeps))))))).symm.trans (W20_main_arg15 m ρ c)

theorem arg17_at_16 : W16 m ρ c (Proc.devRef .tc main_arg17) = m ((c : Thread nD τ).loc main_arg17) :=
  (((W20_of_ne m ρ c main_arg17 (by decide)).trans ((show W19 m ρ c (Proc.devRef .tc main_arg17) = W18 m ρ c (Proc.devRef .tc main_arg17) by show StableHlo.after hostOps9 (W18 m ρ c) (Proc.devRef .tc main_arg17) = _; host_keeps).trans ((W18_of_ne m ρ c main_arg17 (by decide)).trans (show W17 m ρ c (Proc.devRef .tc main_arg17) = W16 m ρ c (Proc.devRef .tc main_arg17) by show StableHlo.after hostOps8 (W16 m ρ c) (Proc.devRef .tc main_arg17) = _; host_keeps))))).symm.trans (W20_main_arg17 m ρ c)

theorem arg19_at_16 : W16 m ρ c (Proc.devRef .tc main_arg19) = m ((c : Thread nD τ).loc main_arg19) :=
  (((W20_of_ne m ρ c main_arg19 (by decide)).trans ((show W19 m ρ c (Proc.devRef .tc main_arg19) = W18 m ρ c (Proc.devRef .tc main_arg19) by show StableHlo.after hostOps9 (W18 m ρ c) (Proc.devRef .tc main_arg19) = _; host_keeps).trans ((W18_of_ne m ρ c main_arg19 (by decide)).trans (show W17 m ρ c (Proc.devRef .tc main_arg19) = W16 m ρ c (Proc.devRef .tc main_arg19) by show StableHlo.after hostOps8 (W16 m ρ c) (Proc.devRef .tc main_arg19) = _; host_keeps))))).symm.trans (W20_main_arg19 m ρ c)

theorem arg16_at_17 : W17 m ρ c (Proc.devRef .tc main_arg16) = m ((c : Thread nD τ).loc main_arg16) :=
  (((W20_of_ne m ρ c main_arg16 (by decide)).trans ((show W19 m ρ c (Proc.devRef .tc main_arg16) = W18 m ρ c (Proc.devRef .tc main_arg16) by show StableHlo.after hostOps9 (W18 m ρ c) (Proc.devRef .tc main_arg16) = _; host_keeps).trans ((W18_arr m ρ c 1).trans (((dat8 (V17 m ρ) c).arrAt_in 1 rfl _).trans (A_eq8 (V17 m ρ) c 1)))))).symm.trans (W20_main_arg16 m ρ c)

theorem arg18_at_17 : W17 m ρ c (Proc.devRef .tc main_arg18) = m ((c : Thread nD τ).loc main_arg18) :=
  (((W20_of_ne m ρ c main_arg18 (by decide)).trans ((show W19 m ρ c (Proc.devRef .tc main_arg18) = W18 m ρ c (Proc.devRef .tc main_arg18) by show StableHlo.after hostOps9 (W18 m ρ c) (Proc.devRef .tc main_arg18) = _; host_keeps).trans ((W18_arr m ρ c 3).trans (((dat8 (V17 m ρ) c).arrAt_in 3 rfl _).trans (A_eq8 (V17 m ρ) c 3)))))).symm.trans (W20_main_arg18 m ρ c)

theorem arg21_at_18 : W18 m ρ c (Proc.devRef .tc main_arg21) = m ((c : Thread nD τ).loc main_arg21) :=
  (((W20_of_ne m ρ c main_arg21 (by decide)).trans (show W19 m ρ c (Proc.devRef .tc main_arg21) = W18 m ρ c (Proc.devRef .tc main_arg21) by show StableHlo.after hostOps9 (W18 m ρ c) (Proc.devRef .tc main_arg21) = _; host_keeps))).symm.trans (W20_main_arg21 m ρ c)

theorem arg23_at_18 : W18 m ρ c (Proc.devRef .tc main_arg23) = m ((c : Thread nD τ).loc main_arg23) :=
  (((W20_of_ne m ρ c main_arg23 (by decide)).trans (show W19 m ρ c (Proc.devRef .tc main_arg23) = W18 m ρ c (Proc.devRef .tc main_arg23) by show StableHlo.after hostOps9 (W18 m ρ c) (Proc.devRef .tc main_arg23) = _; host_keeps))).symm.trans (W20_main_arg23 m ρ c)

theorem arg20_at_19 : W19 m ρ c (Proc.devRef .tc main_arg20) = m ((c : Thread nD τ).loc main_arg20) :=
  (((W20_arr m ρ c 1).trans (((dat9 (V19 m ρ) c).arrAt_in 1 rfl _).trans (A_eq9 (V19 m ρ) c 1)))).symm.trans (W20_main_arg20 m ρ c)

theorem arg22_at_19 : W19 m ρ c (Proc.devRef .tc main_arg22) = m ((c : Thread nD τ).loc main_arg22) :=
  (((W20_arr m ρ c 3).trans (((dat9 (V19 m ρ) c).arrAt_in 3 rfl _).trans (A_eq9 (V19 m ρ) c 3)))).symm.trans (W20_main_arg22 m ρ c)

/-! ## The graph buffers, at the boundaries of the three aggregations -/

theorem v3_at_4 : W4 m ρ c (Proc.devRef .tc main_v3) = W3 m ρ c (Proc.devRef .tc main_v3) :=
  (W4_of_ne m ρ c main_v3 (by decide))
theorem v3_at_7 : W7 m ρ c (Proc.devRef .tc main_v3) = W3 m ρ c (Proc.devRef .tc main_v3) :=
  ((W7_of_ne m ρ c main_v3 (by decide)).trans ((W6_of_ne m ρ c main_v3 (by decide)).trans ((show W5 m ρ c (Proc.devRef .tc main_v3) = W4 m ρ c (Proc.devRef .tc main_v3) by show StableHlo.after hostOps1 (W4 m ρ c) (Proc.devRef .tc main_v3) = _; host_keeps).trans (W4_of_ne m ρ c main_v3 (by decide)))))
theorem v3_at_10 : W10 m ρ c (Proc.devRef .tc main_v3) = W3 m ρ c (Proc.devRef .tc main_v3) :=
  ((W10_of_ne m ρ c main_v3 (by decide)).trans ((W9_of_ne m ρ c main_v3 (by decide)).trans ((show W8 m ρ c (Proc.devRef .tc main_v3) = W7 m ρ c (Proc.devRef .tc main_v3) by show StableHlo.after hostOps3 (W7 m ρ c) (Proc.devRef .tc main_v3) = _; host_keeps).trans ((W7_of_ne m ρ c main_v3 (by decide)).trans ((W6_of_ne m ρ c main_v3 (by decide)).trans ((show W5 m ρ c (Proc.devRef .tc main_v3) = W4 m ρ c (Proc.devRef .tc main_v3) by show StableHlo.after hostOps1 (W4 m ρ c) (Proc.devRef .tc main_v3) = _; host_keeps).trans (W4_of_ne m ρ c main_v3 (by decide))))))))

theorem v6_at_4 : W4 m ρ c (Proc.devRef .tc main_v6) = W3 m ρ c (Proc.devRef .tc main_v6) :=
  (W4_of_ne m ρ c main_v6 (by decide))
theorem v6_at_7 : W7 m ρ c (Proc.devRef .tc main_v6) = W3 m ρ c (Proc.devRef .tc main_v6) :=
  ((W7_of_ne m ρ c main_v6 (by decide)).trans ((W6_of_ne m ρ c main_v6 (by decide)).trans ((show W5 m ρ c (Proc.devRef .tc main_v6) = W4 m ρ c (Proc.devRef .tc main_v6) by show StableHlo.after hostOps1 (W4 m ρ c) (Proc.devRef .tc main_v6) = _; host_keeps).trans (W4_of_ne m ρ c main_v6 (by decide)))))
theorem v6_at_10 : W10 m ρ c (Proc.devRef .tc main_v6) = W3 m ρ c (Proc.devRef .tc main_v6) :=
  ((W10_of_ne m ρ c main_v6 (by decide)).trans ((W9_of_ne m ρ c main_v6 (by decide)).trans ((show W8 m ρ c (Proc.devRef .tc main_v6) = W7 m ρ c (Proc.devRef .tc main_v6) by show StableHlo.after hostOps3 (W7 m ρ c) (Proc.devRef .tc main_v6) = _; host_keeps).trans ((W7_of_ne m ρ c main_v6 (by decide)).trans ((W6_of_ne m ρ c main_v6 (by decide)).trans ((show W5 m ρ c (Proc.devRef .tc main_v6) = W4 m ρ c (Proc.devRef .tc main_v6) by show StableHlo.after hostOps1 (W4 m ρ c) (Proc.devRef .tc main_v6) = _; host_keeps).trans (W4_of_ne m ρ c main_v6 (by decide))))))))

theorem v30_at_4 : W4 m ρ c (Proc.devRef .tc main_v30) = W3 m ρ c (Proc.devRef .tc main_v30) :=
  (W4_of_ne m ρ c main_v30 (by decide))
theorem v30_at_7 : W7 m ρ c (Proc.devRef .tc main_v30) = W3 m ρ c (Proc.devRef .tc main_v30) :=
  ((W7_of_ne m ρ c main_v30 (by decide)).trans ((W6_of_ne m ρ c main_v30 (by decide)).trans ((show W5 m ρ c (Proc.devRef .tc main_v30) = W4 m ρ c (Proc.devRef .tc main_v30) by show StableHlo.after hostOps1 (W4 m ρ c) (Proc.devRef .tc main_v30) = _; host_keeps).trans (W4_of_ne m ρ c main_v30 (by decide)))))
theorem v30_at_10 : W10 m ρ c (Proc.devRef .tc main_v30) = W3 m ρ c (Proc.devRef .tc main_v30) :=
  ((W10_of_ne m ρ c main_v30 (by decide)).trans ((W9_of_ne m ρ c main_v30 (by decide)).trans ((show W8 m ρ c (Proc.devRef .tc main_v30) = W7 m ρ c (Proc.devRef .tc main_v30) by show StableHlo.after hostOps3 (W7 m ρ c) (Proc.devRef .tc main_v30) = _; host_keeps).trans ((W7_of_ne m ρ c main_v30 (by decide)).trans ((W6_of_ne m ρ c main_v30 (by decide)).trans ((show W5 m ρ c (Proc.devRef .tc main_v30) = W4 m ρ c (Proc.devRef .tc main_v30) by show StableHlo.after hostOps1 (W4 m ρ c) (Proc.devRef .tc main_v30) = _; host_keeps).trans (W4_of_ne m ρ c main_v30 (by decide))))))))

end Cert.KernelIdeal.Carry

end
-- ==== Proof.Rows.lean ====
/-
  The network's stages as functions of ONE ROW.

  Every stage that a pipelined region computes acts on the node-feature matrix row by row: output row r depends on input
  row r and on small weight and bias arrays only.  A stage is therefore described by a function from a row (Fin D → EReal)
  to a row (Fin C → EReal), and the whole-array stage is that function applied in every row (`rowwise`).

    dense      row ↦ (c ↦ Σ_k row[k] · w[k, c])
    biasRelu   row ↦ (c ↦ max (row[c] + b[0, c]) 0)
    lstmCell   the gates g = dense row w + b (128 of them: input, forget, cell, output, 32 each);  the LSTM step from a
               zero state:  c ↦ σ(g[c + 96]) · tanh (σ(g[c]) · tanh g[c + 64])
    head       two dense layers with a ReLU between:  c ↦ Σ_p max (dense row w1 p + b1[0, p]) 0 · w2[p, c] + b2[0, c]

  All values are extended reals; the arithmetic is the exact one.
-/
import Idealize.ShloMosaic.PureOps.Ideal
import Idealize.ShloMosaic.PureOps.Ideal.Laws
import Idealize.ShloMosaic.Lib.ValueIdx
import Idealize.ShloMosaic.PureOps.IdealRules

noncomputable section

namespace Cert.Rows

open Idealize.ShloMosaic

/-- A matrix with `R` rows and `C` columns of extended reals. -/
abbrev Mat (R C : Nat) : Type := (⟨2, ![R, C]⟩ : Shape).Idx → EReal

/-- The float zero's value (it is the extended real 0; kept as the literal both programs write). -/
abbrev zeroLit : EReal := Ideal.ofBits .f32 0x00000000#32

/-- Row `r` of a matrix. -/
abbrev rowOf {R D : Nat} (a : Mat R D) (r : Fin R) : Fin D → EReal := fun k => a (ValueIdx.ix2 r k)

/-- A row times a weight matrix. -/
def dense {D C : Nat} (row : Fin D → EReal) (w : Mat D C) (q : Fin C) : EReal :=
  ∑ k : Fin D, row k * w (ValueIdx.ix2 k q)

/-- A row plus a bias row, clamped below at zero. -/
def biasRelu {C : Nat} (row : Fin C → EReal) (b : Mat 1 C) (q : Fin C) : EReal :=
  max (row q + b (ValueIdx.ix2 (0 : Fin 1) q)) zeroLit

/-- The four gate pre-activations of a row: a dense layer into 128 columns plus the bias row. -/
def gates {D : Nat} (row : Fin D → EReal) (w : Mat D 128) (b : Mat 1 128) (col : Fin 128) : EReal :=
  dense row w col + b (ValueIdx.ix2 (0 : Fin 1) col)

/-- One LSTM step from the zero state: output gate times tanh of (input gate times tanh of the cell candidate). -/
def lstmCell {D : Nat} (row : Fin D → EReal) (w : Mat D 128) (b : Mat 1 128) (q : Fin 32) : EReal :=
  Ideal.logistic (gates row w b ⟨q.val + 96, by omega⟩)
    * Ideal.tanh (Ideal.logistic (gates row w b ⟨q.val, by omega⟩) * Ideal.tanh (gates row w b ⟨q.val + 64, by omega⟩))

/-- The hidden layer of a prediction head. -/
def hidden (row : Fin 32 → EReal) (w1 : Mat 32 32) (b1 : Mat 1 32) (p : Fin 32) : EReal :=
  max (dense row w1 p + b1 (ValueIdx.ix2 (0 : Fin 1) p)) zeroLit

/-- A prediction head: hidden layer, then a dense layer plus bias. -/
def head {C : Nat} (row : Fin 32 → EReal) (w1 : Mat 32 32) (b1 : Mat 1 32) (w2 : Mat 32 C) (b2 : Mat 1 C) (q : Fin C) : EReal :=
  dense (hidden row w1 b1) w2 q + b2 (ValueIdx.ix2 (0 : Fin 1) q)

/-- A row function applied in every row of a matrix. -/
def rowwise {N D C : Nat} (f : (Fin D → EReal) → Fin C → EReal) (a : Mat N D) : Mat N C :=
  fun i => f (rowOf a ⟨(i 0).val, ValueIdx.idx2_lt0 i⟩) ⟨(i 1).val, ValueIdx.idx2_lt1 i⟩

theorem rowwise_apply {N D C : Nat} (f : (Fin D → EReal) → Fin C → EReal) (a : Mat N D) (i : (⟨2, ![N, C]⟩ : Shape).Idx) :
    rowwise f a i = f (rowOf a ⟨(i 0).val, ValueIdx.idx2_lt0 i⟩) ⟨(i 1).val, ValueIdx.idx2_lt1 i⟩ := rfl

/-- The float one's value. -/
abbrev oneLit : EReal := Ideal.ofBits .f32 0x3F800000#32

theorem oneLit_eq : oneLit = 1 := IdealRules.sign_bit.ideal_onePat .f32

/-- The LSTM step with each sigmoid written out as 1 / (1 + e^(−g)) is the step with the logistic function: that IS the
    logistic function's definition on the extended reals (with its conventions at the infinities). -/
theorem lstmCell_spelled {D : Nat} (row : Fin D → EReal) (w : Mat D 128) (b : Mat 1 128) (q : Fin 32) (gi gc go : EReal)
    (hi : gi = gates row w b ⟨q.val, by omega⟩) (hc : gc = gates row w b ⟨q.val + 64, by omega⟩)
    (ho : go = gates row w b ⟨q.val + 96, by omega⟩) :
    Ideal.div oneLit (oneLit + Ideal.exp (-go)) * Ideal.tanh (Ideal.div oneLit (oneLit + Ideal.exp (-gi)) * Ideal.tanh gc)
      = lstmCell row w b q := by
  subst hi hc ho
  unfold lstmCell Ideal.logistic
  rw [oneLit_eq]

/-- Addition of extended reals is associative: the two bias vectors may be added to each other first. -/
theorem add_bias_assoc (x a b : EReal) : x + a + b = x + (a + b) := add_assoc x a b

end Cert.Rows

end
-- ==== Proof.RefStagesConv.lean ====
/-
  The reference program's graph-convolution stages, read as row functions.

  The reference computes the network with whole-array host operations.  Its matrix products and its bias additions
  followed by a clamp at zero act row by row: each is the corresponding row function of `Rows` applied in every row of
  its input.  Where the kernel program reshapes a bias vector to one row on the host first, the statement takes any
  1 × 64 array with the same entries.
-/
import proofs.«128439_j84791244358296_1_alg».proof.Proof.RefRead
import proofs.«128439_j84791244358296_1_alg».proof.Proof.Rows
import Idealize.ShloMosaic.PureOps.IdealRules

noncomputable section

set_option maxRecDepth 16384

namespace Cert.ReferenceIdeal.Stages

open Cert.ReferenceIdeal Cert.ReferenceIdeal.ReadP Idealize.ShloMosaic Idealize.ShloMosaic.TcCoe

/-- The reference's matrix product is the dense stage applied in every row. -/
theorem dense_v31 (x0 : (⟨S100000x128, .f32⟩ : BufTy).Contents (Elt Ideal)) (x2 : (⟨S128x64, .f32⟩ : BufTy).Contents (Elt Ideal)) :
    val_main_v31 (F := Ideal) x0 x2 = Rows.rowwise (fun row => Rows.dense row x2) x0 := by
  funext i
  refine (val_main_v31_apply x0 x2 i).trans ?_
  show _ = ∑ k : Fin 128, x0 (ValueIdx.ix2 (⟨(i 0).val, ValueIdx.idx2_lt0 i⟩ : Fin 100000) k) * x2 (ValueIdx.ix2 k (⟨(i 1).val, ValueIdx.idx2_lt1 i⟩ : Fin 64))
  exact Finset.sum_congr rfl fun k _ => congrArg₂ (· * ·) (congrArg x0 (funext fun a => match a with | ⟨0, _⟩ => rfl | ⟨1, _⟩ => rfl)) (congrArg x2 (funext fun a => match a with | ⟨0, _⟩ => rfl | ⟨1, _⟩ => rfl))

/-- The reference's bias addition and ReLU is the bias-and-clamp stage applied in every row, for any 1 × 64 array holding
    the bias vector as its one row. -/
theorem biasRelu_v47 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (b : Rows.Mat 1 64)
    (hb : ∀ q : Fin 64, b (ValueIdx.ix2 (0 : Fin 1) q) = x3 (ValueIdx.ix1 q)) :
    val_main_v47 (F := Ideal) x0 x1 x2 x3 = Rows.rowwise (fun row => Rows.biasRelu row b) (val_main_v43 (F := Ideal) x0 x1 x2) := by
  funext i
  rw [val_main_v47_apply, val_main_v46_apply, val_main_v45_apply, val_main_v44_apply, val_main_call1_v0_apply, val_main_call1_cst_apply]
  show max (val_main_v43 (F := Ideal) x0 x1 x2 i + x3 (idx_main_v44 (idx_main_v45 i))) (Ideal.ofBits .f32 0x00000000#32)
    = max (val_main_v43 (F := Ideal) x0 x1 x2 (ValueIdx.ix2 (⟨(i 0).val, ValueIdx.idx2_lt0 i⟩ : Fin 100000) (⟨(i 1).val, ValueIdx.idx2_lt1 i⟩ : Fin 64)) + b (ValueIdx.ix2 (0 : Fin 1) (⟨(i 1).val, ValueIdx.idx2_lt1 i⟩ : Fin 64))) Rows.zeroLit
  rw [hb]
  exact congrArg₂ (fun u v => max (u + v) Rows.zeroLit) (congrArg _ (funext fun a => match a with | ⟨0, _⟩ => rfl | ⟨1, _⟩ => rfl))
    (congrArg x3 (funext fun a => match a with | ⟨0, _⟩ => rfl))

/-- The reference's matrix product is the dense stage applied in every row. -/
theorem dense_v48 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) :
    val_main_v48 (F := Ideal) x0 x1 x2 x3 x4 = Rows.rowwise (fun row => Rows.dense row x4) (val_main_v47 (F := Ideal) x0 x1 x2 x3) := by
  funext i
  refine (val_main_v48_apply x0 x1 x2 x3 x4 i).trans ?_
  show _ = ∑ k : Fin 64, (val_main_v47 (F := Ideal) x0 x1 x2 x3) (ValueIdx.ix2 (⟨(i 0).val, ValueIdx.idx2_lt0 i⟩ : Fin 100000) k) * x4 (ValueIdx.ix2 k (⟨(i 1).val, ValueIdx.idx2_lt1 i⟩ : Fin 64))
  exact Finset.sum_congr rfl fun k _ => congrArg₂ (· * ·) (congrArg (val_main_v47 (F := Ideal) x0 x1 x2 x3) (funext fun a => match a with | ⟨0, _⟩ => rfl | ⟨1, _⟩ => rfl)) (congrArg x4 (funext fun a => match a with | ⟨0, _⟩ => rfl | ⟨1, _⟩ => rfl))

/-- The reference's bias addition and ReLU is the bias-and-clamp stage applied in every row, for any 1 × 64 array holding
    the bias vector as its one row. -/
theorem biasRelu_v64 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (b : Rows.Mat 1 64)
    (hb : ∀ q : Fin 64, b (ValueIdx.ix2 (0 : Fin 1) q) = x5 (ValueIdx.ix1 q)) :
    val_main_v64 (F := Ideal) x0 x1 x2 x3 x4 x5 = Rows.rowwise (fun row => Rows.biasRelu row b) (val_main_v60 (F := Ideal) x0 x1 x2 x3 x4) := by
  funext i
  rw [val_main_v64_apply, val_main_v63_apply, val_main_v62_apply, val_main_v61_apply, val_main_call2_v0_apply, val_main_call2_cst_apply]
  show max (val_main_v60 (F := Ideal) x0 x1 x2 x3 x4 i + x5 (idx_main_v61 (idx_main_v62 i))) (Ideal.ofBits .f32 0x00000000#32)
    = max (val_main_v60 (F := Ideal) x0 x1 x2 x3 x4 (ValueIdx.ix2 (⟨(i 0).val, ValueIdx.idx2_lt0 i⟩ : Fin 100000) (⟨(i 1).val, ValueIdx.idx2_lt1 i⟩ : Fin 64)) + b (ValueIdx.ix2 (0 : Fin 1) (⟨(i 1).val, ValueIdx.idx2_lt1 i⟩ : Fin 64))) Rows.zeroLit
  rw [hb]
  exact congrArg₂ (fun u v => max (u + v) Rows.zeroLit) (congrArg _ (funext fun a => match a with | ⟨0, _⟩ => rfl | ⟨1, _⟩ => rfl))
    (congrArg x5 (funext fun a => match a with | ⟨0, _⟩ => rfl))

/-- The reference's matrix product is the dense stage applied in every row. -/
theorem dense_v65 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) :
    val_main_v65 (F := Ideal) x0 x1 x2 x3 x4 x5 x6 = Rows.rowwise (fun row => Rows.dense row x6) (val_main_v64 (F := Ideal) x0 x1 x2 x3 x4 x5) := by
  funext i
  refine (val_main_v65_apply x0 x1 x2 x3 x4 x5 x6 i).trans ?_
  show _ = ∑ k : Fin 64, (val_main_v64 (F := Ideal) x0 x1 x2 x3 x4 x5) (ValueIdx.ix2 (⟨(i 0).val, ValueIdx.idx2_lt0 i⟩ : Fin 100000) k) * x6 (ValueIdx.ix2 k (⟨(i 1).val, ValueIdx.idx2_lt1 i⟩ : Fin 64))
  exact Finset.sum_congr rfl fun k _ => congrArg₂ (· * ·) (congrArg (val_main_v64 (F := Ideal) x0 x1 x2 x3 x4 x5) (funext fun a => match a with | ⟨0, _⟩ => rfl | ⟨1, _⟩ => rfl)) (congrArg x6 (funext fun a => match a with | ⟨0, _⟩ => rfl | ⟨1, _⟩ => rfl))

/-- The reference's bias addition and ReLU is the bias-and-clamp stage applied in every row, for any 1 × 64 array holding
    the bias vector as its one row. -/
theorem biasRelu_v81 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (b : Rows.Mat 1 64)
    (hb : ∀ q : Fin 64, b (ValueIdx.ix2 (0 : Fin 1) q) = x7 (ValueIdx.ix1 q)) :
    val_main_v81 (F := Ideal) x0 x1 x2 x3 x4 x5 x6 x7 = Rows.rowwise (fun row => Rows.biasRelu row b) (val_main_v77 (F := Ideal) x0 x1 x2 x3 x4 x5 x6) := by
  funext i
  rw [val_main_v81_apply, val_main_v80_apply, val_main_v79_apply, val_main_v78_apply, val_main_call3_v0_apply, val_main_call3_cst_apply]
  show max (val_main_v77 (F := Ideal) x0 x1 x2 x3 x4 x5 x6 i + x7 (idx_main_v78 (idx_main_v79 i))) (Ideal.ofBits .f32 0x00000000#32)
    = max (val_main_v77 (F := Ideal) x0 x1 x2 x3 x4 x5 x6 (ValueIdx.ix2 (⟨(i 0).val, ValueIdx.idx2_lt0 i⟩ : Fin 100000) (⟨(i 1).val, ValueIdx.idx2_lt1 i⟩ : Fin 64)) + b (ValueIdx.ix2 (0 : Fin 1) (⟨(i 1).val, ValueIdx.idx2_lt1 i⟩ : Fin 64))) Rows.zeroLit
  rw [hb]
  exact congrArg₂ (fun u v => max (u + v) Rows.zeroLit) (congrArg _ (funext fun a => match a with | ⟨0, _⟩ => rfl | ⟨1, _⟩ => rfl))
    (congrArg x7 (funext fun a => match a with | ⟨0, _⟩ => rfl))

end Cert.ReferenceIdeal.Stages

end
-- ==== Proof.RefStagesLstm.lean ====
/-
  The reference program's LSTM steps, read as row functions.

  The reference writes an LSTM step from the zero state as whole-array host operations: the product with the transposed
  input weights, the two bias vectors added one after the other, four 32-column slices, and the sigmoids written out as
  1 / (1 + e^(−x)).  Row by row this is the LSTM row function of `Rows`: the two biases may be added to each other first
  (addition of extended reals is associative), and the written-out sigmoid is the logistic function.  The statement takes
  any array holding the transposed weights and any 1 × 128 array holding the sum of the two bias vectors.
-/
import proofs.«128439_j84791244358296_1_alg».proof.Proof.RefRead
import proofs.«128439_j84791244358296_1_alg».proof.Proof.Rows
import Idealize.ShloMosaic.PureOps.IdealRules

noncomputable section

set_option maxRecDepth 16384

namespace Cert.ReferenceIdeal.Stages

open Cert.ReferenceIdeal Cert.ReferenceIdeal.ReadP Idealize.ShloMosaic Idealize.ShloMosaic.TcCoe
/-- The reference's gate pre-activations at an entry: the product with the transposed weights plus the two bias vectors,
    added one after the other, is the dense-plus-bias of the row with the two biases added first. -/
theorem gates_v89 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S128x64, .f32⟩ : BufTy).Contents (Elt Ideal)) (x10 : (⟨S128, .f32⟩ : BufTy).Contents (Elt Ideal)) (x11 : (⟨S128, .f32⟩ : BufTy).Contents (Elt Ideal)) (w : Rows.Mat 64 128) (b : Rows.Mat 1 128)
    (hw : ∀ (k : Fin 64) (col : Fin 128), w (ValueIdx.ix2 k col) = x8 (ValueIdx.ix2 col k))
    (hb : ∀ col : Fin 128, b (ValueIdx.ix2 (0 : Fin 1) col) = x10 (ValueIdx.ix1 col) + x11 (ValueIdx.ix1 col))
    (i : S100000x128.Idx) :
    val_main_v89 (F := Ideal) x0 x1 x2 x3 x4 x5 x6 x7 x8 x10 x11 i = Rows.gates (Rows.rowOf (val_main_v81 (F := Ideal) x0 x1 x2 x3 x4 x5 x6 x7) ⟨(i 0).val, ValueIdx.idx2_lt0 i⟩) w b ⟨(i 1).val, ValueIdx.idx2_lt1 i⟩ := by
  rw [val_main_v89_apply, val_main_v86_apply, val_main_v83_apply, val_main_v85_apply, val_main_v84_apply, val_main_v88_apply, val_main_v87_apply]
  simp only [val_main_v82_apply]
  generalize val_main_v81 (F := Ideal) x0 x1 x2 x3 x4 x5 x6 x7 = y
  show (∑ k : Fin 64, y (lidx_main_v83 i k) * x8 (idx_main_v82 (ridx_main_v83 i k))) + x10 (idx_main_v84 (idx_main_v85 i)) + x11 (idx_main_v87 (idx_main_v88 i))
    = (∑ k : Fin 64, y (ValueIdx.ix2 (⟨(i 0).val, ValueIdx.idx2_lt0 i⟩ : Fin 100000) k) * w (ValueIdx.ix2 k (⟨(i 1).val, ValueIdx.idx2_lt1 i⟩ : Fin 128))) + b (ValueIdx.ix2 (0 : Fin 1) (⟨(i 1).val, ValueIdx.idx2_lt1 i⟩ : Fin 128))
  rw [hb, add_assoc]
  exact congrArg₂ (· + ·) (Finset.sum_congr rfl fun k _ => congrArg₂ (· * ·) (congrArg y (funext fun a => match a with | ⟨0, _⟩ => rfl | ⟨1, _⟩ => rfl))
      ((congrArg x8 (show idx_main_v82 (ridx_main_v83 i k) = ValueIdx.ix2 (⟨(i 1).val, ValueIdx.idx2_lt1 i⟩ : Fin 128) k from funext fun a => match a with | ⟨0, _⟩ => rfl | ⟨1, _⟩ => rfl)).trans (hw k ⟨(i 1).val, ValueIdx.idx2_lt1 i⟩).symm))
    (congrArg₂ (· + ·) (congrArg x10 (funext fun a => match a with | ⟨0, _⟩ => rfl)) (congrArg x11 (funext fun a => match a with | ⟨0, _⟩ => rfl)))

/-- The reference's LSTM step is the LSTM row function applied in every row. -/
theorem lstm_v109 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S128x64, .f32⟩ : BufTy).Contents (Elt Ideal)) (x10 : (⟨S128, .f32⟩ : BufTy).Contents (Elt Ideal)) (x11 : (⟨S128, .f32⟩ : BufTy).Contents (Elt Ideal)) (w : Rows.Mat 64 128) (b : Rows.Mat 1 128)
    (hw : ∀ (k : Fin 64) (col : Fin 128), w (ValueIdx.ix2 k col) = x8 (ValueIdx.ix2 col k))
    (hb : ∀ col : Fin 128, b (ValueIdx.ix2 (0 : Fin 1) col) = x10 (ValueIdx.ix1 col) + x11 (ValueIdx.ix1 col)) :
    val_main_v109 (F := Ideal) x0 x1 x2 x3 x4 x5 x6 x7 x8 x10 x11 = Rows.rowwise (fun row => Rows.lstmCell row w b) (val_main_v81 (F := Ideal) x0 x1 x2 x3 x4 x5 x6 x7) := by
  funext i
  rw [val_main_v109_apply, val_main_v108_apply, val_main_v107_apply, val_main_v106_apply, val_main_v105_apply, val_main_v104_apply, val_main_v103_apply, val_main_v102_apply, val_main_v101_apply, val_main_v100_apply, val_main_v99_apply, val_main_v98_apply, val_main_v97_apply, val_main_v96_apply, val_main_v95_apply, val_main_v94_apply, val_main_cst_15_apply, val_main_cst_16_apply, val_main_cst_17_apply, val_main_cst_18_apply,
    val_main_v93_apply, val_main_v92_apply, val_main_v90_apply,
    gates_v89 x0 x1 x2 x3 x4 x5 x6 x7 x8 x10 x11 w b hw hb (idx_main_v93 i), gates_v89 x0 x1 x2 x3 x4 x5 x6 x7 x8 x10 x11 w b hw hb (idx_main_v92 i), gates_v89 x0 x1 x2 x3 x4 x5 x6 x7 x8 x10 x11 w b hw hb (idx_main_v90 i),
    Rows.rowwise_apply]
  generalize val_main_v81 (F := Ideal) x0 x1 x2 x3 x4 x5 x6 x7 = y
  exact Rows.lstmCell_spelled (Rows.rowOf y ⟨(i 0).val, ValueIdx.idx2_lt0 i⟩) w b ⟨(i 1).val, ValueIdx.idx2_lt1 i⟩ _ _ _ rfl
    (congrArg (Rows.gates (Rows.rowOf y ⟨(i 0).val, ValueIdx.idx2_lt0 i⟩) w b) (Fin.ext (show 64 + (i 1).val = (i 1).val + 64 by omega)))
    (congrArg (Rows.gates (Rows.rowOf y ⟨(i 0).val, ValueIdx.idx2_lt0 i⟩) w b) (Fin.ext (show 96 + (i 1).val = (i 1).val + 96 by omega)))

/-- The reference's gate pre-activations at an entry: the product with the transposed weights plus the two bias vectors,
    added one after the other, is the dense-plus-bias of the row with the two biases added first. -/
theorem gates_v117 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S128x64, .f32⟩ : BufTy).Contents (Elt Ideal)) (x10 : (⟨S128, .f32⟩ : BufTy).Contents (Elt Ideal)) (x11 : (⟨S128, .f32⟩ : BufTy).Contents (Elt Ideal)) (x12 : (⟨S128x32, .f32⟩ : BufTy).Contents (Elt Ideal)) (x14 : (⟨S128, .f32⟩ : BufTy).Contents (Elt Ideal)) (x15 : (⟨S128, .f32⟩ : BufTy).Contents (Elt Ideal)) (w : Rows.Mat 32 128) (b : Rows.Mat 1 128)
    (hw : ∀ (k : Fin 32) (col : Fin 128), w (ValueIdx.ix2 k col) = x12 (ValueIdx.ix2 col k))
    (hb : ∀ col : Fin 128, b (ValueIdx.ix2 (0 : Fin 1) col) = x14 (ValueIdx.ix1 col) + x15 (ValueIdx.ix1 col))
    (i : S100000x128.Idx) :
    val_main_v117 (F := Ideal) x0 x1 x2 x3 x4 x5 x6 x7 x8 x10 x11 x12 x14 x15 i = Rows.gates (Rows.rowOf (val_main_v109 (F := Ideal) x0 x1 x2 x3 x4 x5 x6 x7 x8 x10 x11) ⟨(i 0).val, ValueIdx.idx2_lt0 i⟩) w b ⟨(i 1).val, ValueIdx.idx2_lt1 i⟩ := by
  rw [val_main_v117_apply, val_main_v114_apply, val_main_v111_apply, val_main_v113_apply, val_main_v112_apply, val_main_v116_apply, val_main_v115_apply]
  simp only [val_main_v110_apply]
  generalize val_main_v109 (F := Ideal) x0 x1 x2 x3 x4 x5 x6 x7 x8 x10 x11 = y
  show (∑ k : Fin 32, y (lidx_main_v111 i k) * x12 (idx_main_v110 (ridx_main_v111 i k))) + x14 (idx_main_v112 (idx_main_v113 i)) + x15 (idx_main_v115 (idx_main_v116 i))
    = (∑ k : Fin 32, y (ValueIdx.ix2 (⟨(i 0).val, ValueIdx.idx2_lt0 i⟩ : Fin 100000) k) * w (ValueIdx.ix2 k (⟨(i 1).val, ValueIdx.idx2_lt1 i⟩ : Fin 128))) + b (ValueIdx.ix2 (0 : Fin 1) (⟨(i 1).val, ValueIdx.idx2_lt1 i⟩ : Fin 128))
  rw [hb, add_assoc]
  exact congrArg₂ (· + ·) (Finset.sum_congr rfl fun k _ => congrArg₂ (· * ·) (congrArg y (funext fun a => match a with | ⟨0, _⟩ => rfl | ⟨1, _⟩ => rfl))
      ((congrArg x12 (show idx_main_v110 (ridx_main_v111 i k) = ValueIdx.ix2 (⟨(i 1).val, ValueIdx.idx2_lt1 i⟩ : Fin 128) k from funext fun a => match a with | ⟨0, _⟩ => rfl | ⟨1, _⟩ => rfl)).trans (hw k ⟨(i 1).val, ValueIdx.idx2_lt1 i⟩).symm))
    (congrArg₂ (· + ·) (congrArg x14 (funext fun a => match a with | ⟨0, _⟩ => rfl)) (congrArg x15 (funext fun a => match a with | ⟨0, _⟩ => rfl)))

/-- The reference's LSTM step is the LSTM row function applied in every row. -/
theorem lstm_v137 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S128x64, .f32⟩ : BufTy).Contents (Elt Ideal)) (x10 : (⟨S128, .f32⟩ : BufTy).Contents (Elt Ideal)) (x11 : (⟨S128, .f32⟩ : BufTy).Contents (Elt Ideal)) (x12 : (⟨S128x32, .f32⟩ : BufTy).Contents (Elt Ideal)) (x14 : (⟨S128, .f32⟩ : BufTy).Contents (Elt Ideal)) (x15 : (⟨S128, .f32⟩ : BufTy).Contents (Elt Ideal)) (w : Rows.Mat 32 128) (b : Rows.Mat 1 128)
    (hw : ∀ (k : Fin 32) (col : Fin 128), w (ValueIdx.ix2 k col) = x12 (ValueIdx.ix2 col k))
    (hb : ∀ col : Fin 128, b (ValueIdx.ix2 (0 : Fin 1) col) = x14 (ValueIdx.ix1 col) + x15 (ValueIdx.ix1 col)) :
    val_main_v137 (F := Ideal) x0 x1 x2 x3 x4 x5 x6 x7 x8 x10 x11 x12 x14 x15 = Rows.rowwise (fun row => Rows.lstmCell row w b) (val_main_v109 (F := Ideal) x0 x1 x2 x3 x4 x5 x6 x7 x8 x10 x11) := by
  funext i
  rw [val_main_v137_apply, val_main_v136_apply, val_main_v135_apply, val_main_v134_apply, val_main_v133_apply, val_main_v132_apply, val_main_v131_apply, val_main_v130_apply, val_main_v129_apply, val_main_v128_apply, val_main_v127_apply, val_main_v126_apply, val_main_v125_apply, val_main_v124_apply, val_main_v123_apply, val_main_v122_apply, val_main_cst_19_apply, val_main_cst_20_apply, val_main_cst_21_apply, val_main_cst_22_apply,
    val_main_v121_apply, val_main_v120_apply, val_main_v118_apply,
    gates_v117 x0 x1 x2 x3 x4 x5 x6 x7 x8 x10 x11 x12 x14 x15 w b hw hb (idx_main_v121 i), gates_v117 x0 x1 x2 x3 x4 x5 x6 x7 x8 x10 x11 x12 x14 x15 w b hw hb (idx_main_v120 i), gates_v117 x0 x1 x2 x3 x4 x5 x6 x7 x8 x10 x11 x12 x14 x15 w b hw hb (idx_main_v118 i),
    Rows.rowwise_apply]
  generalize val_main_v109 (F := Ideal) x0 x1 x2 x3 x4 x5 x6 x7 x8 x10 x11 = y
  exact Rows.lstmCell_spelled (Rows.rowOf y ⟨(i 0).val, ValueIdx.idx2_lt0 i⟩) w b ⟨(i 1).val, ValueIdx.idx2_lt1 i⟩ _ _ _ rfl
    (congrArg (Rows.gates (Rows.rowOf y ⟨(i 0).val, ValueIdx.idx2_lt0 i⟩) w b) (Fin.ext (show 64 + (i 1).val = (i 1).val + 64 by omega)))
    (congrArg (Rows.gates (Rows.rowOf y ⟨(i 0).val, ValueIdx.idx2_lt0 i⟩) w b) (Fin.ext (show 96 + (i 1).val = (i 1).val + 96 by omega)))

end Cert.ReferenceIdeal.Stages

end
-- ==== Proof.RefStagesHead.lean ====
/-
  The reference program's prediction heads, read as row functions.

  A head is a dense layer with bias, a clamp at zero, and a second dense layer with bias, all as whole-array host
  operations.  Row by row this is the head row function of `Rows`.  The statement takes any one-row arrays holding the
  two bias vectors.
-/
import proofs.«128439_j84791244358296_1_alg».proof.Proof.RefRead
import proofs.«128439_j84791244358296_1_alg».proof.Proof.Rows
import Idealize.ShloMosaic.PureOps.IdealRules

noncomputable section

set_option maxRecDepth 16384

namespace Cert.ReferenceIdeal.Stages

open Cert.ReferenceIdeal Cert.ReferenceIdeal.ReadP Idealize.ShloMosaic Idealize.ShloMosaic.TcCoe

/-- The reference's hidden layer at entry (r, p): the product of row r with the first weights plus its bias, clamped at zero. -/
theorem hidden_v142 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S128x64, .f32⟩ : BufTy).Contents (Elt Ideal)) (x10 : (⟨S128, .f32⟩ : BufTy).Contents (Elt Ideal)) (x11 : (⟨S128, .f32⟩ : BufTy).Contents (Elt Ideal)) (x12 : (⟨S128x32, .f32⟩ : BufTy).Contents (Elt Ideal)) (x14 : (⟨S128, .f32⟩ : BufTy).Contents (Elt Ideal)) (x15 : (⟨S128, .f32⟩ : BufTy).Contents (Elt Ideal)) (x16 : (⟨S32x32, .f32⟩ : BufTy).Contents (Elt Ideal)) (x17 : (⟨S32, .f32⟩ : BufTy).Contents (Elt Ideal)) (b1 : Rows.Mat 1 32)
    (hb1 : ∀ p : Fin 32, b1 (ValueIdx.ix2 (0 : Fin 1) p) = x17 (ValueIdx.ix1 p)) (r : Fin 100000) (p : Fin 32) :
    val_main_v142 (F := Ideal) x0 x1 x2 x3 x4 x5 x6 x7 x8 x10 x11 x12 x14 x15 x16 x17 (ValueIdx.ix2 r p) = Rows.hidden (Rows.rowOf (val_main_v137 (F := Ideal) x0 x1 x2 x3 x4 x5 x6 x7 x8 x10 x11 x12 x14 x15) r) x16 b1 p := by
  rw [val_main_v142_apply, val_main_v141_apply, val_main_v138_apply, val_main_v140_apply, val_main_v139_apply, val_main_call4_v0_apply, val_main_call4_cst_apply]
  generalize val_main_v137 (F := Ideal) x0 x1 x2 x3 x4 x5 x6 x7 x8 x10 x11 x12 x14 x15 = y
  unfold Rows.hidden Rows.dense
  show max ((∑ k : Fin 32, y (lidx_main_v138 (ValueIdx.ix2 r p) k) * x16 (ridx_main_v138 (ValueIdx.ix2 r p) k)) + x17 (idx_main_v139 (idx_main_v140 (ValueIdx.ix2 r p)))) (Ideal.ofBits .f32 0x00000000#32)
    = max ((∑ k : Fin 32, y (ValueIdx.ix2 r k) * x16 (ValueIdx.ix2 k p)) + b1 (ValueIdx.ix2 (0 : Fin 1) p)) Rows.zeroLit
  rw [hb1]
  exact congrArg₂ (fun u z => max (u + z) Rows.zeroLit) (Finset.sum_congr rfl fun k _ => congrArg₂ (· * ·) (congrArg y (funext fun a => match a with | ⟨0, _⟩ => rfl | ⟨1, _⟩ => rfl)) (congrArg x16 (funext fun a => match a with | ⟨0, _⟩ => rfl | ⟨1, _⟩ => rfl)))
    (congrArg x17 (funext fun a => match a with | ⟨0, _⟩ => rfl))

/-- The reference's prediction head is the head row function applied in every row. -/
theorem head_v146 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S128x64, .f32⟩ : BufTy).Contents (Elt Ideal)) (x10 : (⟨S128, .f32⟩ : BufTy).Contents (Elt Ideal)) (x11 : (⟨S128, .f32⟩ : BufTy).Contents (Elt Ideal)) (x12 : (⟨S128x32, .f32⟩ : BufTy).Contents (Elt Ideal)) (x14 : (⟨S128, .f32⟩ : BufTy).Contents (Elt Ideal)) (x15 : (⟨S128, .f32⟩ : BufTy).Contents (Elt Ideal)) (x16 : (⟨S32x32, .f32⟩ : BufTy).Contents (Elt Ideal)) (x17 : (⟨S32, .f32⟩ : BufTy).Contents (Elt Ideal)) (x18 : (⟨S32x1, .f32⟩ : BufTy).Contents (Elt Ideal)) (x19 : (⟨S1, .f32⟩ : BufTy).Contents (Elt Ideal)) (b1 : Rows.Mat 1 32) (b2 : Rows.Mat 1 1)
    (hb1 : ∀ p : Fin 32, b1 (ValueIdx.ix2 (0 : Fin 1) p) = x17 (ValueIdx.ix1 p))
    (hb2 : ∀ q : Fin 1, b2 (ValueIdx.ix2 (0 : Fin 1) q) = x19 (ValueIdx.ix1 q)) :
    val_main_v146 (F := Ideal) x0 x1 x2 x3 x4 x5 x6 x7 x8 x10 x11 x12 x14 x15 x16 x17 x18 x19 = Rows.rowwise (fun row => Rows.head row x16 b1 x18 b2) (val_main_v137 (F := Ideal) x0 x1 x2 x3 x4 x5 x6 x7 x8 x10 x11 x12 x14 x15) := by
  funext i
  rw [val_main_v146_apply, val_main_v143_apply, val_main_v145_apply, val_main_v144_apply, Rows.rowwise_apply]
  have hl : ∀ p : Fin 32, lidx_main_v143 i p = ValueIdx.ix2 (⟨(i 0).val, ValueIdx.idx2_lt0 i⟩ : Fin 100000) p :=
    fun p => funext fun a => match a with | ⟨0, _⟩ => rfl | ⟨1, _⟩ => rfl
  simp only [hl, hidden_v142 x0 x1 x2 x3 x4 x5 x6 x7 x8 x10 x11 x12 x14 x15 x16 x17 b1 hb1]
  generalize val_main_v137 (F := Ideal) x0 x1 x2 x3 x4 x5 x6 x7 x8 x10 x11 x12 x14 x15 = y
  unfold Rows.head Rows.dense
  show (∑ p : Fin 32, Rows.hidden (Rows.rowOf y (⟨(i 0).val, ValueIdx.idx2_lt0 i⟩ : Fin 100000)) x16 b1 p * x18 (ridx_main_v143 i p)) + x19 (idx_main_v144 (idx_main_v145 i))
    = (∑ p : Fin 32, Rows.hidden (Rows.rowOf y (⟨(i 0).val, ValueIdx.idx2_lt0 i⟩ : Fin 100000)) x16 b1 p * x18 (ValueIdx.ix2 p (⟨(i 1).val, ValueIdx.idx2_lt1 i⟩ : Fin 1))) + b2 (ValueIdx.ix2 (0 : Fin 1) (⟨(i 1).val, ValueIdx.idx2_lt1 i⟩ : Fin 1))
  rw [hb2]
  exact congrArg₂ (· + ·) (Finset.sum_congr rfl fun p _ => congrArg (Rows.hidden (Rows.rowOf y (⟨(i 0).val, ValueIdx.idx2_lt0 i⟩ : Fin 100000)) x16 b1 p * ·) (congrArg x18 (funext fun a => match a with | ⟨0, _⟩ => rfl | ⟨1, _⟩ => rfl)))
    (congrArg x19 (funext fun a => match a with | ⟨0, _⟩ => Fin.ext (show (0 : ℕ) = (i 1).val by have h1 : (i 1).val < 1 := ValueIdx.idx2_lt1 i; omega)))

/-- The reference's hidden layer at entry (r, p): the product of row r with the first weights plus its bias, clamped at zero. -/
theorem hidden_v151 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S128x64, .f32⟩ : BufTy).Contents (Elt Ideal)) (x10 : (⟨S128, .f32⟩ : BufTy).Contents (Elt Ideal)) (x11 : (⟨S128, .f32⟩ : BufTy).Contents (Elt Ideal)) (x12 : (⟨S128x32, .f32⟩ : BufTy).Contents (Elt Ideal)) (x14 : (⟨S128, .f32⟩ : BufTy).Contents (Elt Ideal)) (x15 : (⟨S128, .f32⟩ : BufTy).Contents (Elt Ideal)) (x20 : (⟨S32x32, .f32⟩ : BufTy).Contents (Elt Ideal)) (x21 : (⟨S32, .f32⟩ : BufTy).Contents (Elt Ideal)) (b1 : Rows.Mat 1 32)
    (hb1 : ∀ p : Fin 32, b1 (ValueIdx.ix2 (0 : Fin 1) p) = x21 (ValueIdx.ix1 p)) (r : Fin 100000) (p : Fin 32) :
    val_main_v151 (F := Ideal) x0 x1 x2 x3 x4 x5 x6 x7 x8 x10 x11 x12 x14 x15 x20 x21 (ValueIdx.ix2 r p) = Rows.hidden (Rows.rowOf (val_main_v137 (F := Ideal) x0 x1 x2 x3 x4 x5 x6 x7 x8 x10 x11 x12 x14 x15) r) x20 b1 p := by
  rw [val_main_v151_apply, val_main_v150_apply, val_main_v147_apply, val_main_v149_apply, val_main_v148_apply, val_main_call5_v0_apply, val_main_call5_cst_apply]
  generalize val_main_v137 (F := Ideal) x0 x1 x2 x3 x4 x5 x6 x7 x8 x10 x11 x12 x14 x15 = y
  unfold Rows.hidden Rows.dense
  show max ((∑ k : Fin 32, y (lidx_main_v147 (ValueIdx.ix2 r p) k) * x20 (ridx_main_v147 (ValueIdx.ix2 r p) k)) + x21 (idx_main_v148 (idx_main_v149 (ValueIdx.ix2 r p)))) (Ideal.ofBits .f32 0x00000000#32)
    = max ((∑ k : Fin 32, y (ValueIdx.ix2 r k) * x20 (ValueIdx.ix2 k p)) + b1 (ValueIdx.ix2 (0 : Fin 1) p)) Rows.zeroLit
  rw [hb1]
  exact congrArg₂ (fun u z => max (u + z) Rows.zeroLit) (Finset.sum_congr rfl fun k _ => congrArg₂ (· * ·) (congrArg y (funext fun a => match a with | ⟨0, _⟩ => rfl | ⟨1, _⟩ => rfl)) (congrArg x20 (funext fun a => match a with | ⟨0, _⟩ => rfl | ⟨1, _⟩ => rfl)))
    (congrArg x21 (funext fun a => match a with | ⟨0, _⟩ => rfl))

/-- The reference's prediction head is the head row function applied in every row. -/
theorem head_v155 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S128x64, .f32⟩ : BufTy).Contents (Elt Ideal)) (x10 : (⟨S128, .f32⟩ : BufTy).Contents (Elt Ideal)) (x11 : (⟨S128, .f32⟩ : BufTy).Contents (Elt Ideal)) (x12 : (⟨S128x32, .f32⟩ : BufTy).Contents (Elt Ideal)) (x14 : (⟨S128, .f32⟩ : BufTy).Contents (Elt Ideal)) (x15 : (⟨S128, .f32⟩ : BufTy).Contents (Elt Ideal)) (x20 : (⟨S32x32, .f32⟩ : BufTy).Contents (Elt Ideal)) (x21 : (⟨S32, .f32⟩ : BufTy).Contents (Elt Ideal)) (x22 : (⟨S32x10, .f32⟩ : BufTy).Contents (Elt Ideal)) (x23 : (⟨S10, .f32⟩ : BufTy).Contents (Elt Ideal)) (b1 : Rows.Mat 1 32) (b2 : Rows.Mat 1 10)
    (hb1 : ∀ p : Fin 32, b1 (ValueIdx.ix2 (0 : Fin 1) p) = x21 (ValueIdx.ix1 p))
    (hb2 : ∀ q : Fin 10, b2 (ValueIdx.ix2 (0 : Fin 1) q) = x23 (ValueIdx.ix1 q)) :
    val_main_v155 (F := Ideal) x0 x1 x2 x3 x4 x5 x6 x7 x8 x10 x11 x12 x14 x15 x20 x21 x22 x23 = Rows.rowwise (fun row => Rows.head row x20 b1 x22 b2) (val_main_v137 (F := Ideal) x0 x1 x2 x3 x4 x5 x6 x7 x8 x10 x11 x12 x14 x15) := by
  funext i
  rw [val_main_v155_apply, val_main_v152_apply, val_main_v154_apply, val_main_v153_apply, Rows.rowwise_apply]
  have hl : ∀ p : Fin 32, lidx_main_v152 i p = ValueIdx.ix2 (⟨(i 0).val, ValueIdx.idx2_lt0 i⟩ : Fin 100000) p :=
    fun p => funext fun a => match a with | ⟨0, _⟩ => rfl | ⟨1, _⟩ => rfl
  simp only [hl, hidden_v151 x0 x1 x2 x3 x4 x5 x6 x7 x8 x10 x11 x12 x14 x15 x20 x21 b1 hb1]
  generalize val_main_v137 (F := Ideal) x0 x1 x2 x3 x4 x5 x6 x7 x8 x10 x11 x12 x14 x15 = y
  unfold Rows.head Rows.dense
  show (∑ p : Fin 32, Rows.hidden (Rows.rowOf y (⟨(i 0).val, ValueIdx.idx2_lt0 i⟩ : Fin 100000)) x20 b1 p * x22 (ridx_main_v152 i p)) + x23 (idx_main_v153 (idx_main_v154 i))
    = (∑ p : Fin 32, Rows.hidden (Rows.rowOf y (⟨(i 0).val, ValueIdx.idx2_lt0 i⟩ : Fin 100000)) x20 b1 p * x22 (ValueIdx.ix2 p (⟨(i 1).val, ValueIdx.idx2_lt1 i⟩ : Fin 10))) + b2 (ValueIdx.ix2 (0 : Fin 1) (⟨(i 1).val, ValueIdx.idx2_lt1 i⟩ : Fin 10))
  rw [hb2]
  exact congrArg₂ (· + ·) (Finset.sum_congr rfl fun p _ => congrArg (Rows.hidden (Rows.rowOf y (⟨(i 0).val, ValueIdx.idx2_lt0 i⟩ : Fin 100000)) x20 b1 p * ·) (congrArg x22 (funext fun a => match a with | ⟨0, _⟩ => rfl | ⟨1, _⟩ => rfl)))
    (congrArg x23 (funext fun a => match a with | ⟨0, _⟩ => rfl))

end Cert.ReferenceIdeal.Stages

end
-- ==== Proof.KernelDots.lean ====
/-
  A block matrix product read at one entry.

  Each kernel body multiplies its block of rows (R × K) by a whole weight matrix (K × C) into a zero accumulator.
  On the extended reals that product, at row r and column c, is the plain sum over k of x[r, k] · w[k, c]: the
  contraction runs over the one contracted axis, the left operand is read at (r, k) and the right at (k, c).
  One lemma per product shape occurring in the ten kernels.
-/
import proofs.«128439_j84791244358296_1_alg».proof.KernelIdeal
import proofs.«128439_j84791244358296_1_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.Dots

open Cert.KernelIdeal Idealize.ShloMosaic Idealize.ShloMosaic.TcCoe

/-- The entry (row of `j`, `k`) of a matrix with K columns. -/
abbrev rowAt {R C K : Nat} (j : (⟨2, ![R, C]⟩ : Shape).Idx) (k : Fin K) : (⟨2, ![R, K]⟩ : Shape).Idx :=
  ValueIdx.ix2 (⟨(j 0).val, ValueIdx.idx2_lt0 j⟩ : Fin R) k
/-- The entry (`k`, column of `j`) of a matrix with K rows. -/
abbrev colAt {R C K : Nat} (j : (⟨2, ![R, C]⟩ : Shape).Idx) (k : Fin K) : (⟨2, ![K, C]⟩ : Shape).Idx :=
  ValueIdx.ix2 k (⟨(j 1).val, ValueIdx.idx2_lt1 j⟩ : Fin C)

/-! ## 10000×128 times 128×64 -/

theorem lhs0_128x64 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs1_128x64 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem rhs0_128x64 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem rhs1_128x64 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The product into the zero accumulator at entry `i` is the sum over the contracted axis. -/
theorem matmul_128x64 (x : FVec Ideal S10000x128 .f32) (w : FVec Ideal S128x64 .f32) (i : S10000x64.Idx) :
    matmul dot_S10000x128_S128x64_S10000x64_1_0_0_1_n_n none x w (constant S10000x64 .f32 0x00000000#32) i
      = ∑ k : Fin 128, x (rowAt i k) * w (colAt i k) := by
  refine (Ideal.matmul_constant_zero_apply dot_S10000x128_S128x64_S10000x64_1_0_0_1_n_n none x w i).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx i ((ValueIdx.contrEquiv1 dot_S10000x128_S128x64_S10000x64_1_0_0_1_n_n 128 rfl rfl).symm k) = rowAt i k := funext fun a => Fin.ext (by
    match a with
    | ⟨0, _⟩ => exact lhs0_128x64 _ _
    | ⟨1, _⟩ => exact (lhs1_128x64 _ _).trans hk)
  have er : dot_S10000x128_S128x64_S10000x64_1_0_0_1_n_n.rhsIdx i ((ValueIdx.contrEquiv1 dot_S10000x128_S128x64_S10000x64_1_0_0_1_n_n 128 rfl rfl).symm k) = colAt i k := funext fun a => Fin.ext (by
    match a with
    | ⟨0, _⟩ => exact (rhs0_128x64 _ _).trans hk
    | ⟨1, _⟩ => exact rhs1_128x64 _ _)
  rw [el, er]

/-! ## 10000×64 times 64×64 -/

theorem lhs0_64x64 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs1_64x64 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem rhs0_64x64 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem rhs1_64x64 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The product into the zero accumulator at entry `i` is the sum over the contracted axis. -/
theorem matmul_64x64 (x : FVec Ideal S10000x64 .f32) (w : FVec Ideal S64x64 .f32) (i : S10000x64.Idx) :
    matmul dot_S10000x64_S64x64_S10000x64_1_0_0_1_n_n none x w (constant S10000x64 .f32 0x00000000#32) i
      = ∑ k : Fin 64, x (rowAt i k) * w (colAt i k) := by
  refine (Ideal.matmul_constant_zero_apply dot_S10000x64_S64x64_S10000x64_1_0_0_1_n_n none x w i).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx i ((ValueIdx.contrEquiv1 dot_S10000x64_S64x64_S10000x64_1_0_0_1_n_n 64 rfl rfl).symm k) = rowAt i k := funext fun a => Fin.ext (by
    match a with
    | ⟨0, _⟩ => exact lhs0_64x64 _ _
    | ⟨1, _⟩ => exact (lhs1_64x64 _ _).trans hk)
  have er : dot_S10000x64_S64x64_S10000x64_1_0_0_1_n_n.rhsIdx i ((ValueIdx.contrEquiv1 dot_S10000x64_S64x64_S10000x64_1_0_0_1_n_n 64 rfl rfl).symm k) = colAt i k := funext fun a => Fin.ext (by
    match a with
    | ⟨0, _⟩ => exact (rhs0_64x64 _ _).trans hk
    | ⟨1, _⟩ => exact rhs1_64x64 _ _)
  rw [el, er]

/-! ## 10000×64 times 64×128 -/

theorem lhs0_64x128 (i : S10000x128.Idx) (q : dot_S10000x64_S64x128_S10000x128_1_0_0_1_n_n.contr.Idx) : (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lhs1_64x128 (i : S10000x128.Idx) (q : dot_S10000x64_S64x128_S10000x128_1_0_0_1_n_n.contr.Idx) : (dot_S10000x64_S64x128_S10000x128_1_0_0_1_n_n.lhsIdx i q 1).val = (q ⟨0, by decide⟩).val :=
  dot_S10000x64_S64x128_S10000x128_1_0_0_1_n_n.lhsIdx_val_of_single rfl i q
theorem rhs0_64x128 (i : S10000x128.Idx) (q : dot_S10000x64_S64x128_S10000x128_1_0_0_1_n_n.contr.Idx) : (dot_S10000x64_S64x128_S10000x128_1_0_0_1_n_n.rhsIdx i q 0).val = (q ⟨0, by decide⟩).val :=
  dot_S10000x64_S64x128_S10000x128_1_0_0_1_n_n.rhsIdx_val_of_single rfl i q
theorem rhs1_64x128 (i : S10000x128.Idx) (q : dot_S10000x64_S64x128_S10000x128_1_0_0_1_n_n.contr.Idx) : (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- The product into the zero accumulator at entry `i` is the sum over the contracted axis. -/
theorem matmul_64x128 (x : FVec Ideal S10000x64 .f32) (w : FVec Ideal S64x128 .f32) (i : S10000x128.Idx) :
    matmul dot_S10000x64_S64x128_S10000x128_1_0_0_1_n_n none x w (constant S10000x128 .f32 0x00000000#32) i
      = ∑ k : Fin 64, x (rowAt i k) * w (colAt i k) := by
  refine (Ideal.matmul_constant_zero_apply dot_S10000x64_S64x128_S10000x128_1_0_0_1_n_n none x w i).trans ?_
  rw [← Equiv.sum_comp (ValueIdx.contrEquiv1 dot_S10000x64_S64x128_S10000x128_1_0_0_1_n_n 64 rfl rfl).symm]
  refine Finset.sum_congr rfl fun k _ => ?_
  have hk := ValueIdx.contrEquiv1_symm_val dot_S10000x64_S64x128_S10000x128_1_0_0_1_n_n 64 rfl rfl k
  have el : dot_S10000x64_S64x128_S10000x128_1_0_0_1_n_n.lhsIdx i ((ValueIdx.contrEquiv1 dot_S10000x64_S64x128_S10000x128_1_0_0_1_n_n 64 rfl rfl).symm k) = rowAt i k := funext fun a => Fin.ext (by
    match a with
    | ⟨0, _⟩ => exact lhs0_64x128 _ _
    | ⟨1, _⟩ => exact (lhs1_64x128 _ _).trans hk)
  have er : dot_S10000x64_S64x128_S10000x128_1_0_0_1_n_n.rhsIdx i ((ValueIdx.contrEquiv1 dot_S10000x64_S64x128_S10000x128_1_0_0_1_n_n 64 rfl rfl).symm k) = colAt i k := funext fun a => Fin.ext (by
    match a with
    | ⟨0, _⟩ => exact (rhs0_64x128 _ _).trans hk
    | ⟨1, _⟩ => exact rhs1_64x128 _ _)
  rw [el, er]

/-! ## 10000×32 times 32×128 -/

theorem lhs0_32x128 (i : S10000x128.Idx) (q : dot_S10000x32_S32x128_S10000x128_1_0_0_1_n_n.contr.Idx) : (dot_S10000x32_S32x128_S10000x128_1_0_0_1_n_n.lhsIdx i q 0).val = (i 0).val := by
  unfold DotDims.lhsIdx
  rw [dif_neg (show ¬(0 : Fin S10000x32.rank) ∈ dot_S10000x32_S32x128_S10000x128_1_0_0_1_n_n.lhsBatch by decide), dif_pos (show (0 : Fin S10000x32.rank) ∈ dot_S10000x32_S32x128_S10000x128_1_0_0_1_n_n.lhsNonContracting by decide)]
  rfl
theorem lhs1_32x128 (i : S10000x128.Idx) (q : dot_S10000x32_S32x128_S10000x128_1_0_0_1_n_n.contr.Idx) : (dot_S10000x32_S32x128_S10000x128_1_0_0_1_n_n.lhsIdx i q 1).val = (q ⟨0, by decide⟩).val :=
  dot_S10000x32_S32x128_S10000x128_1_0_0_1_n_n.lhsIdx_val_of_single rfl i q
theorem rhs0_32x128 (i : S10000x128.Idx) (q : dot_S10000x32_S32x128_S10000x128_1_0_0_1_n_n.contr.Idx) : (dot_S10000x32_S32x128_S10000x128_1_0_0_1_n_n.rhsIdx i q 0).val = (q ⟨0, by decide⟩).val :=
  dot_S10000x32_S32x128_S10000x128_1_0_0_1_n_n.rhsIdx_val_of_single rfl i q
theorem rhs1_32x128 (i : S10000x128.Idx) (q : dot_S10000x32_S32x128_S10000x128_1_0_0_1_n_n.contr.Idx) : (dot_S10000x32_S32x128_S10000x128_1_0_0_1_n_n.rhsIdx i q 1).val = (i 1).val := by
  unfold DotDims.rhsIdx
  rw [dif_neg (show ¬(1 : Fin S32x128.rank) ∈ dot_S10000x32_S32x128_S10000x128_1_0_0_1_n_n.rhsBatch by decide), dif_pos (show (1 : Fin S32x128.rank) ∈ dot_S10000x32_S32x128_S10000x128_1_0_0_1_n_n.rhsNonContracting by decide)]
  rfl

/-- The product into the zero accumulator at entry `i` is the sum over the contracted axis. -/
theorem matmul_32x128 (x : FVec Ideal S10000x32 .f32) (w : FVec Ideal S32x128 .f32) (i : S10000x128.Idx) :
    matmul dot_S10000x32_S32x128_S10000x128_1_0_0_1_n_n none x w (constant S10000x128 .f32 0x00000000#32) i
      = ∑ k : Fin 32, x (rowAt i k) * w (colAt i k) := by
  refine (Ideal.matmul_constant_zero_apply dot_S10000x32_S32x128_S10000x128_1_0_0_1_n_n none x w i).trans ?_
  rw [← Equiv.sum_comp (ValueIdx.contrEquiv1 dot_S10000x32_S32x128_S10000x128_1_0_0_1_n_n 32 rfl rfl).symm]
  refine Finset.sum_congr rfl fun k _ => ?_
  have hk := ValueIdx.contrEquiv1_symm_val dot_S10000x32_S32x128_S10000x128_1_0_0_1_n_n 32 rfl rfl k
  have el : dot_S10000x32_S32x128_S10000x128_1_0_0_1_n_n.lhsIdx i ((ValueIdx.contrEquiv1 dot_S10000x32_S32x128_S10000x128_1_0_0_1_n_n 32 rfl rfl).symm k) = rowAt i k := funext fun a => Fin.ext (by
    match a with
    | ⟨0, _⟩ => exact lhs0_32x128 _ _
    | ⟨1, _⟩ => exact (lhs1_32x128 _ _).trans hk)
  have er : dot_S10000x32_S32x128_S10000x128_1_0_0_1_n_n.rhsIdx i ((ValueIdx.contrEquiv1 dot_S10000x32_S32x128_S10000x128_1_0_0_1_n_n 32 rfl rfl).symm k) = colAt i k := funext fun a => Fin.ext (by
    match a with
    | ⟨0, _⟩ => exact (rhs0_32x128 _ _).trans hk
    | ⟨1, _⟩ => exact rhs1_32x128 _ _)
  rw [el, er]

/-! ## 10000×32 times 32×32 -/

theorem lhs0_32x32 (i : S10000x32.Idx) (q : dot_S10000x32_S32x32_S10000x32_1_0_0_1_n_n.contr.Idx) : (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
theorem lhs1_32x32 (i : S10000x32.Idx) (q : dot_S10000x32_S32x32_S10000x32_1_0_0_1_n_n.contr.Idx) : (dot_S10000x32_S32x32_S10000x32_1_0_0_1_n_n.lhsIdx i q 1).val = (q ⟨0, by decide⟩).val :=
  dot_S10000x32_S32x32_S10000x32_1_0_0_1_n_n.lhsIdx_val_of_single rfl i q
theorem rhs0_32x32 (i : S10000x32.Idx) (q : dot_S10000x32_S32x32_S10000x32_1_0_0_1_n_n.contr.Idx) : (dot_S10000x32_S32x32_S10000x32_1_0_0_1_n_n.rhsIdx i q 0).val = (q ⟨0, by decide⟩).val :=
  dot_S10000x32_S32x32_S10000x32_1_0_0_1_n_n.rhsIdx_val_of_single rfl i q
theorem rhs1_32x32 (i : S10000x32.Idx) (q : dot_S10000x32_S32x32_S10000x32_1_0_0_1_n_n.contr.Idx) : (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- The product into the zero accumulator at entry `i` is the sum over the contracted axis. -/
theorem matmul_32x32 (x : FVec Ideal S10000x32 .f32) (w : FVec Ideal S32x32 .f32) (i : S10000x32.Idx) :
    matmul dot_S10000x32_S32x32_S10000x32_1_0_0_1_n_n none x w (constant S10000x32 .f32 0x00000000#32) i
      = ∑ k : Fin 32, x (rowAt i k) * w (colAt i k) := by
  refine (Ideal.matmul_constant_zero_apply dot_S10000x32_S32x32_S10000x32_1_0_0_1_n_n none x w i).trans ?_
  rw [← Equiv.sum_comp (ValueIdx.contrEquiv1 dot_S10000x32_S32x32_S10000x32_1_0_0_1_n_n 32 rfl rfl).symm]
  refine Finset.sum_congr rfl fun k _ => ?_
  have hk := ValueIdx.contrEquiv1_symm_val dot_S10000x32_S32x32_S10000x32_1_0_0_1_n_n 32 rfl rfl k
  have el : dot_S10000x32_S32x32_S10000x32_1_0_0_1_n_n.lhsIdx i ((ValueIdx.contrEquiv1 dot_S10000x32_S32x32_S10000x32_1_0_0_1_n_n 32 rfl rfl).symm k) = rowAt i k := funext fun a => Fin.ext (by
    match a with
    | ⟨0, _⟩ => exact lhs0_32x32 _ _
    | ⟨1, _⟩ => exact (lhs1_32x32 _ _).trans hk)
  have er : dot_S10000x32_S32x32_S10000x32_1_0_0_1_n_n.rhsIdx i ((ValueIdx.contrEquiv1 dot_S10000x32_S32x32_S10000x32_1_0_0_1_n_n 32 rfl rfl).symm k) = colAt i k := funext fun a => Fin.ext (by
    match a with
    | ⟨0, _⟩ => exact (rhs0_32x32 _ _).trans hk
    | ⟨1, _⟩ => exact rhs1_32x32 _ _)
  rw [el, er]

/-! ## 10000×32 times 32×1 -/

theorem lhs0_32x1 (i : S10000x1.Idx) (q : dot_S10000x32_S32x1_S10000x1_1_0_0_1_n_n.contr.Idx) : (dot_S10000x32_S32x1_S10000x1_1_0_0_1_n_n.lhsIdx i q 0).val = (i 0).val := by
  unfold DotDims.lhsIdx
  rw [dif_neg (show ¬(0 : Fin S10000x32.rank) ∈ dot_S10000x32_S32x1_S10000x1_1_0_0_1_n_n.lhsBatch by decide), dif_pos (show (0 : Fin S10000x32.rank) ∈ dot_S10000x32_S32x1_S10000x1_1_0_0_1_n_n.lhsNonContracting by decide)]
  rfl
theorem lhs1_32x1 (i : S10000x1.Idx) (q : dot_S10000x32_S32x1_S10000x1_1_0_0_1_n_n.contr.Idx) : (dot_S10000x32_S32x1_S10000x1_1_0_0_1_n_n.lhsIdx i q 1).val = (q ⟨0, by decide⟩).val :=
  dot_S10000x32_S32x1_S10000x1_1_0_0_1_n_n.lhsIdx_val_of_single rfl i q
theorem rhs0_32x1 (i : S10000x1.Idx) (q : dot_S10000x32_S32x1_S10000x1_1_0_0_1_n_n.contr.Idx) : (dot_S10000x32_S32x1_S10000x1_1_0_0_1_n_n.rhsIdx i q 0).val = (q ⟨0, by decide⟩).val :=
  dot_S10000x32_S32x1_S10000x1_1_0_0_1_n_n.rhsIdx_val_of_single rfl i q
theorem rhs1_32x1 (i : S10000x1.Idx) (q : dot_S10000x32_S32x1_S10000x1_1_0_0_1_n_n.contr.Idx) : (dot_S10000x32_S32x1_S10000x1_1_0_0_1_n_n.rhsIdx i q 1).val = (i 1).val := by
  unfold DotDims.rhsIdx
  rw [dif_neg (show ¬(1 : Fin S32x1.rank) ∈ dot_S10000x32_S32x1_S10000x1_1_0_0_1_n_n.rhsBatch by decide), dif_pos (show (1 : Fin S32x1.rank) ∈ dot_S10000x32_S32x1_S10000x1_1_0_0_1_n_n.rhsNonContracting by decide)]
  rfl

/-- The product into the zero accumulator at entry `i` is the sum over the contracted axis. -/
theorem matmul_32x1 (x : FVec Ideal S10000x32 .f32) (w : FVec Ideal S32x1 .f32) (i : S10000x1.Idx) :
    matmul dot_S10000x32_S32x1_S10000x1_1_0_0_1_n_n none x w (constant S10000x1 .f32 0x00000000#32) i
      = ∑ k : Fin 32, x (rowAt i k) * w (colAt i k) := by
  refine (Ideal.matmul_constant_zero_apply dot_S10000x32_S32x1_S10000x1_1_0_0_1_n_n none x w i).trans ?_
  rw [← Equiv.sum_comp (ValueIdx.contrEquiv1 dot_S10000x32_S32x1_S10000x1_1_0_0_1_n_n 32 rfl rfl).symm]
  refine Finset.sum_congr rfl fun k _ => ?_
  have hk := ValueIdx.contrEquiv1_symm_val dot_S10000x32_S32x1_S10000x1_1_0_0_1_n_n 32 rfl rfl k
  have el : dot_S10000x32_S32x1_S10000x1_1_0_0_1_n_n.lhsIdx i ((ValueIdx.contrEquiv1 dot_S10000x32_S32x1_S10000x1_1_0_0_1_n_n 32 rfl rfl).symm k) = rowAt i k := funext fun a => Fin.ext (by
    match a with
    | ⟨0, _⟩ => exact lhs0_32x1 _ _
    | ⟨1, _⟩ => exact (lhs1_32x1 _ _).trans hk)
  have er : dot_S10000x32_S32x1_S10000x1_1_0_0_1_n_n.rhsIdx i ((ValueIdx.contrEquiv1 dot_S10000x32_S32x1_S10000x1_1_0_0_1_n_n 32 rfl rfl).symm k) = colAt i k := funext fun a => Fin.ext (by
    match a with
    | ⟨0, _⟩ => exact (rhs0_32x1 _ _).trans hk
    | ⟨1, _⟩ => exact rhs1_32x1 _ _)
  rw [el, er]

/-! ## 10000×32 times 32×10 -/

theorem lhs0_32x10 (i : S10000x10.Idx) (q : dot_S10000x32_S32x10_S10000x10_1_0_0_1_n_n.contr.Idx) : (dot_S10000x32_S32x10_S10000x10_1_0_0_1_n_n.lhsIdx i q 0).val = (i 0).val := by
  unfold DotDims.lhsIdx
  rw [dif_neg (show ¬(0 : Fin S10000x32.rank) ∈ dot_S10000x32_S32x10_S10000x10_1_0_0_1_n_n.lhsBatch by decide), dif_pos (show (0 : Fin S10000x32.rank) ∈ dot_S10000x32_S32x10_S10000x10_1_0_0_1_n_n.lhsNonContracting by decide)]
  rfl
theorem lhs1_32x10 (i : S10000x10.Idx) (q : dot_S10000x32_S32x10_S10000x10_1_0_0_1_n_n.contr.Idx) : (dot_S10000x32_S32x10_S10000x10_1_0_0_1_n_n.lhsIdx i q 1).val = (q ⟨0, by decide⟩).val :=
  dot_S10000x32_S32x10_S10000x10_1_0_0_1_n_n.lhsIdx_val_of_single rfl i q
theorem rhs0_32x10 (i : S10000x10.Idx) (q : dot_S10000x32_S32x10_S10000x10_1_0_0_1_n_n.contr.Idx) : (dot_S10000x32_S32x10_S10000x10_1_0_0_1_n_n.rhsIdx i q 0).val = (q ⟨0, by decide⟩).val :=
  dot_S10000x32_S32x10_S10000x10_1_0_0_1_n_n.rhsIdx_val_of_single rfl i q
theorem rhs1_32x10 (i : S10000x10.Idx) (q : dot_S10000x32_S32x10_S10000x10_1_0_0_1_n_n.contr.Idx) : (dot_S10000x32_S32x10_S10000x10_1_0_0_1_n_n.rhsIdx i q 1).val = (i 1).val := by
  unfold DotDims.rhsIdx
  rw [dif_neg (show ¬(1 : Fin S32x10.rank) ∈ dot_S10000x32_S32x10_S10000x10_1_0_0_1_n_n.rhsBatch by decide), dif_pos (show (1 : Fin S32x10.rank) ∈ dot_S10000x32_S32x10_S10000x10_1_0_0_1_n_n.rhsNonContracting by decide)]
  rfl

/-- The product into the zero accumulator at entry `i` is the sum over the contracted axis. -/
theorem matmul_32x10 (x : FVec Ideal S10000x32 .f32) (w : FVec Ideal S32x10 .f32) (i : S10000x10.Idx) :
    matmul dot_S10000x32_S32x10_S10000x10_1_0_0_1_n_n none x w (constant S10000x10 .f32 0x00000000#32) i
      = ∑ k : Fin 32, x (rowAt i k) * w (colAt i k) := by
  refine (Ideal.matmul_constant_zero_apply dot_S10000x32_S32x10_S10000x10_1_0_0_1_n_n none x w i).trans ?_
  rw [← Equiv.sum_comp (ValueIdx.contrEquiv1 dot_S10000x32_S32x10_S10000x10_1_0_0_1_n_n 32 rfl rfl).symm]
  refine Finset.sum_congr rfl fun k _ => ?_
  have hk := ValueIdx.contrEquiv1_symm_val dot_S10000x32_S32x10_S10000x10_1_0_0_1_n_n 32 rfl rfl k
  have el : dot_S10000x32_S32x10_S10000x10_1_0_0_1_n_n.lhsIdx i ((ValueIdx.contrEquiv1 dot_S10000x32_S32x10_S10000x10_1_0_0_1_n_n 32 rfl rfl).symm k) = rowAt i k := funext fun a => Fin.ext (by
    match a with
    | ⟨0, _⟩ => exact lhs0_32x10 _ _
    | ⟨1, _⟩ => exact (lhs1_32x10 _ _).trans hk)
  have er : dot_S10000x32_S32x10_S10000x10_1_0_0_1_n_n.rhsIdx i ((ValueIdx.contrEquiv1 dot_S10000x32_S32x10_S10000x10_1_0_0_1_n_n 32 rfl rfl).symm k) = colAt i k := funext fun a => Fin.ext (by
    match a with
    | ⟨0, _⟩ => exact (rhs0_32x10 _ _).trans hk
    | ⟨1, _⟩ => exact rhs1_32x10 _ _)
  rw [el, er]

end Cert.KernelIdeal.Dots

end
-- ==== Proof.Region0.lean ====
/-
  Region 0 (the first dense transform, x · W1): what the pipelined region leaves in its output array.

  The grid has ten points.  Point t stages rows 10000·t … 10000·t + 9999 of the node-feature matrix (all 128 columns) and the
  whole of each small array, and writes back the same rows of the 100000 × 64 result.  Row p of the written block depends
  only on row p of the staged block, so the ten written blocks are the restrictions of ONE whole-array function, the
  stage's row function applied in every row; the blocks tile the result, hence the array ends holding that function of
  the input arrays as the region found them.
-/
import proofs.«128439_j84791244358296_1_alg».proof.Proof.Gen.KernelIdeal.Frame
import proofs.«128439_j84791244358296_1_alg».proof.Proof.KernelDots
import proofs.«128439_j84791244358296_1_alg».proof.Proof.Rows
import Idealize.ShloMosaic.Lib.ValueLayout

noncomputable section

set_option maxRecDepth 16384

namespace Cert.KernelIdeal.Region0

open Cert.KernelIdeal Cert.KernelIdeal.Gen Cert.KernelIdeal.Dots
open Idealize.ShloMosaic Idealize.ShloMosaic.TcCoe Idealize.ShloMosaic.Tactic
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic at entry (p, q) of its block: row p of the block times the weights. -/
theorem body_apply (x : FVec Ideal S10000x128 .f32) (a1 : FVec Ideal S128x64 .f32) (p : Fin 10000) (q : Fin 64) :
    k0_pay1 (F := Ideal) x a1 (ValueIdx.ix2 p q) = Rows.dense (Rows.rowOf x p) a1 q := by
  unfold k0_pay1 Rows.dense
  try simp only [shapeCast_self]
  exact matmul_128x64 x a1 (ValueIdx.ix2 p q)

/-- The printed index maps over the grid: the row blocks of the feature matrix and of the result move together, the
    small arrays stay. -/
theorem index_maps : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the stage applied in every row of the whole matrix. -/
theorem flushed_eq (c : Dev nD) (t : Fin cfg0.N) :
    (dat0 V c).flushed 2 t = ((cfg0.win 2).blk t).view.read (Elt Ideal) (Rows.rowwise (fun row => Rows.dense row (V c main_arg2)) (V c main_arg0)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x64) origin]
  obtain ⟨e0, e1, e2, e3, e4, e5⟩ := index_maps t
  funext j
  have hj : j = ValueIdx.ix2 (⟨(j 0).val, (j 0).isLt⟩ : Fin 10000) (⟨(j 1).val, (j 1).isLt⟩ : Fin 64) :=
    funext fun a => match a with | ⟨0, _⟩ => rfl | ⟨1, _⟩ => rfl
  refine (congrArg (k0_pay1 (F := Ideal) (iblk0 V c 0 t) (iblk0 V c 1 t)) hj).trans ((body_apply (iblk0 V c 0 t) (iblk0 V c 1 t) ⟨(j 0).val, (j 0).isLt⟩ ⟨(j 1).val, (j 1).isLt⟩).trans ?_)
  show Rows.dense (Rows.rowOf (iblk0 V c 0 t) ⟨(j 0).val, (j 0).isLt⟩) ((iblk0 V c 1 t : Rows.Mat 128 64)) (⟨(j 1).val, (j 1).isLt⟩ : Fin 64)
      = Rows.dense (Rows.rowOf (V c main_arg0) ⟨((((cfg0.win 2).blk t).view.emb j) 0).val, ValueIdx.idx2_lt0 (((cfg0.win 2).blk t).view.emb j)⟩) (V c main_arg2) (⟨((((cfg0.win 2).blk t).view.emb j) 1).val, ValueIdx.idx2_lt1 (((cfg0.win 2).blk t).view.emb j)⟩ : Fin 64)
  have h0 : Rows.rowOf (iblk0 V c 0 t) ⟨(j 0).val, (j 0).isLt⟩ = Rows.rowOf (V c main_arg0) ⟨((((cfg0.win 2).blk t).view.emb j) 0).val, ValueIdx.idx2_lt0 (((cfg0.win 2).blk t).view.emb j)⟩ := funext fun k => by
    show V c main_arg0 (((cfg0.win 0).blk t).view.emb (ValueIdx.ix2 (⟨(j 0).val, (j 0).isLt⟩ : Fin 10000) k)) = V c main_arg0 (ValueIdx.ix2 (⟨((((cfg0.win 2).blk t).view.emb j) 0).val, ValueIdx.idx2_lt0 (((cfg0.win 2).blk t).view.emb j)⟩ : Fin 100000) k)
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : (iblk0 V c 1 t : Rows.Mat 128 64) = V c main_arg2 := funext fun y => by
    show V c main_arg2 (((cfg0.win 1).blk t).view.emb y) = V c main_arg2 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 64 + 1 * (y 1).val = (y 1).val; omega
  have hq : (⟨(j 1).val, (j 1).isLt⟩ : Fin 64) = ⟨((((cfg0.win 2).blk t).view.emb j) 1).val, ValueIdx.idx2_lt1 (((cfg0.win 2).blk t).view.emb j)⟩ :=
    Fin.ext (show (j 1).val = win0_2.index t (1 : Fin 2) * 64 + 1 * (j 1).val by omega)
  rw [h0, h1, hq]

/-- An index of the result is in point `t`'s block iff each coordinate is in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- Row r lies in the block of point r / 10000: the ten blocks tile the result. -/
theorem covered (i : S100000x64.Idx) :
    ∃ t : Fin cfg0.N, (cfg0.win 2).flush t = true ∧ i ∈ ((cfg0.win 2).blk t).view.set := by
  have h0 : (i 0).val < 100000 := (i 0).isLt
  have h1 : (i 1).val < 64 := (i 1).isLt
  have ht : (i 0).val / 10000 < cfg0.N := by show _ < 10; omega
  have em := index_maps ⟨(i 0).val / 10000, ht⟩
  have ea : win0_2.index ⟨(i 0).val / 10000, ht⟩ (0 : Fin 2) = (i 0).val / 10000 := em.2.2.2.2.1
  have eb : win0_2.index ⟨(i 0).val / 10000, ht⟩ (1 : Fin 2) = 0 := em.2.2.2.2.2
  refine ⟨⟨(i 0).val / 10000, ht⟩, flush0_2 _, ?_⟩
  rw [mem_block]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [ea]; omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [eb]; omega

/-- The result array after the region: the stage applied in every row of the feature matrix, all arrays as the region
    found them. -/
theorem result (c : Dev nD) :
    (dat0 V c).arrAt 2 cfg0.N = Rows.rowwise (fun row => Rows.dense row (V c main_arg2)) (V c main_arg0) :=
  (dat0 V c).arrAt_eq_of_cover 2 _ (fun t _ => flushed_eq V c t) covered

end Cert.KernelIdeal.Region0

end
-- ==== Proof.Region1.lean ====
/-
  Region 1 (bias and ReLU after the first aggregation): what the pipelined region leaves in its output array.

  The grid has ten points.  Point t stages rows 10000·t … 10000·t + 9999 of the node-feature matrix (all 64 columns) and the
  whole of each small array, and writes back the same rows of the 100000 × 64 result.  Row p of the written block depends
  only on row p of the staged block, so the ten written blocks are the restrictions of ONE whole-array function, the
  stage's row function applied in every row; the blocks tile the result, hence the array ends holding that function of
  the input arrays as the region found them.
-/
import proofs.«128439_j84791244358296_1_alg».proof.Proof.Gen.KernelIdeal.Frame
import proofs.«128439_j84791244358296_1_alg».proof.Proof.KernelDots
import proofs.«128439_j84791244358296_1_alg».proof.Proof.Rows
import Idealize.ShloMosaic.Lib.ValueLayout

noncomputable section

set_option maxRecDepth 16384

namespace Cert.KernelIdeal.Region1

open Cert.KernelIdeal Cert.KernelIdeal.Gen Cert.KernelIdeal.Dots
open Idealize.ShloMosaic Idealize.ShloMosaic.TcCoe Idealize.ShloMosaic.Tactic
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic at entry (p, q) of its block: the entry plus the bias of column q, clamped below at zero. -/
theorem body_apply (x : FVec Ideal S10000x64 .f32) (a1 : FVec Ideal S1x64 .f32) (p : Fin 10000) (q : Fin 64) :
    k1_pay1 (F := Ideal) x a1 (ValueIdx.ix2 p q) = Rows.biasRelu (Rows.rowOf x p) a1 q := by
  unfold k1_pay1 Rows.biasRelu
  try simp only [shapeCast_self]
  show max (x (ValueIdx.ix2 p q) + broadcastTo S10000x64 a1 broadcasts_S1x64_S10000x64 (ValueIdx.ix2 p q)) (Ideal.ofBits .f32 0x00000000#32) = _
  rw [ValueIdx.broadcastTo_1b_ab_apply a1 broadcasts_S1x64_S10000x64 p q]

/-- The printed index maps over the grid: the row blocks of the feature matrix and of the result move together, the
    small arrays stay. -/
theorem index_maps : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the stage applied in every row of the whole matrix. -/
theorem flushed_eq (c : Dev nD) (t : Fin cfg1.N) :
    (dat1 V c).flushed 2 t = ((cfg1.win 2).blk t).view.read (Elt Ideal) (Rows.rowwise (fun row => Rows.biasRelu row (V c main_v44)) (V c main_v43)) := by
  show (cfg1.win 2).cut (grid1.coords t) ((dat1 V c).after 2 t) = _
  rw [after1_2]
  unfold out1_2
  rw [View.canon_unit_zero origin]
  simp only [View.ld_unit_zero (S := S10000x64) origin, View.ld_unit_zero (S := S1x64) origin]
  obtain ⟨e0, e1, e2, e3, e4, e5⟩ := index_maps t
  funext j
  have hj : j = ValueIdx.ix2 (⟨(j 0).val, (j 0).isLt⟩ : Fin 10000) (⟨(j 1).val, (j 1).isLt⟩ : Fin 64) :=
    funext fun a => match a with | ⟨0, _⟩ => rfl | ⟨1, _⟩ => rfl
  refine (congrArg (k1_pay1 (F := Ideal) (iblk1 V c 0 t) (iblk1 V c 1 t)) hj).trans ((body_apply (iblk1 V c 0 t) (iblk1 V c 1 t) ⟨(j 0).val, (j 0).isLt⟩ ⟨(j 1).val, (j 1).isLt⟩).trans ?_)
  show Rows.biasRelu (Rows.rowOf (iblk1 V c 0 t) ⟨(j 0).val, (j 0).isLt⟩) ((iblk1 V c 1 t : Rows.Mat 1 64)) (⟨(j 1).val, (j 1).isLt⟩ : Fin 64)
      = Rows.biasRelu (Rows.rowOf (V c main_v43) ⟨((((cfg1.win 2).blk t).view.emb j) 0).val, ValueIdx.idx2_lt0 (((cfg1.win 2).blk t).view.emb j)⟩) (V c main_v44) (⟨((((cfg1.win 2).blk t).view.emb j) 1).val, ValueIdx.idx2_lt1 (((cfg1.win 2).blk t).view.emb j)⟩ : Fin 64)
  have h0 : Rows.rowOf (iblk1 V c 0 t) ⟨(j 0).val, (j 0).isLt⟩ = Rows.rowOf (V c main_v43) ⟨((((cfg1.win 2).blk t).view.emb j) 0).val, ValueIdx.idx2_lt0 (((cfg1.win 2).blk t).view.emb j)⟩ := funext fun k => by
    show V c main_v43 (((cfg1.win 0).blk t).view.emb (ValueIdx.ix2 (⟨(j 0).val, (j 0).isLt⟩ : Fin 10000) k)) = V c main_v43 (ValueIdx.ix2 (⟨((((cfg1.win 2).blk t).view.emb j) 0).val, ValueIdx.idx2_lt0 (((cfg1.win 2).blk t).view.emb j)⟩ : Fin 100000) k)
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * k.val = k.val; omega
  have h1 : (iblk1 V c 1 t : Rows.Mat 1 64) = V c main_v44 := funext fun y => by
    show V c main_v44 (((cfg1.win 1).blk t).view.emb y) = V c main_v44 y
    refine congrArg _ (funext fun a => Fin.ext ?_)
    match a with
    | ⟨0, _⟩ => show win1_1.index t (0 : Fin 2) * 1 + 1 * (y 0).val = (y 0).val; omega
    | ⟨1, _⟩ => show win1_1.index t (1 : Fin 2) * 64 + 1 * (y 1).val = (y 1).val; omega
  have hq : (⟨(j 1).val, (j 1).isLt⟩ : Fin 64) = ⟨((((cfg1.win 2).blk t).view.emb j) 1).val, ValueIdx.idx2_lt1 (((cfg1.win 2).blk t).view.emb j)⟩ :=
    Fin.ext (show (j 1).val = win1_2.index t (1 : Fin 2) * 64 + 1 * (j 1).val by omega)
  rw [h0, h1, hq]

/-- An index of the result is in point `t`'s block iff each coordinate is in the block's range on its axis. -/
theorem mem_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Row r lies in the block of point r / 10000: the ten blocks tile the result. -/
theorem covered (i : S100000x64.Idx) :
    ∃ t : Fin cfg1.N, (cfg1.win 2).flush t = true ∧ i ∈ ((cfg1.win 2).blk t).view.set := by
  have h0 : (i 0).val < 100000 := (i 0).isLt
  have h1 : (i 1).val < 64 := (i 1).isLt
  have ht : (i 0).val / 10000 < cfg1.N := by show _ < 10; omega
  have em := index_maps ⟨(i 0).val / 10000, ht⟩
  have ea : win1_2.index ⟨(i 0).val / 10000, ht⟩ (0 : Fin 2) = (i 0).val / 10000 := em.2.2.2.2.1
  have eb : win1_2.index ⟨(i 0).val / 10000, ht⟩ (1 : Fin 2) = 0 := em.2.2.2.2.2
  refine ⟨⟨(i 0).val / 10000, ht⟩, flush1_2 _, ?_⟩
  rw [mem_block]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [ea]; omega
  | ⟨1, _⟩ =>
    show win1_2.index ⟨(i 0).val / 10000, ht⟩ (1 : Fin 2) * 64 ≤ (i 1).val ∧ (i 1).val < win1_2.index ⟨(i 0).val / 10000, ht⟩ (1 : Fin 2) * 64 + 64
    rw [eb]; omega

/-- The result array after the region: the stage applied in every row of the feature matrix, all arrays as the region
    found them. -/
theorem result (c : Dev nD) :
    (dat1 V c).arrAt 2 cfg1.N = Rows.rowwise (fun row => Rows.biasRelu row (V c main_v44)) (V c main_v43) :=
  (dat1 V c).arrAt_eq_of_cover 2 _ (fun t _ => flushed_eq V c t) covered

end Cert.KernelIdeal.Region1

end
-- ==== Proof.Region2.lean ====
/-
  Region 2 (the second dense transform, h · W2): what the pipelined region leaves in its output array.

  The grid has ten points.  Point t stages rows 10000·t … 10000·t + 9999 of the node-feature matrix (all 64 columns) and the
  whole of each small array, and writes back the same rows of the 100000 × 64 result.  Row p of the written block depends
  only on row p of the staged block, so the ten written blocks are the restrictions of ONE whole-array function, the
  stage's row function applied in every row; the blocks tile the result, hence the array ends holding that function of
  the input arrays as the region found them.
-/
import proofs.«128439_j84791244358296_1_alg».proof.Proof.Gen.KernelIdeal.Frame
import proofs.«128439_j84791244358296_1_alg».proof.Proof.KernelDots
import proofs.«128439_j84791244358296_1_alg».proof.Proof.Rows
import Idealize.ShloMosaic.Lib.ValueLayout

noncomputable section

set_option maxRecDepth 16384

namespace Cert.KernelIdeal.Region2

open Cert.KernelIdeal Cert.KernelIdeal.Gen Cert.KernelIdeal.Dots
open Idealize.ShloMosaic Idealize.ShloMosaic.TcCoe Idealize.ShloMosaic.Tactic
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic at entry (p, q) of its block: row p of the block times the weights. -/
theorem body_apply (x : FVec Ideal S10000x64 .f32) (a1 : FVec Ideal S64x64 .f32) (p : Fin 10000) (q : Fin 64) :
    k2_pay1 (F := Ideal) x a1 (ValueIdx.ix2 p q) = Rows.dense (Rows.rowOf x p) a1 q := by
  unfold k2_pay1 Rows.dense
  try simp only [shapeCast_self]
  exact matmul_64x64 x a1 (ValueIdx.ix2 p q)

/-- The printed index maps over the grid: the row blocks of the feature matrix and of the result move together, the
    small arrays stay. -/
theorem index_maps : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is block `t` of the stage applied in every row of the whole matrix. -/
theorem flushed_eq (c : Dev nD) (t : Fin cfg2.N) :
    (dat2 V c).flushed 2 t = ((cfg2.win 2).blk t).view.read (Elt Ideal) (Rows.rowwise (fun row => Rows.dense row (V c main_arg4)) (V c main_v45)) := by
  show (cfg2.win 2).cut (grid2.coords t) ((dat2 V c).after 2 t) = _
  rw [after2_2]
  unfold out2_2
  rw [View.canon_unit_zero origin]
  simp only [View.ld_unit_zero (S := S10000x64) origin, View.ld_unit_zero (S := S64x64) origin]
  obtain ⟨e0, e1, e2, e3, e4, e5⟩ := index_maps t
  funext j
  have hj : j = ValueIdx.ix2 (⟨(j 0).val, (j 0).isLt⟩ : Fin 10000) (⟨(j 1).val, (j 1).isLt⟩ : Fin 64) :=
    funext fun a => match a with | ⟨0, _⟩ => rfl | ⟨1, _⟩ => rfl
  refine (congrArg (k2_pay1 (F := Ideal) (iblk2 V c 0 t) (iblk2 V c 1 t)) hj).trans ((body_apply (iblk2 V c 0 t) (iblk2 V c 1 t) ⟨(j 0).val, (j 0).isLt⟩ ⟨(j 1).val, (j 1).isLt⟩).trans ?_)
  show Rows.dense (Rows.rowOf (iblk2 V c 0 t) ⟨(j 0).val, (j 0).isLt⟩) ((iblk2 V c 1 t : Rows.Mat 64 64)) (⟨(j 1).val, (j 1).isLt⟩ : Fin 64)
      = Rows.dense (Rows.rowOf (V c main_v45) ⟨((((cfg2.win 2).blk t).view.emb j) 0).val, ValueIdx.idx2_lt0 (((cfg2.win 2).blk t).view.emb j)⟩) (V c main_arg4) (⟨((((cfg2.win 2).blk t).view.emb j) 1).val, ValueIdx.idx2_lt1 (((cfg2.win 2).blk t).view.emb j)⟩ : Fin 64)
  have h0 : Rows.rowOf (iblk2 V c 0 t) ⟨(j 0).val, (j 0).isLt⟩ = Rows.rowOf (V c main_v45) ⟨((((cfg2.win 2).blk t).view.emb j) 0).val, ValueIdx.idx2_lt0 (((cfg2.win 2).blk t).view.emb j)⟩ := funext fun k => by
    show V c main_v45 (((cfg2.win 0).blk t).view.emb (ValueIdx.ix2 (⟨(j 0).val, (j 0).isLt⟩ : Fin 10000) k)) = V c main_v45 (ValueIdx.ix2 (⟨((((cfg2.win 2).blk t).view.emb j) 0).val, ValueIdx.idx2_lt0 (((cfg2.win 2).blk t).view.emb j)⟩ : Fin 100000) k)
    refine congrArg _ (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  have h1 : (iblk2 V c 1 t : Rows.Mat 64 64) = V c main_arg4 := funext fun y => by
    show V c main_arg4 (((cfg2.win 1).blk t).view.emb y) = V c main_arg4 y
    refine congrArg _ (funext fun a => Fin.ext ?_)
    match a with
    | ⟨0, _⟩ => show win2_1.index t (0 : Fin 2) * 64 + 1 * (y 0).val = (y 0).val; omega
    | ⟨1, _⟩ => show win2_1.index t (1 : Fin 2) * 64 + 1 * (y 1).val = (y 1).val; omega
  have hq : (⟨(j 1).val, (j 1).isLt⟩ : Fin 64) = ⟨((((cfg2.win 2).blk t).view.emb j) 1).val, ValueIdx.idx2_lt1 (((cfg2.win 2).blk t).view.emb j)⟩ :=
    Fin.ext (show (j 1).val = win2_2.index t (1 : Fin 2) * 64 + 1 * (j 1).val by omega)
  rw [h0, h1, hq]

/-- An index of the result is in point `t`'s block iff each coordinate is in the block's range on its axis. -/
theorem mem_block (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Row r lies in the block of point r / 10000: the ten blocks tile the result. -/
theorem covered (i : S100000x64.Idx) :
    ∃ t : Fin cfg2.N, (cfg2.win 2).flush t = true ∧ i ∈ ((cfg2.win 2).blk t).view.set := by
  have h0 : (i 0).val < 100000 := (i 0).isLt
  have h1 : (i 1).val < 64 := (i 1).isLt
  have ht : (i 0).val / 10000 < cfg2.N := by show _ < 10; omega
  have em := index_maps ⟨(i 0).val / 10000, ht⟩
  have ea : win2_2.index ⟨(i 0).val / 10000, ht⟩ (0 : Fin 2) = (i 0).val / 10000 := em.2.2.2.2.1
  have eb : win2_2.index ⟨(i 0).val / 10000, ht⟩ (1 : Fin 2) = 0 := em.2.2.2.2.2
  refine ⟨⟨(i 0).val / 10000, ht⟩, flush2_2 _, ?_⟩
  rw [mem_block]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [ea]; omega
  | ⟨1, _⟩ =>
    show win2_2.index ⟨(i 0).val / 10000, ht⟩ (1 : Fin 2) * 64 ≤ (i 1).val ∧ (i 1).val < win2_2.index ⟨(i 0).val / 10000, ht⟩ (1 : Fin 2) * 64 + 64
    rw [eb]; omega

/-- The result array after the region: the stage applied in every row of the feature matrix, all arrays as the region
    found them. -/
theorem result (c : Dev nD) :
    (dat2 V c).arrAt 2 cfg2.N = Rows.rowwise (fun row => Rows.dense row (V c main_arg4)) (V c main_v45) :=
  (dat2 V c).arrAt_eq_of_cover 2 _ (fun t _ => flushed_eq V c t) covered

end Cert.KernelIdeal.Region2

end
-- ==== Proof.Region3.lean ====
/-
  Region 3 (bias and ReLU after the second aggregation): what the pipelined region leaves in its output array.

  The grid has ten points.  Point t stages rows 10000·t … 10000·t + 9999 of the node-feature matrix (all 64 columns) and the
  whole of each small array, and writes back the same rows of the 100000 × 64 result.  Row p of the written block depends
  only on row p of the staged block, so the ten written blocks are the restrictions of ONE whole-array function, the
  stage's row function applied in every row; the blocks tile the result, hence the array ends holding that function of
  the input arrays as the region found them.
-/
import proofs.«128439_j84791244358296_1_alg».proof.Proof.Gen.KernelIdeal.Frame
import proofs.«128439_j84791244358296_1_alg».proof.Proof.KernelDots
import proofs.«128439_j84791244358296_1_alg».proof.Proof.Rows
import Idealize.ShloMosaic.Lib.ValueLayout

noncomputable section

set_option maxRecDepth 16384

namespace Cert.KernelIdeal.Region3

open Cert.KernelIdeal Cert.KernelIdeal.Gen Cert.KernelIdeal.Dots
open Idealize.ShloMosaic Idealize.ShloMosaic.TcCoe Idealize.ShloMosaic.Tactic
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic at entry (p, q) of its block: the entry plus the bias of column q, clamped below at zero. -/
theorem body_apply (x : FVec Ideal S10000x64 .f32) (a1 : FVec Ideal S1x64 .f32) (p : Fin 10000) (q : Fin 64) :
    k3_pay1 (F := Ideal) x a1 (ValueIdx.ix2 p q) = Rows.biasRelu (Rows.rowOf x p) a1 q := by
  unfold k3_pay1 Rows.biasRelu
  try simp only [shapeCast_self]
  show max (x (ValueIdx.ix2 p q) + broadcastTo S10000x64 a1 broadcasts_S1x64_S10000x64 (ValueIdx.ix2 p q)) (Ideal.ofBits .f32 0x00000000#32) = _
  rw [ValueIdx.broadcastTo_1b_ab_apply a1 broadcasts_S1x64_S10000x64 p q]

/-- The printed index maps over the grid: the row blocks of the feature matrix and of the result move together, the
    small arrays stay. -/
theorem index_maps : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point `t` writes back is block `t` of the stage applied in every row of the whole matrix. -/
theorem flushed_eq (c : Dev nD) (t : Fin cfg3.N) :
    (dat3 V c).flushed 2 t = ((cfg3.win 2).blk t).view.read (Elt Ideal) (Rows.rowwise (fun row => Rows.biasRelu row (V c main_v59)) (V c main_v58)) := by
  show (cfg3.win 2).cut (grid3.coords t) ((dat3 V c).after 2 t) = _
  rw [after3_2]
  unfold out3_2
  rw [View.canon_unit_zero origin]
  simp only [View.ld_unit_zero (S := S10000x64) origin, View.ld_unit_zero (S := S1x64) origin]
  obtain ⟨e0, e1, e2, e3, e4, e5⟩ := index_maps t
  funext j
  have hj : j = ValueIdx.ix2 (⟨(j 0).val, (j 0).isLt⟩ : Fin 10000) (⟨(j 1).val, (j 1).isLt⟩ : Fin 64) :=
    funext fun a => match a with | ⟨0, _⟩ => rfl | ⟨1, _⟩ => rfl
  refine (congrArg (k3_pay1 (F := Ideal) (iblk3 V c 0 t) (iblk3 V c 1 t)) hj).trans ((body_apply (iblk3 V c 0 t) (iblk3 V c 1 t) ⟨(j 0).val, (j 0).isLt⟩ ⟨(j 1).val, (j 1).isLt⟩).trans ?_)
  show Rows.biasRelu (Rows.rowOf (iblk3 V c 0 t) ⟨(j 0).val, (j 0).isLt⟩) ((iblk3 V c 1 t : Rows.Mat 1 64)) (⟨(j 1).val, (j 1).isLt⟩ : Fin 64)
      = Rows.biasRelu (Rows.rowOf (V c main_v58) ⟨((((cfg3.win 2).blk t).view.emb j) 0).val, ValueIdx.idx2_lt0 (((cfg3.win 2).blk t).view.emb j)⟩) (V c main_v59) (⟨((((cfg3.win 2).blk t).view.emb j) 1).val, ValueIdx.idx2_lt1 (((cfg3.win 2).blk t).view.emb j)⟩ : Fin 64)
  have h0 : Rows.rowOf (iblk3 V c 0 t) ⟨(j 0).val, (j 0).isLt⟩ = Rows.rowOf (V c main_v58) ⟨((((cfg3.win 2).blk t).view.emb j) 0).val, ValueIdx.idx2_lt0 (((cfg3.win 2).blk t).view.emb j)⟩ := funext fun k => by
    show V c main_v58 (((cfg3.win 0).blk t).view.emb (ValueIdx.ix2 (⟨(j 0).val, (j 0).isLt⟩ : Fin 10000) k)) = V c main_v58 (ValueIdx.ix2 (⟨((((cfg3.win 2).blk t).view.emb j) 0).val, ValueIdx.idx2_lt0 (((cfg3.win 2).blk t).view.emb j)⟩ : Fin 100000) k)
    refine congrArg _ (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * k.val = k.val; omega
  have h1 : (iblk3 V c 1 t : Rows.Mat 1 64) = V c main_v59 := funext fun y => by
    show V c main_v59 (((cfg3.win 1).blk t).view.emb y) = V c main_v59 y
    refine congrArg _ (funext fun a => Fin.ext ?_)
    match a with
    | ⟨0, _⟩ => show win3_1.index t (0 : Fin 2) * 1 + 1 * (y 0).val = (y 0).val; omega
    | ⟨1, _⟩ => show win3_1.index t (1 : Fin 2) * 64 + 1 * (y 1).val = (y 1).val; omega
  have hq : (⟨(j 1).val, (j 1).isLt⟩ : Fin 64) = ⟨((((cfg3.win 2).blk t).view.emb j) 1).val, ValueIdx.idx2_lt1 (((cfg3.win 2).blk t).view.emb j)⟩ :=
    Fin.ext (show (j 1).val = win3_2.index t (1 : Fin 2) * 64 + 1 * (j 1).val by omega)
  rw [h0, h1, hq]

/-- An index of the result is in point `t`'s block iff each coordinate is in the block's range on its axis. -/
theorem mem_block (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v60).slice (win3_2.rect t)).set ↔ _
  rw [View.set_slice_whole, Rect.mem_set_unit]
  exact Iff.rfl

/-- Row r lies in the block of point r / 10000: the ten blocks tile the result. -/
theorem covered (i : S100000x64.Idx) :
    ∃ t : Fin cfg3.N, (cfg3.win 2).flush t = true ∧ i ∈ ((cfg3.win 2).blk t).view.set := by
  have h0 : (i 0).val < 100000 := (i 0).isLt
  have h1 : (i 1).val < 64 := (i 1).isLt
  have ht : (i 0).val / 10000 < cfg3.N := by show _ < 10; omega
  have em := index_maps ⟨(i 0).val / 10000, ht⟩
  have ea : win3_2.index ⟨(i 0).val / 10000, ht⟩ (0 : Fin 2) = (i 0).val / 10000 := em.2.2.2.2.1
  have eb : win3_2.index ⟨(i 0).val / 10000, ht⟩ (1 : Fin 2) = 0 := em.2.2.2.2.2
  refine ⟨⟨(i 0).val / 10000, ht⟩, flush3_2 _, ?_⟩
  rw [mem_block]
  intro a
  match a with
  | ⟨0, _⟩ =>
    show win3_2.index ⟨(i 0).val / 10000, ht⟩ (0 : Fin 2) * 10000 ≤ (i 0).val ∧ (i 0).val < win3_2.index ⟨(i 0).val / 10000, ht⟩ (0 : Fin 2) * 10000 + 10000
    rw [ea]; omega
  | ⟨1, _⟩ =>
    show win3_2.index ⟨(i 0).val / 10000, ht⟩ (1 : Fin 2) * 64 ≤ (i 1).val ∧ (i 1).val < win3_2.index ⟨(i 0).val / 10000, ht⟩ (1 : Fin 2) * 64 + 64
    rw [eb]; omega

/-- The result array after the region: the stage applied in every row of the feature matrix, all arrays as the region
    found them. -/
theorem result (c : Dev nD) :
    (dat3 V c).arrAt 2 cfg3.N = Rows.rowwise (fun row => Rows.biasRelu row (V c main_v59)) (V c main_v58) :=
  (dat3 V c).arrAt_eq_of_cover 2 _ (fun t _ => flushed_eq V c t) covered

end Cert.KernelIdeal.Region3

end
-- ==== Proof.Region4.lean ====
/-
  Region 4 (the third dense transform, h · W3): what the pipelined region leaves in its output array.

  The grid has ten points.  Point t stages rows 10000·t … 10000·t + 9999 of the node-feature matrix (all 64 columns) and the
  whole of each small array, and writes back the same rows of the 100000 × 64 result.  Row p of the written block depends
  only on row p of the staged block, so the ten written blocks are the restrictions of ONE whole-array function, the
  stage's row function applied in every row; the blocks tile the result, hence the array ends holding that function of
  the input arrays as the region found them.
-/
import proofs.«128439_j84791244358296_1_alg».proof.Proof.Gen.KernelIdeal.Frame
import proofs.«128439_j84791244358296_1_alg».proof.Proof.KernelDots
import proofs.«128439_j84791244358296_1_alg».proof.Proof.Rows
import Idealize.ShloMosaic.Lib.ValueLayout

noncomputable section

set_option maxRecDepth 16384

namespace Cert.KernelIdeal.Region4

open Cert.KernelIdeal Cert.KernelIdeal.Gen Cert.KernelIdeal.Dots
open Idealize.ShloMosaic Idealize.ShloMosaic.TcCoe Idealize.ShloMosaic.Tactic
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic at entry (p, q) of its block: row p of the block times the weights. -/
theorem body_apply (x : FVec Ideal S10000x64 .f32) (a1 : FVec Ideal S64x64 .f32) (p : Fin 10000) (q : Fin 64) :
    k4_pay1 (F := Ideal) x a1 (ValueIdx.ix2 p q) = Rows.dense (Rows.rowOf x p) a1 q := by
  unfold k4_pay1 Rows.dense
  try simp only [shapeCast_self]
  exact matmul_64x64 x a1 (ValueIdx.ix2 p q)

/-- The printed index maps over the grid: the row blocks of the feature matrix and of the result move together, the
    small arrays stay. -/
theorem index_maps : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point `t` writes back is block `t` of the stage applied in every row of the whole matrix. -/
theorem flushed_eq (c : Dev nD) (t : Fin cfg4.N) :
    (dat4 V c).flushed 2 t = ((cfg4.win 2).blk t).view.read (Elt Ideal) (Rows.rowwise (fun row => Rows.dense row (V c main_arg6)) (V c main_v60)) := by
  show (cfg4.win 2).cut (grid4.coords t) ((dat4 V c).after 2 t) = _
  rw [after4_2]
  unfold out4_2
  rw [View.canon_unit_zero origin]
  simp only [View.ld_unit_zero (S := S10000x64) origin, View.ld_unit_zero (S := S64x64) origin]
  obtain ⟨e0, e1, e2, e3, e4, e5⟩ := index_maps t
  funext j
  have hj : j = ValueIdx.ix2 (⟨(j 0).val, (j 0).isLt⟩ : Fin 10000) (⟨(j 1).val, (j 1).isLt⟩ : Fin 64) :=
    funext fun a => match a with | ⟨0, _⟩ => rfl | ⟨1, _⟩ => rfl
  refine (congrArg (k4_pay1 (F := Ideal) (iblk4 V c 0 t) (iblk4 V c 1 t)) hj).trans ((body_apply (iblk4 V c 0 t) (iblk4 V c 1 t) ⟨(j 0).val, (j 0).isLt⟩ ⟨(j 1).val, (j 1).isLt⟩).trans ?_)
  show Rows.dense (Rows.rowOf (iblk4 V c 0 t) ⟨(j 0).val, (j 0).isLt⟩) ((iblk4 V c 1 t : Rows.Mat 64 64)) (⟨(j 1).val, (j 1).isLt⟩ : Fin 64)
      = Rows.dense (Rows.rowOf (V c main_v60) ⟨((((cfg4.win 2).blk t).view.emb j) 0).val, ValueIdx.idx2_lt0 (((cfg4.win 2).blk t).view.emb j)⟩) (V c main_arg6) (⟨((((cfg4.win 2).blk t).view.emb j) 1).val, ValueIdx.idx2_lt1 (((cfg4.win 2).blk t).view.emb j)⟩ : Fin 64)
  have h0 : Rows.rowOf (iblk4 V c 0 t) ⟨(j 0).val, (j 0).isLt⟩ = Rows.rowOf (V c main_v60) ⟨((((cfg4.win 2).blk t).view.emb j) 0).val, ValueIdx.idx2_lt0 (((cfg4.win 2).blk t).view.emb j)⟩ := funext fun k => by
    show V c main_v60 (((cfg4.win 0).blk t).view.emb (ValueIdx.ix2 (⟨(j 0).val, (j 0).isLt⟩ : Fin 10000) k)) = V c main_v60 (ValueIdx.ix2 (⟨((((cfg4.win 2).blk t).view.emb j) 0).val, ValueIdx.idx2_lt0 (((cfg4.win 2).blk t).view.emb j)⟩ : Fin 100000) k)
    refine congrArg _ (funext fun a => Fin.ext ?_)
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * k.val = k.val; omega
  have h1 : (iblk4 V c 1 t : Rows.Mat 64 64) = V c main_arg6 := funext fun y => by
    show V c main_arg6 (((cfg4.win 1).blk t).view.emb y) = V c main_arg6 y
    refine congrArg _ (funext fun a => Fin.ext ?_)
    match a with
    | ⟨0, _⟩ => show win4_1.index t (0 : Fin 2) * 64 + 1 * (y 0).val = (y 0).val; omega
    | ⟨1, _⟩ => show win4_1.index t (1 : Fin 2) * 64 + 1 * (y 1).val = (y 1).val; omega
  have hq : (⟨(j 1).val, (j 1).isLt⟩ : Fin 64) = ⟨((((cfg4.win 2).blk t).view.emb j) 1).val, ValueIdx.idx2_lt1 (((cfg4.win 2).blk t).view.emb j)⟩ :=
    Fin.ext (show (j 1).val = win4_2.index t (1 : Fin 2) * 64 + 1 * (j 1).val by omega)
  rw [h0, h1, hq]

/-- An index of the result is in point `t`'s block iff each coordinate is in the block's range on its axis. -/
theorem mem_block (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v61).slice (win4_2.rect t)).set ↔ _
  rw [View.set_slice_whole, Rect.mem_set_unit]
  exact Iff.rfl

/-- Row r lies in the block of point r / 10000: the ten blocks tile the result. -/
theorem covered (i : S100000x64.Idx) :
    ∃ t : Fin cfg4.N, (cfg4.win 2).flush t = true ∧ i ∈ ((cfg4.win 2).blk t).view.set := by
  have h0 : (i 0).val < 100000 := (i 0).isLt
  have h1 : (i 1).val < 64 := (i 1).isLt
  have ht : (i 0).val / 10000 < cfg4.N := by show _ < 10; omega
  have em := index_maps ⟨(i 0).val / 10000, ht⟩
  have ea : win4_2.index ⟨(i 0).val / 10000, ht⟩ (0 : Fin 2) = (i 0).val / 10000 := em.2.2.2.2.1
  have eb : win4_2.index ⟨(i 0).val / 10000, ht⟩ (1 : Fin 2) = 0 := em.2.2.2.2.2
  refine ⟨⟨(i 0).val / 10000, ht⟩, flush4_2 _, ?_⟩
  rw [mem_block]
  intro a
  match a with
  | ⟨0, _⟩ =>
    show win4_2.index ⟨(i 0).val / 10000, ht⟩ (0 : Fin 2) * 10000 ≤ (i 0).val ∧ (i 0).val < win4_2.index ⟨(i 0).val / 10000, ht⟩ (0 : Fin 2) * 10000 + 10000
    rw [ea]; omega
  | ⟨1, _⟩ =>
    show win4_2.index ⟨(i 0).val / 10000, ht⟩ (1 : Fin 2) * 64 ≤ (i 1).val ∧ (i 1).val < win4_2.index ⟨(i 0).val / 10000, ht⟩ (1 : Fin 2) * 64 + 64
    rw [eb]; omega

/-- The result array after the region: the stage applied in every row of the feature matrix, all arrays as the region
    found them. -/
theorem result (c : Dev nD) :
    (dat4 V c).arrAt 2 cfg4.N = Rows.rowwise (fun row => Rows.dense row (V c main_arg6)) (V c main_v60) :=
  (dat4 V c).arrAt_eq_of_cover 2 _ (fun t _ => flushed_eq V c t) covered

end Cert.KernelIdeal.Region4

end
-- ==== Proof.Region5.lean ====
/-
  Region 5 (bias and ReLU after the third aggregation): what the pipelined region leaves in its output array.

  The grid has ten points.  Point t stages rows 10000·t … 10000·t + 9999 of the node-feature matrix (all 64 columns) and the
  whole of each small array, and writes back the same rows of the 100000 × 64 result.  Row p of the written block depends
  only on row p of the staged block, so the ten written blocks are the restrictions of ONE whole-array function, the
  stage's row function applied in every row; the blocks tile the result, hence the array ends holding that function of
  the input arrays as the region found them.
-/
import proofs.«128439_j84791244358296_1_alg».proof.Proof.Gen.KernelIdeal.Frame
import proofs.«128439_j84791244358296_1_alg».proof.Proof.KernelDots
import proofs.«128439_j84791244358296_1_alg».proof.Proof.Rows
import Idealize.ShloMosaic.Lib.ValueLayout

noncomputable section

set_option maxRecDepth 16384

namespace Cert.KernelIdeal.Region5

open Cert.KernelIdeal Cert.KernelIdeal.Gen Cert.KernelIdeal.Dots
open Idealize.ShloMosaic Idealize.ShloMosaic.TcCoe Idealize.ShloMosaic.Tactic
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic at entry (p, q) of its block: the entry plus the bias of column q, clamped below at zero. -/
theorem body_apply (x : FVec Ideal S10000x64 .f32) (a1 : FVec Ideal S1x64 .f32) (p : Fin 10000) (q : Fin 64) :
    k5_pay1 (F := Ideal) x a1 (ValueIdx.ix2 p q) = Rows.biasRelu (Rows.rowOf x p) a1 q := by
  unfold k5_pay1 Rows.biasRelu
  try simp only [shapeCast_self]
  show max (x (ValueIdx.ix2 p q) + broadcastTo S10000x64 a1 broadcasts_S1x64_S10000x64 (ValueIdx.ix2 p q)) (Ideal.ofBits .f32 0x00000000#32) = _
  rw [ValueIdx.broadcastTo_1b_ab_apply a1 broadcasts_S1x64_S10000x64 p q]

/-- The printed index maps over the grid: the row blocks of the feature matrix and of the result move together, the
    small arrays stay. -/
theorem index_maps : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- What point `t` writes back is block `t` of the stage applied in every row of the whole matrix. -/
theorem flushed_eq (c : Dev nD) (t : Fin cfg5.N) :
    (dat5 V c).flushed 2 t = ((cfg5.win 2).blk t).view.read (Elt Ideal) (Rows.rowwise (fun row => Rows.biasRelu row (V c main_v74)) (V c main_v73)) := by
  show (cfg5.win 2).cut (grid5.coords t) ((dat5 V c).after 2 t) = _
  rw [after5_2]
  unfold out5_2
  rw [View.canon_unit_zero origin]
  simp only [View.ld_unit_zero (S := S10000x64) origin, View.ld_unit_zero (S := S1x64) origin]
  obtain ⟨e0, e1, e2, e3, e4, e5⟩ := index_maps t
  funext j
  have hj : j = ValueIdx.ix2 (⟨(j 0).val, (j 0).isLt⟩ : Fin 10000) (⟨(j 1).val, (j 1).isLt⟩ : Fin 64) :=
    funext fun a => match a with | ⟨0, _⟩ => rfl | ⟨1, _⟩ => rfl
  refine (congrArg (k5_pay1 (F := Ideal) (iblk5 V c 0 t) (iblk5 V c 1 t)) hj).trans ((body_apply (iblk5 V c 0 t) (iblk5 V c 1 t) ⟨(j 0).val, (j 0).isLt⟩ ⟨(j 1).val, (j 1).isLt⟩).trans ?_)
  show Rows.biasRelu (Rows.rowOf (iblk5 V c 0 t) ⟨(j 0).val, (j 0).isLt⟩) ((iblk5 V c 1 t : Rows.Mat 1 64)) (⟨(j 1).val, (j 1).isLt⟩ : Fin 64)
      = Rows.biasRelu (Rows.rowOf (V c main_v73) ⟨((((cfg5.win 2).blk t).view.emb j) 0).val, ValueIdx.idx2_lt0 (((cfg5.win 2).blk t).view.emb j)⟩) (V c main_v74) (⟨((((cfg5.win 2).blk t).view.emb j) 1).val, ValueIdx.idx2_lt1 (((cfg5.win 2).blk t).view.emb j)⟩ : Fin 64)
  have h0 : Rows.rowOf (iblk5 V c 0 t) ⟨(j 0).val, (j 0).isLt⟩ = Rows.rowOf (V c main_v73) ⟨((((cfg5.win 2).blk t).view.emb j) 0).val, ValueIdx.idx2_lt0 (((cfg5.win 2).blk t).view.emb j)⟩ := funext fun k => by
    show V c main_v73 (((cfg5.win 0).blk t).view.emb (ValueIdx.ix2 (⟨(j 0).val, (j 0).isLt⟩ : Fin 10000) k)) = V c main_v73 (ValueIdx.ix2 (⟨((((cfg5.win 2).blk t).view.emb j) 0).val, ValueIdx.idx2_lt0 (((cfg5.win 2).blk t).view.emb j)⟩ : Fin 100000) k)
    refine congrArg _ (funext fun a => Fin.ext ?_)
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * k.val = k.val; omega
  have h1 : (iblk5 V c 1 t : Rows.Mat 1 64) = V c main_v74 := funext fun y => by
    show V c main_v74 (((cfg5.win 1).blk t).view.emb y) = V c main_v74 y
    refine congrArg _ (funext fun a => Fin.ext ?_)
    match a with
    | ⟨0, _⟩ => show win5_1.index t (0 : Fin 2) * 1 + 1 * (y 0).val = (y 0).val; omega
    | ⟨1, _⟩ => show win5_1.index t (1 : Fin 2) * 64 + 1 * (y 1).val = (y 1).val; omega
  have hq : (⟨(j 1).val, (j 1).isLt⟩ : Fin 64) = ⟨((((cfg5.win 2).blk t).view.emb j) 1).val, ValueIdx.idx2_lt1 (((cfg5.win 2).blk t).view.emb j)⟩ :=
    Fin.ext (show (j 1).val = win5_2.index t (1 : Fin 2) * 64 + 1 * (j 1).val by omega)
  rw [h0, h1, hq]

/-- An index of the result is in point `t`'s block iff each coordinate is in the block's range on its axis. -/
theorem mem_block (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v75).slice (win5_2.rect t)).set ↔ _
  rw [View.set_slice_whole, Rect.mem_set_unit]
  exact Iff.rfl

/-- Row r lies in the block of point r / 10000: the ten blocks tile the result. -/
theorem covered (i : S100000x64.Idx) :
    ∃ t : Fin cfg5.N, (cfg5.win 2).flush t = true ∧ i ∈ ((cfg5.win 2).blk t).view.set := by
  have h0 : (i 0).val < 100000 := (i 0).isLt
  have h1 : (i 1).val < 64 := (i 1).isLt
  have ht : (i 0).val / 10000 < cfg5.N := by show _ < 10; omega
  have em := index_maps ⟨(i 0).val / 10000, ht⟩
  have ea : win5_2.index ⟨(i 0).val / 10000, ht⟩ (0 : Fin 2) = (i 0).val / 10000 := em.2.2.2.2.1
  have eb : win5_2.index ⟨(i 0).val / 10000, ht⟩ (1 : Fin 2) = 0 := em.2.2.2.2.2
  refine ⟨⟨(i 0).val / 10000, ht⟩, flush5_2 _, ?_⟩
  rw [mem_block]
  intro a
  match a with
  | ⟨0, _⟩ =>
    show win5_2.index ⟨(i 0).val / 10000, ht⟩ (0 : Fin 2) * 10000 ≤ (i 0).val ∧ (i 0).val < win5_2.index ⟨(i 0).val / 10000, ht⟩ (0 : Fin 2) * 10000 + 10000
    rw [ea]; omega
  | ⟨1, _⟩ =>
    show win5_2.index ⟨(i 0).val / 10000, ht⟩ (1 : Fin 2) * 64 ≤ (i 1).val ∧ (i 1).val < win5_2.index ⟨(i 0).val / 10000, ht⟩ (1 : Fin 2) * 64 + 64
    rw [eb]; omega

/-- The result array after the region: the stage applied in every row of the feature matrix, all arrays as the region
    found them. -/
theorem result (c : Dev nD) :
    (dat5 V c).arrAt 2 cfg5.N = Rows.rowwise (fun row => Rows.biasRelu row (V c main_v74)) (V c main_v73) :=
  (dat5 V c).arrAt_eq_of_cover 2 _ (fun t _ => flushed_eq V c t) covered

end Cert.KernelIdeal.Region5

end
-- ==== Proof.Region6.lean ====
/-
  Region 6 (the first LSTM step): what the pipelined region leaves in its output array.

  The grid has ten points.  Point t stages rows 10000·t … 10000·t + 9999 of the node-feature matrix (all 64 columns) and the
  whole of each small array, and writes back the same rows of the 100000 × 32 result.  Row p of the written block depends
  only on row p of the staged block, so the ten written blocks are the restrictions of ONE whole-array function, the
  stage's row function applied in every row; the blocks tile the result, hence the array ends holding that function of
  the input arrays as the region found them.
-/
import proofs.«128439_j84791244358296_1_alg».proof.Proof.Gen.KernelIdeal.Frame
import proofs.«128439_j84791244358296_1_alg».proof.Proof.KernelDots
import proofs.«128439_j84791244358296_1_alg».proof.Proof.Rows
import Idealize.ShloMosaic.Lib.ValueLayout

noncomputable section

set_option maxRecDepth 16384

namespace Cert.KernelIdeal.Region6

open Cert.KernelIdeal Cert.KernelIdeal.Gen Cert.KernelIdeal.Dots
open Idealize.ShloMosaic Idealize.ShloMosaic.TcCoe Idealize.ShloMosaic.Tactic
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The gate pre-activations of the block: the product with the weights plus the bias row, at entry (p, col). -/
theorem gates_apply (x : FVec Ideal S10000x64 .f32) (a1 : FVec Ideal S64x128 .f32) (a2 : FVec Ideal S1x128 .f32) (p : Fin 10000) (col : Fin 128) :
    (addf (matmul dot_S10000x64_S64x128_S10000x128_1_0_0_1_n_n none x a1 (constant (F := Ideal) S10000x128 .f32 0x00000000#32)) (broadcastTo S10000x128 a2 broadcasts_S1x128_S10000x128)) (ValueIdx.ix2 p col)
      = Rows.gates (Rows.rowOf x p) a1 a2 col := by
  show matmul dot_S10000x64_S64x128_S10000x128_1_0_0_1_n_n none x a1 (constant (F := Ideal) S10000x128 .f32 0x00000000#32) (ValueIdx.ix2 p col) + broadcastTo S10000x128 a2 broadcasts_S1x128_S10000x128 (ValueIdx.ix2 p col) = _
  rw [ValueIdx.broadcastTo_1b_ab_apply a2 broadcasts_S1x128_S10000x128 p col]
  exact congrArg (· + a2 (ValueIdx.ix2 (0 : Fin 1) col)) (matmul_64x128 x a1 (ValueIdx.ix2 p col))

/-- The body's arithmetic at entry (p, q) of its block: the LSTM step of row p, the four gates being the four
    32-column slices of the pre-activations. -/
theorem body_apply (x : FVec Ideal S10000x64 .f32) (a1 : FVec Ideal S64x128 .f32) (a2 : FVec Ideal S1x128 .f32) (p : Fin 10000) (q : Fin 32) :
    k6_pay1 (F := Ideal) x a1 a2 (ValueIdx.ix2 p q) = Rows.lstmCell (Rows.rowOf x p) a1 a2 q := by
  unfold k6_pay1 Rows.lstmCell
  try simp only [shapeCast_self]
  show Ideal.logistic (extractStridedSlice (s := S10000x128) S10000x32 ![0, 96] _ slices_S10000x128_o0_96_S10000x32 (ValueIdx.ix2 p q))
      * Ideal.tanh (Ideal.logistic (extractStridedSlice (s := S10000x128) S10000x32 ![0, 0] _ slices_S10000x128_o0_0_S10000x32 (ValueIdx.ix2 p q))
        * Ideal.tanh (extractStridedSlice (s := S10000x128) S10000x32 ![0, 64] _ slices_S10000x128_o0_64_S10000x32 (ValueIdx.ix2 p q))) = _
  rw [extractStridedSlice_apply ![0, 96] _ slices_S10000x128_o0_96_S10000x32 (ValueIdx.ix2 p q) (ValueIdx.ix2 p (⟨q.val + 96, by omega⟩ : Fin 128)) (fun a => match a with
      | ⟨0, _⟩ => by show p.val = 0 + p.val; omega
      | ⟨1, _⟩ => by show q.val + 96 = 96 + q.val; omega),
    extractStridedSlice_apply ![0, 0] _ slices_S10000x128_o0_0_S10000x32 (ValueIdx.ix2 p q) (ValueIdx.ix2 p (⟨q.val, by omega⟩ : Fin 128)) (fun a => match a with
      | ⟨0, _⟩ => by show p.val = 0 + p.val; omega
      | ⟨1, _⟩ => by show q.val = 0 + q.val; omega),
    extractStridedSlice_apply ![0, 64] _ slices_S10000x128_o0_64_S10000x32 (ValueIdx.ix2 p q) (ValueIdx.ix2 p (⟨q.val + 64, by omega⟩ : Fin 128)) (fun a => match a with
      | ⟨0, _⟩ => by show p.val = 0 + p.val; omega
      | ⟨1, _⟩ => by show q.val + 64 = 64 + q.val; omega),
    gates_apply x a1 a2 p, gates_apply x a1 a2 p, gates_apply x a1 a2 p]

/-- The printed index maps over the grid: the row blocks of the feature matrix and of the result move together, the
    small arrays stay. -/
theorem index_maps : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

/-- What point `t` writes back is block `t` of the stage applied in every row of the whole matrix. -/
theorem flushed_eq (c : Dev nD) (t : Fin cfg6.N) :
    (dat6 V c).flushed 3 t = ((cfg6.win 3).blk t).view.read (Elt Ideal) (Rows.rowwise (fun row => Rows.lstmCell row (V c main_v76) (V c main_v78)) (V c main_v75)) := by
  show (cfg6.win 3).cut (grid6.coords t) ((dat6 V c).after 3 t) = _
  rw [after6_3]
  unfold out6_3
  rw [View.canon_unit_zero origin]
  simp only [View.ld_unit_zero (S := S10000x64) origin, View.ld_unit_zero (S := S64x128) origin, View.ld_unit_zero (S := S1x128) origin]
  obtain ⟨e0, e1, e2, e3, e4, e5, e6, e7⟩ := index_maps t
  funext j
  have hj : j = ValueIdx.ix2 (⟨(j 0).val, (j 0).isLt⟩ : Fin 10000) (⟨(j 1).val, (j 1).isLt⟩ : Fin 32) :=
    funext fun a => match a with | ⟨0, _⟩ => rfl | ⟨1, _⟩ => rfl
  refine (congrArg (k6_pay1 (F := Ideal) (iblk6 V c 0 t) (iblk6 V c 1 t) (iblk6 V c 2 t)) hj).trans ((body_apply (iblk6 V c 0 t) (iblk6 V c 1 t) (iblk6 V c 2 t) ⟨(j 0).val, (j 0).isLt⟩ ⟨(j 1).val, (j 1).isLt⟩).trans ?_)
  show Rows.lstmCell (Rows.rowOf (iblk6 V c 0 t) ⟨(j 0).val, (j 0).isLt⟩) ((iblk6 V c 1 t : Rows.Mat 64 128)) ((iblk6 V c 2 t : Rows.Mat 1 128)) (⟨(j 1).val, (j 1).isLt⟩ : Fin 32)
      = Rows.lstmCell (Rows.rowOf (V c main_v75) ⟨((((cfg6.win 3).blk t).view.emb j) 0).val, ValueIdx.idx2_lt0 (((cfg6.win 3).blk t).view.emb j)⟩) (V c main_v76) (V c main_v78) (⟨((((cfg6.win 3).blk t).view.emb j) 1).val, ValueIdx.idx2_lt1 (((cfg6.win 3).blk t).view.emb j)⟩ : Fin 32)
  have h0 : Rows.rowOf (iblk6 V c 0 t) ⟨(j 0).val, (j 0).isLt⟩ = Rows.rowOf (V c main_v75) ⟨((((cfg6.win 3).blk t).view.emb j) 0).val, ValueIdx.idx2_lt0 (((cfg6.win 3).blk t).view.emb j)⟩ := funext fun k => by
    show V c main_v75 (((cfg6.win 0).blk t).view.emb (ValueIdx.ix2 (⟨(j 0).val, (j 0).isLt⟩ : Fin 10000) k)) = V c main_v75 (ValueIdx.ix2 (⟨((((cfg6.win 3).blk t).view.emb j) 0).val, ValueIdx.idx2_lt0 (((cfg6.win 3).blk t).view.emb j)⟩ : Fin 100000) k)
    refine congrArg _ (funext fun a => Fin.ext ?_)
    match a with
    | ⟨0, _⟩ => show win6_0.index t (0 : Fin 2) * 10000 + 1 * (j 0).val = win6_3.index t (0 : Fin 2) * 10000 + 1 * (j 0).val; omega
    | ⟨1, _⟩ => show win6_0.index t (1 : Fin 2) * 64 + 1 * k.val = k.val; omega
  have h1 : (iblk6 V c 1 t : Rows.Mat 64 128) = V c main_v76 := funext fun y => by
    show V c main_v76 (((cfg6.win 1).blk t).view.emb y) = V c main_v76 y
    refine congrArg _ (funext fun a => Fin.ext ?_)
    match a with
    | ⟨0, _⟩ => show win6_1.index t (0 : Fin 2) * 64 + 1 * (y 0).val = (y 0).val; omega
    | ⟨1, _⟩ => show win6_1.index t (1 : Fin 2) * 128 + 1 * (y 1).val = (y 1).val; omega
  have h2 : (iblk6 V c 2 t : Rows.Mat 1 128) = V c main_v78 := funext fun y => by
    show V c main_v78 (((cfg6.win 2).blk t).view.emb y) = V c main_v78 y
    refine congrArg _ (funext fun a => Fin.ext ?_)
    match a with
    | ⟨0, _⟩ => show win6_2.index t (0 : Fin 2) * 1 + 1 * (y 0).val = (y 0).val; omega
    | ⟨1, _⟩ => show win6_2.index t (1 : Fin 2) * 128 + 1 * (y 1).val = (y 1).val; omega
  have hq : (⟨(j 1).val, (j 1).isLt⟩ : Fin 32) = ⟨((((cfg6.win 3).blk t).view.emb j) 1).val, ValueIdx.idx2_lt1 (((cfg6.win 3).blk t).view.emb j)⟩ :=
    Fin.ext (show (j 1).val = win6_3.index t (1 : Fin 2) * 32 + 1 * (j 1).val by omega)
  rw [h0, h1, h2, hq]

/-- An index of the result is in point `t`'s block iff each coordinate is in the block's range on its axis. -/
theorem mem_block (t : Fin cfg6.N) (i : S100000x32.Idx) :
    i ∈ ((cfg6.win 3).blk t).view.set ↔ ∀ a : Fin 2, win6_3.index t a * S10000x32.size a ≤ (i a).val ∧ (i a).val < win6_3.index t a * S10000x32.size a + S10000x32.size a := by
  show i ∈ ((View.whole main_v79).slice (win6_3.rect t)).set ↔ _
  rw [View.set_slice_whole, Rect.mem_set_unit]
  exact Iff.rfl

/-- Row r lies in the block of point r / 10000: the ten blocks tile the result. -/
theorem covered (i : S100000x32.Idx) :
    ∃ t : Fin cfg6.N, (cfg6.win 3).flush t = true ∧ i ∈ ((cfg6.win 3).blk t).view.set := by
  have h0 : (i 0).val < 100000 := (i 0).isLt
  have h1 : (i 1).val < 32 := (i 1).isLt
  have ht : (i 0).val / 10000 < cfg6.N := by show _ < 10; omega
  have em := index_maps ⟨(i 0).val / 10000, ht⟩
  have ea : win6_3.index ⟨(i 0).val / 10000, ht⟩ (0 : Fin 2) = (i 0).val / 10000 := em.2.2.2.2.2.2.1
  have eb : win6_3.index ⟨(i 0).val / 10000, ht⟩ (1 : Fin 2) = 0 := em.2.2.2.2.2.2.2
  refine ⟨⟨(i 0).val / 10000, ht⟩, flush6_3 _, ?_⟩
  rw [mem_block]
  intro a
  match a with
  | ⟨0, _⟩ =>
    show win6_3.index ⟨(i 0).val / 10000, ht⟩ (0 : Fin 2) * 10000 ≤ (i 0).val ∧ (i 0).val < win6_3.index ⟨(i 0).val / 10000, ht⟩ (0 : Fin 2) * 10000 + 10000
    rw [ea]; omega
  | ⟨1, _⟩ =>
    show win6_3.index ⟨(i 0).val / 10000, ht⟩ (1 : Fin 2) * 32 ≤ (i 1).val ∧ (i 1).val < win6_3.index ⟨(i 0).val / 10000, ht⟩ (1 : Fin 2) * 32 + 32
    rw [eb]; omega

/-- The result array after the region: the stage applied in every row of the feature matrix, all arrays as the region
    found them. -/
theorem result (c : Dev nD) :
    (dat6 V c).arrAt 3 cfg6.N = Rows.rowwise (fun row => Rows.lstmCell row (V c main_v76) (V c main_v78)) (V c main_v75) :=
  (dat6 V c).arrAt_eq_of_cover 3 _ (fun t _ => flushed_eq V c t) covered

end Cert.KernelIdeal.Region6

end
-- ==== Proof.Region7.lean ====
/-
  Region 7 (the second LSTM step): what the pipelined region leaves in its output array.

  The grid has ten points.  Point t stages rows 10000·t … 10000·t + 9999 of the node-feature matrix (all 32 columns) and the
  whole of each small array, and writes back the same rows of the 100000 × 32 result.  Row p of the written block depends
  only on row p of the staged block, so the ten written blocks are the restrictions of ONE whole-array function, the
  stage's row function applied in every row; the blocks tile the result, hence the array ends holding that function of
  the input arrays as the region found them.
-/
import proofs.«128439_j84791244358296_1_alg».proof.Proof.Gen.KernelIdeal.Frame
import proofs.«128439_j84791244358296_1_alg».proof.Proof.KernelDots
import proofs.«128439_j84791244358296_1_alg».proof.Proof.Rows
import Idealize.ShloMosaic.Lib.ValueLayout

noncomputable section

set_option maxRecDepth 16384

namespace Cert.KernelIdeal.Region7

open Cert.KernelIdeal Cert.KernelIdeal.Gen Cert.KernelIdeal.Dots
open Idealize.ShloMosaic Idealize.ShloMosaic.TcCoe Idealize.ShloMosaic.Tactic
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The gate pre-activations of the block: the product with the weights plus the bias row, at entry (p, col). -/
theorem gates_apply (x : FVec Ideal S10000x32 .f32) (a1 : FVec Ideal S32x128 .f32) (a2 : FVec Ideal S1x128 .f32) (p : Fin 10000) (col : Fin 128) :
    (addf (matmul dot_S10000x32_S32x128_S10000x128_1_0_0_1_n_n none x a1 (constant (F := Ideal) S10000x128 .f32 0x00000000#32)) (broadcastTo S10000x128 a2 broadcasts_S1x128_S10000x128)) (ValueIdx.ix2 p col)
      = Rows.gates (Rows.rowOf x p) a1 a2 col := by
  show matmul dot_S10000x32_S32x128_S10000x128_1_0_0_1_n_n none x a1 (constant (F := Ideal) S10000x128 .f32 0x00000000#32) (ValueIdx.ix2 p col) + broadcastTo S10000x128 a2 broadcasts_S1x128_S10000x128 (ValueIdx.ix2 p col) = _
  rw [ValueIdx.broadcastTo_1b_ab_apply a2 broadcasts_S1x128_S10000x128 p col]
  exact congrArg (· + a2 (ValueIdx.ix2 (0 : Fin 1) col)) (matmul_32x128 x a1 (ValueIdx.ix2 p col))

/-- The body's arithmetic at entry (p, q) of its block: the LSTM step of row p, the four gates being the four
    32-column slices of the pre-activations. -/
theorem body_apply (x : FVec Ideal S10000x32 .f32) (a1 : FVec Ideal S32x128 .f32) (a2 : FVec Ideal S1x128 .f32) (p : Fin 10000) (q : Fin 32) :
    k7_pay1 (F := Ideal) x a1 a2 (ValueIdx.ix2 p q) = Rows.lstmCell (Rows.rowOf x p) a1 a2 q := by
  unfold k7_pay1 Rows.lstmCell
  try simp only [shapeCast_self]
  show Ideal.logistic (extractStridedSlice (s := S10000x128) S10000x32 ![0, 96] _ slices_S10000x128_o0_96_S10000x32 (ValueIdx.ix2 p q))
      * Ideal.tanh (Ideal.logistic (extractStridedSlice (s := S10000x128) S10000x32 ![0, 0] _ slices_S10000x128_o0_0_S10000x32 (ValueIdx.ix2 p q))
        * Ideal.tanh (extractStridedSlice (s := S10000x128) S10000x32 ![0, 64] _ slices_S10000x128_o0_64_S10000x32 (ValueIdx.ix2 p q))) = _
  rw [extractStridedSlice_apply ![0, 96] _ slices_S10000x128_o0_96_S10000x32 (ValueIdx.ix2 p q) (ValueIdx.ix2 p (⟨q.val + 96, by omega⟩ : Fin 128)) (fun a => match a with
      | ⟨0, _⟩ => by show p.val = 0 + p.val; omega
      | ⟨1, _⟩ => by show q.val + 96 = 96 + q.val; omega),
    extractStridedSlice_apply ![0, 0] _ slices_S10000x128_o0_0_S10000x32 (ValueIdx.ix2 p q) (ValueIdx.ix2 p (⟨q.val, by omega⟩ : Fin 128)) (fun a => match a with
      | ⟨0, _⟩ => by show p.val = 0 + p.val; omega
      | ⟨1, _⟩ => by show q.val = 0 + q.val; omega),
    extractStridedSlice_apply ![0, 64] _ slices_S10000x128_o0_64_S10000x32 (ValueIdx.ix2 p q) (ValueIdx.ix2 p (⟨q.val + 64, by omega⟩ : Fin 128)) (fun a => match a with
      | ⟨0, _⟩ => by show p.val = 0 + p.val; omega
      | ⟨1, _⟩ => by show q.val + 64 = 64 + q.val; omega),
    gates_apply x a1 a2 p, gates_apply x a1 a2 p, gates_apply x a1 a2 p]

/-- The printed index maps over the grid: the row blocks of the feature matrix and of the result move together, the
    small arrays stay. -/
theorem index_maps : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

/-- What point `t` writes back is block `t` of the stage applied in every row of the whole matrix. -/
theorem flushed_eq (c : Dev nD) (t : Fin cfg7.N) :
    (dat7 V c).flushed 3 t = ((cfg7.win 3).blk t).view.read (Elt Ideal) (Rows.rowwise (fun row => Rows.lstmCell row (V c main_v80) (V c main_v82)) (V c main_v79)) := by
  show (cfg7.win 3).cut (grid7.coords t) ((dat7 V c).after 3 t) = _
  rw [after7_3]
  unfold out7_3
  rw [View.canon_unit_zero origin]
  simp only [View.ld_unit_zero (S := S10000x32) origin, View.ld_unit_zero (S := S32x128) origin, View.ld_unit_zero (S := S1x128) origin]
  obtain ⟨e0, e1, e2, e3, e4, e5, e6, e7⟩ := index_maps t
  funext j
  have hj : j = ValueIdx.ix2 (⟨(j 0).val, (j 0).isLt⟩ : Fin 10000) (⟨(j 1).val, (j 1).isLt⟩ : Fin 32) :=
    funext fun a => match a with | ⟨0, _⟩ => rfl | ⟨1, _⟩ => rfl
  refine (congrArg (k7_pay1 (F := Ideal) (iblk7 V c 0 t) (iblk7 V c 1 t) (iblk7 V c 2 t)) hj).trans ((body_apply (iblk7 V c 0 t) (iblk7 V c 1 t) (iblk7 V c 2 t) ⟨(j 0).val, (j 0).isLt⟩ ⟨(j 1).val, (j 1).isLt⟩).trans ?_)
  show Rows.lstmCell (Rows.rowOf (iblk7 V c 0 t) ⟨(j 0).val, (j 0).isLt⟩) ((iblk7 V c 1 t : Rows.Mat 32 128)) ((iblk7 V c 2 t : Rows.Mat 1 128)) (⟨(j 1).val, (j 1).isLt⟩ : Fin 32)
      = Rows.lstmCell (Rows.rowOf (V c main_v79) ⟨((((cfg7.win 3).blk t).view.emb j) 0).val, ValueIdx.idx2_lt0 (((cfg7.win 3).blk t).view.emb j)⟩) (V c main_v80) (V c main_v82) (⟨((((cfg7.win 3).blk t).view.emb j) 1).val, ValueIdx.idx2_lt1 (((cfg7.win 3).blk t).view.emb j)⟩ : Fin 32)
  have h0 : Rows.rowOf (iblk7 V c 0 t) ⟨(j 0).val, (j 0).isLt⟩ = Rows.rowOf (V c main_v79) ⟨((((cfg7.win 3).blk t).view.emb j) 0).val, ValueIdx.idx2_lt0 (((cfg7.win 3).blk t).view.emb j)⟩ := funext fun k => by
    show V c main_v79 (((cfg7.win 0).blk t).view.emb (ValueIdx.ix2 (⟨(j 0).val, (j 0).isLt⟩ : Fin 10000) k)) = V c main_v79 (ValueIdx.ix2 (⟨((((cfg7.win 3).blk t).view.emb j) 0).val, ValueIdx.idx2_lt0 (((cfg7.win 3).blk t).view.emb j)⟩ : Fin 100000) k)
    refine congrArg _ (funext fun a => Fin.ext ?_)
    match a with
    | ⟨0, _⟩ => show win7_0.index t (0 : Fin 2) * 10000 + 1 * (j 0).val = win7_3.index t (0 : Fin 2) * 10000 + 1 * (j 0).val; omega
    | ⟨1, _⟩ => show win7_0.index t (1 : Fin 2) * 32 + 1 * k.val = k.val; omega
  have h1 : (iblk7 V c 1 t : Rows.Mat 32 128) = V c main_v80 := funext fun y => by
    show V c main_v80 (((cfg7.win 1).blk t).view.emb y) = V c main_v80 y
    refine congrArg _ (funext fun a => Fin.ext ?_)
    match a with
    | ⟨0, _⟩ => show win7_1.index t (0 : Fin 2) * 32 + 1 * (y 0).val = (y 0).val; omega
    | ⟨1, _⟩ => show win7_1.index t (1 : Fin 2) * 128 + 1 * (y 1).val = (y 1).val; omega
  have h2 : (iblk7 V c 2 t : Rows.Mat 1 128) = V c main_v82 := funext fun y => by
    show V c main_v82 (((cfg7.win 2).blk t).view.emb y) = V c main_v82 y
    refine congrArg _ (funext fun a => Fin.ext ?_)
    match a with
    | ⟨0, _⟩ => show win7_2.index t (0 : Fin 2) * 1 + 1 * (y 0).val = (y 0).val; omega
    | ⟨1, _⟩ => show win7_2.index t (1 : Fin 2) * 128 + 1 * (y 1).val = (y 1).val; omega
  have hq : (⟨(j 1).val, (j 1).isLt⟩ : Fin 32) = ⟨((((cfg7.win 3).blk t).view.emb j) 1).val, ValueIdx.idx2_lt1 (((cfg7.win 3).blk t).view.emb j)⟩ :=
    Fin.ext (show (j 1).val = win7_3.index t (1 : Fin 2) * 32 + 1 * (j 1).val by omega)
  rw [h0, h1, h2, hq]

/-- An index of the result is in point `t`'s block iff each coordinate is in the block's range on its axis. -/
theorem mem_block (t : Fin cfg7.N) (i : S100000x32.Idx) :
    i ∈ ((cfg7.win 3).blk t).view.set ↔ ∀ a : Fin 2, win7_3.index t a * S10000x32.size a ≤ (i a).val ∧ (i a).val < win7_3.index t a * S10000x32.size a + S10000x32.size a := by
  show i ∈ ((View.whole main_v83).slice (win7_3.rect t)).set ↔ _
  rw [View.set_slice_whole, Rect.mem_set_unit]
  exact Iff.rfl

/-- Row r lies in the block of point r / 10000: the ten blocks tile the result. -/
theorem covered (i : S100000x32.Idx) :
    ∃ t : Fin cfg7.N, (cfg7.win 3).flush t = true ∧ i ∈ ((cfg7.win 3).blk t).view.set := by
  have h0 : (i 0).val < 100000 := (i 0).isLt
  have h1 : (i 1).val < 32 := (i 1).isLt
  have ht : (i 0).val / 10000 < cfg7.N := by show _ < 10; omega
  have em := index_maps ⟨(i 0).val / 10000, ht⟩
  have ea : win7_3.index ⟨(i 0).val / 10000, ht⟩ (0 : Fin 2) = (i 0).val / 10000 := em.2.2.2.2.2.2.1
  have eb : win7_3.index ⟨(i 0).val / 10000, ht⟩ (1 : Fin 2) = 0 := em.2.2.2.2.2.2.2
  refine ⟨⟨(i 0).val / 10000, ht⟩, flush7_3 _, ?_⟩
  rw [mem_block]
  intro a
  match a with
  | ⟨0, _⟩ =>
    show win7_3.index ⟨(i 0).val / 10000, ht⟩ (0 : Fin 2) * 10000 ≤ (i 0).val ∧ (i 0).val < win7_3.index ⟨(i 0).val / 10000, ht⟩ (0 : Fin 2) * 10000 + 10000
    rw [ea]; omega
  | ⟨1, _⟩ =>
    show win7_3.index ⟨(i 0).val / 10000, ht⟩ (1 : Fin 2) * 32 ≤ (i 1).val ∧ (i 1).val < win7_3.index ⟨(i 0).val / 10000, ht⟩ (1 : Fin 2) * 32 + 32
    rw [eb]; omega

/-- The result array after the region: the stage applied in every row of the feature matrix, all arrays as the region
    found them. -/
theorem result (c : Dev nD) :
    (dat7 V c).arrAt 3 cfg7.N = Rows.rowwise (fun row => Rows.lstmCell row (V c main_v80) (V c main_v82)) (V c main_v79) :=
  (dat7 V c).arrAt_eq_of_cover 3 _ (fun t _ => flushed_eq V c t) covered

end Cert.KernelIdeal.Region7

end
-- ==== Proof.Region8.lean ====
/-
  Region 8 (the volume head): what the pipelined region leaves in its output array.

  The grid has ten points.  Point t stages rows 10000·t … 10000·t + 9999 of the node-feature matrix (all 32 columns) and the
  whole of each small array, and writes back the same rows of the 100000 × 1 result.  Row p of the written block depends
  only on row p of the staged block, so the ten written blocks are the restrictions of ONE whole-array function, the
  stage's row function applied in every row; the blocks tile the result, hence the array ends holding that function of
  the input arrays as the region found them.
-/
import proofs.«128439_j84791244358296_1_alg».proof.Proof.Gen.KernelIdeal.Frame
import proofs.«128439_j84791244358296_1_alg».proof.Proof.KernelDots
import proofs.«128439_j84791244358296_1_alg».proof.Proof.Rows
import Idealize.ShloMosaic.Lib.ValueLayout

noncomputable section

set_option maxRecDepth 16384

namespace Cert.KernelIdeal.Region8

open Cert.KernelIdeal Cert.KernelIdeal.Gen Cert.KernelIdeal.Dots
open Idealize.ShloMosaic Idealize.ShloMosaic.TcCoe Idealize.ShloMosaic.Tactic
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The hidden layer of the block at entry (p, r): the product with the first weights plus its bias, clamped at zero. -/
theorem hidden_apply (x : FVec Ideal S10000x32 .f32) (a1 : FVec Ideal S32x32 .f32) (a2 : FVec Ideal S1x32 .f32) (p : Fin 10000) (r : Fin 32) :
    (maximumf (addf (matmul dot_S10000x32_S32x32_S10000x32_1_0_0_1_n_n none x a1 (constant (F := Ideal) S10000x32 .f32 0x00000000#32)) (broadcastTo S10000x32 a2 broadcasts_S1x32_S10000x32))
        (broadcast S10000x32 (Scalar.ofBits (F := Ideal) .f32 0x00000000#32))) (ValueIdx.ix2 p r)
      = Rows.hidden (Rows.rowOf x p) a1 a2 r := by
  show max (matmul dot_S10000x32_S32x32_S10000x32_1_0_0_1_n_n none x a1 (constant (F := Ideal) S10000x32 .f32 0x00000000#32) (ValueIdx.ix2 p r) + broadcastTo S10000x32 a2 broadcasts_S1x32_S10000x32 (ValueIdx.ix2 p r)) (Ideal.ofBits .f32 0x00000000#32) = _
  rw [ValueIdx.broadcastTo_1b_ab_apply a2 broadcasts_S1x32_S10000x32 p r]
  exact congrArg (fun z => max (z + a2 (ValueIdx.ix2 (0 : Fin 1) r)) Rows.zeroLit) (matmul_32x32 x a1 (ValueIdx.ix2 p r))

/-- The body's arithmetic at entry (p, q) of its block: the hidden row times the second weights, plus its bias. -/
theorem body_apply (x : FVec Ideal S10000x32 .f32) (a1 : FVec Ideal S32x32 .f32) (a2 : FVec Ideal S1x32 .f32) (a3 : FVec Ideal S32x1 .f32) (a4 : FVec Ideal S1x1 .f32) (p : Fin 10000) (q : Fin 1) :
    k8_pay1 (F := Ideal) x a1 a2 a3 a4 (ValueIdx.ix2 p q) = Rows.head (Rows.rowOf x p) a1 a2 a3 a4 q := by
  unfold k8_pay1 Rows.head
  try simp only [shapeCast_self]
  show matmul dot_S10000x32_S32x1_S10000x1_1_0_0_1_n_n none _ a3 (constant (F := Ideal) S10000x1 .f32 0x00000000#32) (ValueIdx.ix2 p q) + broadcastTo S10000x1 a4 broadcasts_S1x1_S10000x1 (ValueIdx.ix2 p q) = _
  rw [ValueIdx.broadcastTo_1b_ab_apply a4 broadcasts_S1x1_S10000x1 p q]
  refine congrArg (· + a4 (ValueIdx.ix2 (0 : Fin 1) q)) ((matmul_32x1 _ a3 (ValueIdx.ix2 p q)).trans ?_)
  unfold Rows.dense
  exact Finset.sum_congr rfl fun r _ => congrArg (· * a3 (ValueIdx.ix2 r q)) (hidden_apply x a1 a2 p r)

/-- The printed index maps over the grid: the row blocks of the feature matrix and of the result move together, the
    small arrays stay. -/
theorem index_maps : ∀ t : Fin cfg8.N, win8_0.index t (0 : Fin 2) = t.val
    ∧ win8_0.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0
    ∧ win8_5.index t (0 : Fin 2) = t.val
    ∧ win8_5.index t (1 : Fin 2) = 0 :=
  (by decide +kernel : ∀ t : Fin grid8.N, _)

/-- What point `t` writes back is block `t` of the stage applied in every row of the whole matrix. -/
theorem flushed_eq (c : Dev nD) (t : Fin cfg8.N) :
    (dat8 V c).flushed 5 t = ((cfg8.win 5).blk t).view.read (Elt Ideal) (Rows.rowwise (fun row => Rows.head row (V c main_arg16) (V c main_v84) (V c main_arg18) (V c main_v85)) (V c main_v83)) := by
  show (cfg8.win 5).cut (grid8.coords t) ((dat8 V c).after 5 t) = _
  rw [after8_5]
  unfold out8_5
  rw [View.canon_unit_zero origin]
  simp only [View.ld_unit_zero (S := S10000x32) origin, View.ld_unit_zero (S := S32x32) origin, View.ld_unit_zero (S := S1x32) origin, View.ld_unit_zero (S := S32x1) origin, View.ld_unit_zero (S := S1x1) origin]
  obtain ⟨e0, e1, e2, e3, e4, e5, e6, e7, e8, e9, e10, e11⟩ := index_maps t
  funext j
  have hj : j = ValueIdx.ix2 (⟨(j 0).val, (j 0).isLt⟩ : Fin 10000) (⟨(j 1).val, (j 1).isLt⟩ : Fin 1) :=
    funext fun a => match a with | ⟨0, _⟩ => rfl | ⟨1, _⟩ => rfl
  refine (congrArg (k8_pay1 (F := Ideal) (iblk8 V c 0 t) (iblk8 V c 1 t) (iblk8 V c 2 t) (iblk8 V c 3 t) (iblk8 V c 4 t)) hj).trans ((body_apply (iblk8 V c 0 t) (iblk8 V c 1 t) (iblk8 V c 2 t) (iblk8 V c 3 t) (iblk8 V c 4 t) ⟨(j 0).val, (j 0).isLt⟩ ⟨(j 1).val, (j 1).isLt⟩).trans ?_)
  show Rows.head (Rows.rowOf (iblk8 V c 0 t) ⟨(j 0).val, (j 0).isLt⟩) ((iblk8 V c 1 t : Rows.Mat 32 32)) ((iblk8 V c 2 t : Rows.Mat 1 32)) ((iblk8 V c 3 t : Rows.Mat 32 1)) ((iblk8 V c 4 t : Rows.Mat 1 1)) (⟨(j 1).val, (j 1).isLt⟩ : Fin 1)
      = Rows.head (Rows.rowOf (V c main_v83) ⟨((((cfg8.win 5).blk t).view.emb j) 0).val, ValueIdx.idx2_lt0 (((cfg8.win 5).blk t).view.emb j)⟩) (V c main_arg16) (V c main_v84) (V c main_arg18) (V c main_v85) (⟨((((cfg8.win 5).blk t).view.emb j) 1).val, ValueIdx.idx2_lt1 (((cfg8.win 5).blk t).view.emb j)⟩ : Fin 1)
  have h0 : Rows.rowOf (iblk8 V c 0 t) ⟨(j 0).val, (j 0).isLt⟩ = Rows.rowOf (V c main_v83) ⟨((((cfg8.win 5).blk t).view.emb j) 0).val, ValueIdx.idx2_lt0 (((cfg8.win 5).blk t).view.emb j)⟩ := funext fun k => by
    show V c main_v83 (((cfg8.win 0).blk t).view.emb (ValueIdx.ix2 (⟨(j 0).val, (j 0).isLt⟩ : Fin 10000) k)) = V c main_v83 (ValueIdx.ix2 (⟨((((cfg8.win 5).blk t).view.emb j) 0).val, ValueIdx.idx2_lt0 (((cfg8.win 5).blk t).view.emb j)⟩ : Fin 100000) k)
    refine congrArg _ (funext fun a => Fin.ext ?_)
    match a with
    | ⟨0, _⟩ => show win8_0.index t (0 : Fin 2) * 10000 + 1 * (j 0).val = win8_5.index t (0 : Fin 2) * 10000 + 1 * (j 0).val; omega
    | ⟨1, _⟩ => show win8_0.index t (1 : Fin 2) * 32 + 1 * k.val = k.val; omega
  have h1 : (iblk8 V c 1 t : Rows.Mat 32 32) = V c main_arg16 := funext fun y => by
    show V c main_arg16 (((cfg8.win 1).blk t).view.emb y) = V c main_arg16 y
    refine congrArg _ (funext fun a => Fin.ext ?_)
    match a with
    | ⟨0, _⟩ => show win8_1.index t (0 : Fin 2) * 32 + 1 * (y 0).val = (y 0).val; omega
    | ⟨1, _⟩ => show win8_1.index t (1 : Fin 2) * 32 + 1 * (y 1).val = (y 1).val; omega
  have h2 : (iblk8 V c 2 t : Rows.Mat 1 32) = V c main_v84 := funext fun y => by
    show V c main_v84 (((cfg8.win 2).blk t).view.emb y) = V c main_v84 y
    refine congrArg _ (funext fun a => Fin.ext ?_)
    match a with
    | ⟨0, _⟩ => show win8_2.index t (0 : Fin 2) * 1 + 1 * (y 0).val = (y 0).val; omega
    | ⟨1, _⟩ => show win8_2.index t (1 : Fin 2) * 32 + 1 * (y 1).val = (y 1).val; omega
  have h3 : (iblk8 V c 3 t : Rows.Mat 32 1) = V c main_arg18 := funext fun y => by
    show V c main_arg18 (((cfg8.win 3).blk t).view.emb y) = V c main_arg18 y
    refine congrArg _ (funext fun a => Fin.ext ?_)
    match a with
    | ⟨0, _⟩ => show win8_3.index t (0 : Fin 2) * 32 + 1 * (y 0).val = (y 0).val; omega
    | ⟨1, _⟩ => show win8_3.index t (1 : Fin 2) * 1 + 1 * (y 1).val = (y 1).val; omega
  have h4 : (iblk8 V c 4 t : Rows.Mat 1 1) = V c main_v85 := funext fun y => by
    show V c main_v85 (((cfg8.win 4).blk t).view.emb y) = V c main_v85 y
    refine congrArg _ (funext fun a => Fin.ext ?_)
    match a with
    | ⟨0, _⟩ => show win8_4.index t (0 : Fin 2) * 1 + 1 * (y 0).val = (y 0).val; omega
    | ⟨1, _⟩ => show win8_4.index t (1 : Fin 2) * 1 + 1 * (y 1).val = (y 1).val; omega
  have hq : (⟨(j 1).val, (j 1).isLt⟩ : Fin 1) = ⟨((((cfg8.win 5).blk t).view.emb j) 1).val, ValueIdx.idx2_lt1 (((cfg8.win 5).blk t).view.emb j)⟩ :=
    Fin.ext (show (j 1).val = win8_5.index t (1 : Fin 2) * 1 + 1 * (j 1).val by omega)
  rw [h0, h1, h2, h3, h4, hq]

/-- An index of the result is in point `t`'s block iff each coordinate is in the block's range on its axis. -/
theorem mem_block (t : Fin cfg8.N) (i : S100000x1.Idx) :
    i ∈ ((cfg8.win 5).blk t).view.set ↔ ∀ a : Fin 2, win8_5.index t a * S10000x1.size a ≤ (i a).val ∧ (i a).val < win8_5.index t a * S10000x1.size a + S10000x1.size a := by
  show i ∈ ((View.whole main_v86).slice (win8_5.rect t)).set ↔ _
  rw [View.set_slice_whole, Rect.mem_set_unit]
  exact Iff.rfl

/-- Row r lies in the block of point r / 10000: the ten blocks tile the result. -/
theorem covered (i : S100000x1.Idx) :
    ∃ t : Fin cfg8.N, (cfg8.win 5).flush t = true ∧ i ∈ ((cfg8.win 5).blk t).view.set := by
  have h0 : (i 0).val < 100000 := (i 0).isLt
  have h1 : (i 1).val < 1 := (i 1).isLt
  have ht : (i 0).val / 10000 < cfg8.N := by show _ < 10; omega
  have em := index_maps ⟨(i 0).val / 10000, ht⟩
  have ea : win8_5.index ⟨(i 0).val / 10000, ht⟩ (0 : Fin 2) = (i 0).val / 10000 := em.2.2.2.2.2.2.2.2.2.2.1
  have eb : win8_5.index ⟨(i 0).val / 10000, ht⟩ (1 : Fin 2) = 0 := em.2.2.2.2.2.2.2.2.2.2.2
  refine ⟨⟨(i 0).val / 10000, ht⟩, flush8_5 _, ?_⟩
  rw [mem_block]
  intro a
  match a with
  | ⟨0, _⟩ =>
    show win8_5.index ⟨(i 0).val / 10000, ht⟩ (0 : Fin 2) * 10000 ≤ (i 0).val ∧ (i 0).val < win8_5.index ⟨(i 0).val / 10000, ht⟩ (0 : Fin 2) * 10000 + 10000
    rw [ea]; omega
  | ⟨1, _⟩ =>
    show win8_5.index ⟨(i 0).val / 10000, ht⟩ (1 : Fin 2) * 1 ≤ (i 1).val ∧ (i 1).val < win8_5.index ⟨(i 0).val / 10000, ht⟩ (1 : Fin 2) * 1 + 1
    rw [eb]; omega

/-- The result array after the region: the stage applied in every row of the feature matrix, all arrays as the region
    found them. -/
theorem result (c : Dev nD) :
    (dat8 V c).arrAt 5 cfg8.N = Rows.rowwise (fun row => Rows.head row (V c main_arg16) (V c main_v84) (V c main_arg18) (V c main_v85)) (V c main_v83) :=
  (dat8 V c).arrAt_eq_of_cover 5 _ (fun t _ => flushed_eq V c t) covered

end Cert.KernelIdeal.Region8

end
-- ==== Proof.Region9.lean ====
/-
  Region 9 (the type head): what the pipelined region leaves in its output array.

  The grid has ten points.  Point t stages rows 10000·t … 10000·t + 9999 of the node-feature matrix (all 32 columns) and the
  whole of each small array, and writes back the same rows of the 100000 × 10 result.  Row p of the written block depends
  only on row p of the staged block, so the ten written blocks are the restrictions of ONE whole-array function, the
  stage's row function applied in every row; the blocks tile the result, hence the array ends holding that function of
  the input arrays as the region found them.
-/
import proofs.«128439_j84791244358296_1_alg».proof.Proof.Gen.KernelIdeal.Frame
import proofs.«128439_j84791244358296_1_alg».proof.Proof.KernelDots
import proofs.«128439_j84791244358296_1_alg».proof.Proof.Rows
import Idealize.ShloMosaic.Lib.ValueLayout

noncomputable section

set_option maxRecDepth 16384

namespace Cert.KernelIdeal.Region9

open Cert.KernelIdeal Cert.KernelIdeal.Gen Cert.KernelIdeal.Dots
open Idealize.ShloMosaic Idealize.ShloMosaic.TcCoe Idealize.ShloMosaic.Tactic
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The hidden layer of the block at entry (p, r): the product with the first weights plus its bias, clamped at zero. -/
theorem hidden_apply (x : FVec Ideal S10000x32 .f32) (a1 : FVec Ideal S32x32 .f32) (a2 : FVec Ideal S1x32 .f32) (p : Fin 10000) (r : Fin 32) :
    (maximumf (addf (matmul dot_S10000x32_S32x32_S10000x32_1_0_0_1_n_n none x a1 (constant (F := Ideal) S10000x32 .f32 0x00000000#32)) (broadcastTo S10000x32 a2 broadcasts_S1x32_S10000x32))
        (broadcast S10000x32 (Scalar.ofBits (F := Ideal) .f32 0x00000000#32))) (ValueIdx.ix2 p r)
      = Rows.hidden (Rows.rowOf x p) a1 a2 r := by
  show max (matmul dot_S10000x32_S32x32_S10000x32_1_0_0_1_n_n none x a1 (constant (F := Ideal) S10000x32 .f32 0x00000000#32) (ValueIdx.ix2 p r) + broadcastTo S10000x32 a2 broadcasts_S1x32_S10000x32 (ValueIdx.ix2 p r)) (Ideal.ofBits .f32 0x00000000#32) = _
  rw [ValueIdx.broadcastTo_1b_ab_apply a2 broadcasts_S1x32_S10000x32 p r]
  exact congrArg (fun z => max (z + a2 (ValueIdx.ix2 (0 : Fin 1) r)) Rows.zeroLit) (matmul_32x32 x a1 (ValueIdx.ix2 p r))

/-- The body's arithmetic at entry (p, q) of its block: the hidden row times the second weights, plus its bias. -/
theorem body_apply (x : FVec Ideal S10000x32 .f32) (a1 : FVec Ideal S32x32 .f32) (a2 : FVec Ideal S1x32 .f32) (a3 : FVec Ideal S32x10 .f32) (a4 : FVec Ideal S1x10 .f32) (p : Fin 10000) (q : Fin 10) :
    k9_pay1 (F := Ideal) x a1 a2 a3 a4 (ValueIdx.ix2 p q) = Rows.head (Rows.rowOf x p) a1 a2 a3 a4 q := by
  unfold k9_pay1 Rows.head
  try simp only [shapeCast_self]
  show matmul dot_S10000x32_S32x10_S10000x10_1_0_0_1_n_n none _ a3 (constant (F := Ideal) S10000x10 .f32 0x00000000#32) (ValueIdx.ix2 p q) + broadcastTo S10000x10 a4 broadcasts_S1x10_S10000x10 (ValueIdx.ix2 p q) = _
  rw [ValueIdx.broadcastTo_1b_ab_apply a4 broadcasts_S1x10_S10000x10 p q]
  refine congrArg (· + a4 (ValueIdx.ix2 (0 : Fin 1) q)) ((matmul_32x10 _ a3 (ValueIdx.ix2 p q)).trans ?_)
  unfold Rows.dense
  exact Finset.sum_congr rfl fun r _ => congrArg (· * a3 (ValueIdx.ix2 r q)) (hidden_apply x a1 a2 p r)

/-- The printed index maps over the grid: the row blocks of the feature matrix and of the result move together, the
    small arrays stay. -/
theorem index_maps : ∀ t : Fin cfg9.N, win9_0.index t (0 : Fin 2) = t.val
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 2) = 0
    ∧ win9_3.index t (1 : Fin 2) = 0
    ∧ win9_4.index t (0 : Fin 2) = 0
    ∧ win9_4.index t (1 : Fin 2) = 0
    ∧ win9_5.index t (0 : Fin 2) = t.val
    ∧ win9_5.index t (1 : Fin 2) = 0 :=
  (by decide +kernel : ∀ t : Fin grid9.N, _)

/-- What point `t` writes back is block `t` of the stage applied in every row of the whole matrix. -/
theorem flushed_eq (c : Dev nD) (t : Fin cfg9.N) :
    (dat9 V c).flushed 5 t = ((cfg9.win 5).blk t).view.read (Elt Ideal) (Rows.rowwise (fun row => Rows.head row (V c main_arg20) (V c main_v87) (V c main_arg22) (V c main_v88)) (V c main_v83)) := by
  show (cfg9.win 5).cut (grid9.coords t) ((dat9 V c).after 5 t) = _
  rw [after9_5]
  unfold out9_5
  rw [View.canon_unit_zero origin]
  simp only [View.ld_unit_zero (S := S10000x32) origin, View.ld_unit_zero (S := S32x32) origin, View.ld_unit_zero (S := S1x32) origin, View.ld_unit_zero (S := S32x10) origin, View.ld_unit_zero (S := S1x10) origin]
  obtain ⟨e0, e1, e2, e3, e4, e5, e6, e7, e8, e9, e10, e11⟩ := index_maps t
  funext j
  have hj : j = ValueIdx.ix2 (⟨(j 0).val, (j 0).isLt⟩ : Fin 10000) (⟨(j 1).val, (j 1).isLt⟩ : Fin 10) :=
    funext fun a => match a with | ⟨0, _⟩ => rfl | ⟨1, _⟩ => rfl
  refine (congrArg (k9_pay1 (F := Ideal) (iblk9 V c 0 t) (iblk9 V c 1 t) (iblk9 V c 2 t) (iblk9 V c 3 t) (iblk9 V c 4 t)) hj).trans ((body_apply (iblk9 V c 0 t) (iblk9 V c 1 t) (iblk9 V c 2 t) (iblk9 V c 3 t) (iblk9 V c 4 t) ⟨(j 0).val, (j 0).isLt⟩ ⟨(j 1).val, (j 1).isLt⟩).trans ?_)
  show Rows.head (Rows.rowOf (iblk9 V c 0 t) ⟨(j 0).val, (j 0).isLt⟩) ((iblk9 V c 1 t : Rows.Mat 32 32)) ((iblk9 V c 2 t : Rows.Mat 1 32)) ((iblk9 V c 3 t : Rows.Mat 32 10)) ((iblk9 V c 4 t : Rows.Mat 1 10)) (⟨(j 1).val, (j 1).isLt⟩ : Fin 10)
      = Rows.head (Rows.rowOf (V c main_v83) ⟨((((cfg9.win 5).blk t).view.emb j) 0).val, ValueIdx.idx2_lt0 (((cfg9.win 5).blk t).view.emb j)⟩) (V c main_arg20) (V c main_v87) (V c main_arg22) (V c main_v88) (⟨((((cfg9.win 5).blk t).view.emb j) 1).val, ValueIdx.idx2_lt1 (((cfg9.win 5).blk t).view.emb j)⟩ : Fin 10)
  have h0 : Rows.rowOf (iblk9 V c 0 t) ⟨(j 0).val, (j 0).isLt⟩ = Rows.rowOf (V c main_v83) ⟨((((cfg9.win 5).blk t).view.emb j) 0).val, ValueIdx.idx2_lt0 (((cfg9.win 5).blk t).view.emb j)⟩ := funext fun k => by
    show V c main_v83 (((cfg9.win 0).blk t).view.emb (ValueIdx.ix2 (⟨(j 0).val, (j 0).isLt⟩ : Fin 10000) k)) = V c main_v83 (ValueIdx.ix2 (⟨((((cfg9.win 5).blk t).view.emb j) 0).val, ValueIdx.idx2_lt0 (((cfg9.win 5).blk t).view.emb j)⟩ : Fin 100000) k)
    refine congrArg _ (funext fun a => Fin.ext ?_)
    match a with
    | ⟨0, _⟩ => show win9_0.index t (0 : Fin 2) * 10000 + 1 * (j 0).val = win9_5.index t (0 : Fin 2) * 10000 + 1 * (j 0).val; omega
    | ⟨1, _⟩ => show win9_0.index t (1 : Fin 2) * 32 + 1 * k.val = k.val; omega
  have h1 : (iblk9 V c 1 t : Rows.Mat 32 32) = V c main_arg20 := funext fun y => by
    show V c main_arg20 (((cfg9.win 1).blk t).view.emb y) = V c main_arg20 y
    refine congrArg _ (funext fun a => Fin.ext ?_)
    match a with
    | ⟨0, _⟩ => show win9_1.index t (0 : Fin 2) * 32 + 1 * (y 0).val = (y 0).val; omega
    | ⟨1, _⟩ => show win9_1.index t (1 : Fin 2) * 32 + 1 * (y 1).val = (y 1).val; omega
  have h2 : (iblk9 V c 2 t : Rows.Mat 1 32) = V c main_v87 := funext fun y => by
    show V c main_v87 (((cfg9.win 2).blk t).view.emb y) = V c main_v87 y
    refine congrArg _ (funext fun a => Fin.ext ?_)
    match a with
    | ⟨0, _⟩ => show win9_2.index t (0 : Fin 2) * 1 + 1 * (y 0).val = (y 0).val; omega
    | ⟨1, _⟩ => show win9_2.index t (1 : Fin 2) * 32 + 1 * (y 1).val = (y 1).val; omega
  have h3 : (iblk9 V c 3 t : Rows.Mat 32 10) = V c main_arg22 := funext fun y => by
    show V c main_arg22 (((cfg9.win 3).blk t).view.emb y) = V c main_arg22 y
    refine congrArg _ (funext fun a => Fin.ext ?_)
    match a with
    | ⟨0, _⟩ => show win9_3.index t (0 : Fin 2) * 32 + 1 * (y 0).val = (y 0).val; omega
    | ⟨1, _⟩ => show win9_3.index t (1 : Fin 2) * 10 + 1 * (y 1).val = (y 1).val; omega
  have h4 : (iblk9 V c 4 t : Rows.Mat 1 10) = V c main_v88 := funext fun y => by
    show V c main_v88 (((cfg9.win 4).blk t).view.emb y) = V c main_v88 y
    refine congrArg _ (funext fun a => Fin.ext ?_)
    match a with
    | ⟨0, _⟩ => show win9_4.index t (0 : Fin 2) * 1 + 1 * (y 0).val = (y 0).val; omega
    | ⟨1, _⟩ => show win9_4.index t (1 : Fin 2) * 10 + 1 * (y 1).val = (y 1).val; omega
  have hq : (⟨(j 1).val, (j 1).isLt⟩ : Fin 10) = ⟨((((cfg9.win 5).blk t).view.emb j) 1).val, ValueIdx.idx2_lt1 (((cfg9.win 5).blk t).view.emb j)⟩ :=
    Fin.ext (show (j 1).val = win9_5.index t (1 : Fin 2) * 10 + 1 * (j 1).val by omega)
  rw [h0, h1, h2, h3, h4, hq]

/-- An index of the result is in point `t`'s block iff each coordinate is in the block's range on its axis. -/
theorem mem_block (t : Fin cfg9.N) (i : S100000x10.Idx) :
    i ∈ ((cfg9.win 5).blk t).view.set ↔ ∀ a : Fin 2, win9_5.index t a * S10000x10.size a ≤ (i a).val ∧ (i a).val < win9_5.index t a * S10000x10.size a + S10000x10.size a := by
  show i ∈ ((View.whole main_v89).slice (win9_5.rect t)).set ↔ _
  rw [View.set_slice_whole, Rect.mem_set_unit]
  exact Iff.rfl

/-- Row r lies in the block of point r / 10000: the ten blocks tile the result. -/
theorem covered (i : S100000x10.Idx) :
    ∃ t : Fin cfg9.N, (cfg9.win 5).flush t = true ∧ i ∈ ((cfg9.win 5).blk t).view.set := by
  have h0 : (i 0).val < 100000 := (i 0).isLt
  have h1 : (i 1).val < 10 := (i 1).isLt
  have ht : (i 0).val / 10000 < cfg9.N := by show _ < 10; omega
  have em := index_maps ⟨(i 0).val / 10000, ht⟩
  have ea : win9_5.index ⟨(i 0).val / 10000, ht⟩ (0 : Fin 2) = (i 0).val / 10000 := em.2.2.2.2.2.2.2.2.2.2.1
  have eb : win9_5.index ⟨(i 0).val / 10000, ht⟩ (1 : Fin 2) = 0 := em.2.2.2.2.2.2.2.2.2.2.2
  refine ⟨⟨(i 0).val / 10000, ht⟩, flush9_5 _, ?_⟩
  rw [mem_block]
  intro a
  match a with
  | ⟨0, _⟩ =>
    show win9_5.index ⟨(i 0).val / 10000, ht⟩ (0 : Fin 2) * 10000 ≤ (i 0).val ∧ (i 0).val < win9_5.index ⟨(i 0).val / 10000, ht⟩ (0 : Fin 2) * 10000 + 10000
    rw [ea]; omega
  | ⟨1, _⟩ =>
    show win9_5.index ⟨(i 0).val / 10000, ht⟩ (1 : Fin 2) * 10 ≤ (i 1).val ∧ (i 1).val < win9_5.index ⟨(i 0).val / 10000, ht⟩ (1 : Fin 2) * 10 + 10
    rw [eb]; omega

/-- The result array after the region: the stage applied in every row of the feature matrix, all arrays as the region
    found them. -/
theorem result (c : Dev nD) :
    (dat9 V c).arrAt 5 cfg9.N = Rows.rowwise (fun row => Rows.head row (V c main_arg20) (V c main_v87) (V c main_arg22) (V c main_v88)) (V c main_v83) :=
  (dat9 V c).arrAt_eq_of_cover 5 _ (fun t _ => flushed_eq V c t) covered

end Cert.KernelIdeal.Region9

end
-- ==== Proof.KernelStagewise.lean ====
/-
  The kernel program's buffers, boundary by boundary, against the reference's stages.

  Both programs compute the same network: three graph-convolution layers (dense transform, aggregation over the edges
  with symmetric normalisation, bias and ReLU), two LSTM steps from a zero state, and two prediction heads.  The kernel
  program runs the dense, bias-and-ReLU, LSTM and head stages as pipelined regions and the aggregation as host
  operations; the reference runs everything as host operations.  Walking the kernel program's boundaries in order, each
  buffer a later stage reads holds exactly the reference's value of the corresponding stage, as a function of the
  launch contents of the argument arrays:
    * the graph buffers (edge sources and destinations with self-loops, edge weights) are the same host operations in
      both programs;
    * a region's result is its row function applied in every row (the region modules), which is the reference's stage
      (the reference-stage module);
    * an aggregation is the same gather, scale and scatter-add in both programs, applied to equal inputs.
-/
import proofs.«128439_j84791244358296_1_alg».proof.Proof.Gen.KernelIdeal.Frame
import proofs.«128439_j84791244358296_1_alg».proof.Proof.RefRead
import proofs.«128439_j84791244358296_1_alg».proof.Proof.KernelCarry
import proofs.«128439_j84791244358296_1_alg».proof.Proof.RefStagesConv
import proofs.«128439_j84791244358296_1_alg».proof.Proof.RefStagesLstm
import proofs.«128439_j84791244358296_1_alg».proof.Proof.RefStagesHead
import proofs.«128439_j84791244358296_1_alg».proof.Proof.Rows
import proofs.«128439_j84791244358296_1_alg».proof.Proof.Region0
import proofs.«128439_j84791244358296_1_alg».proof.Proof.Region1
import proofs.«128439_j84791244358296_1_alg».proof.Proof.Region2
import proofs.«128439_j84791244358296_1_alg».proof.Proof.Region3
import proofs.«128439_j84791244358296_1_alg».proof.Proof.Region4
import proofs.«128439_j84791244358296_1_alg».proof.Proof.Region5
import proofs.«128439_j84791244358296_1_alg».proof.Proof.Region6
import proofs.«128439_j84791244358296_1_alg».proof.Proof.Region7
import proofs.«128439_j84791244358296_1_alg».proof.Proof.Region8
import proofs.«128439_j84791244358296_1_alg».proof.Proof.Region9
import Idealize.ShloMosaic.Lib.StableHlo.Run
import Idealize.ShloMosaic.Lib.ValueLayout

noncomputable section

set_option maxRecDepth 16384

namespace Cert.KernelIdeal.Stagewise

open Cert.KernelIdeal Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat Cfg Window)
open Cert.KernelIdeal.Carry

variable (m : (ℓ : Loc nD τ sig) → Buf (Elt Ideal) ℓ) (ρ : Dev nD → PrngReg) (c : Dev nD)

/-! ## The graph buffers: the same host operations in both programs

The edge lists with the self-loops appended, the in-degrees (a scatter-add of ones), their inverse square roots where
the degree is positive, and the product of the two endpoint factors for every edge.  Both programs apply the same
operations to the edge-index argument; the three stretches of host operations are read one after the other. -/

theorem pre_v3 : W1 m ρ c (Proc.devRef .tc main_v3) = (Cert.ReferenceIdeal.ReadP.val_main_v3 (F := Ideal) (m ((c : Thread nD τ).loc main_arg1))) := by
  show StableHlo.after hostOps0 (W0 m ρ c) (Proc.devRef .tc main_v3) = _
  after_results_simp <;> rfl

theorem pre_v6 : W1 m ρ c (Proc.devRef .tc main_v6) = (Cert.ReferenceIdeal.ReadP.val_main_v6 (F := Ideal) (m ((c : Thread nD τ).loc main_arg1))) := by
  show StableHlo.after hostOps0 (W0 m ρ c) (Proc.devRef .tc main_v6) = _
  after_results_simp <;> rfl

theorem pre_v12 : W1 m ρ c (Proc.devRef .tc main_v12) = (Cert.ReferenceIdeal.ReadP.val_main_v12 (F := Ideal) (m ((c : Thread nD τ).loc main_arg1))) := by
  show StableHlo.after hostOps0 (W0 m ρ c) (Proc.devRef .tc main_v12) = _
  after_results_simp <;> rfl

theorem pre_v13 : W1 m ρ c (Proc.devRef .tc main_v13) = (Cert.ReferenceIdeal.ReadP.val_main_v13 (F := Ideal) (m ((c : Thread nD τ).loc main_arg1))) := by
  show StableHlo.after hostOps0 (W0 m ρ c) (Proc.devRef .tc main_v13) = _
  after_results_simp <;> rfl

theorem pre_cst_2 : W1 m ρ c (Proc.devRef .tc main_cst_2) = (Cert.ReferenceIdeal.ReadP.val_main_cst_2 (F := Ideal) ) := by
  show StableHlo.after hostOps0 (W0 m ρ c) (Proc.devRef .tc main_cst_2) = _
  after_results_simp <;> rfl

/-- The inverse square root of the degree where the degree is positive, zero elsewhere: the select of the outlined
    `where`, read from the contents after the first stretch. -/
theorem pre_v14 : W2 m ρ c (Proc.devRef .tc main_v14) = (Cert.ReferenceIdeal.ReadP.val_main_v14 (F := Ideal) (m ((c : Thread nD τ).loc main_arg1))) := by
  have e : W2 m ρ c (Proc.devRef .tc main_v14) = select (W1 m ρ c (Proc.devRef .tc main_v12)) (W1 m ρ c (Proc.devRef .tc main_v13))
      (broadcastInDim S100000 ![] bcast_S_S100000 (W1 m ρ c (Proc.devRef .tc main_cst_2))) := by
    show StableHlo.after hostOps0_1 (W1 m ρ c) (Proc.devRef .tc main_v14) = _
    generalize W1 m ρ c = V1
    after_results_simp
    rfl
  rw [e, pre_v12 m ρ c, pre_v13 m ρ c, pre_cst_2 m ρ c]
  rfl

theorem keep2_v3 : W2 m ρ c (Proc.devRef .tc main_v3) = W1 m ρ c (Proc.devRef .tc main_v3) := (show W2 m ρ c (Proc.devRef .tc main_v3) = W1 m ρ c (Proc.devRef .tc main_v3) by show StableHlo.after hostOps0_1 (W1 m ρ c) (Proc.devRef .tc main_v3) = _; host_keeps)
theorem keep2_v6 : W2 m ρ c (Proc.devRef .tc main_v6) = W1 m ρ c (Proc.devRef .tc main_v6) := (show W2 m ρ c (Proc.devRef .tc main_v6) = W1 m ρ c (Proc.devRef .tc main_v6) by show StableHlo.after hostOps0_1 (W1 m ρ c) (Proc.devRef .tc main_v6) = _; host_keeps)

/-- The edge sources (with self-loops). -/
theorem graph_v3 : W3 m ρ c (Proc.devRef .tc main_v3) = (Cert.ReferenceIdeal.ReadP.val_main_v3 (F := Ideal) (m ((c : Thread nD τ).loc main_arg1))) :=
  ((show W3 m ρ c (Proc.devRef .tc main_v3) = W2 m ρ c (Proc.devRef .tc main_v3) by show StableHlo.after hostOps0_2 (W2 m ρ c) (Proc.devRef .tc main_v3) = _; host_keeps).trans (keep2_v3 m ρ c)).trans (pre_v3 m ρ c)

/-- The edge destinations (with self-loops). -/
theorem graph_v6 : W3 m ρ c (Proc.devRef .tc main_v6) = (Cert.ReferenceIdeal.ReadP.val_main_v6 (F := Ideal) (m ((c : Thread nD τ).loc main_arg1))) :=
  ((show W3 m ρ c (Proc.devRef .tc main_v6) = W2 m ρ c (Proc.devRef .tc main_v6) by show StableHlo.after hostOps0_2 (W2 m ρ c) (Proc.devRef .tc main_v6) = _; host_keeps).trans (keep2_v6 m ρ c)).trans (pre_v6 m ρ c)

set_option maxRecDepth 32768 in
/-- The edge weights: the product of the two endpoints' inverse square root degrees. -/
theorem graph_v30 : W3 m ρ c (Proc.devRef .tc main_v30) = (Cert.ReferenceIdeal.ReadP.val_main_v30 (F := Ideal) (m ((c : Thread nD τ).loc main_arg1))) := by
  have h14 := pre_v14 m ρ c
  have h3 := (keep2_v3 m ρ c).trans (pre_v3 m ρ c)
  have h6 := (keep2_v6 m ρ c).trans (pre_v6 m ρ c)
  show StableHlo.after hostOps0_2 (W2 m ρ c) (Proc.devRef .tc main_v30) = _
  generalize W2 m ρ c = V2 at h14 h3 h6 ⊢
  after_results_simp
  rw [h14, h3, h6]
  rfl

/-! ## Graph-convolution layer 1 -/

/-- The dense transform of layer 1. -/
theorem layer0_dense : W4 m ρ c (Proc.devRef .tc main_v31) = (Cert.ReferenceIdeal.ReadP.val_main_v31 (F := Ideal) (m ((c : Thread nD τ).loc main_arg0)) (m ((c : Thread nD τ).loc main_arg2))) :=
  (W4_arr m ρ c 2).trans ((Region0.result (V3 m ρ) c).trans (by
    rw [show V3 m ρ c main_arg0 = (m ((c : Thread nD τ).loc main_arg0)) from Carry.arg0_at_3 m ρ c,
      show V3 m ρ c main_arg2 = (m ((c : Thread nD τ).loc main_arg2)) from Carry.arg2_at_3 m ρ c]
    exact (Cert.ReferenceIdeal.Stages.dense_v31 _ _).symm))

/-- The aggregation of layer 1: gather the transformed rows at the edge sources, scale by the edge weights, add up at
    the edge destinations — the same host operations as the reference's, on equal inputs. -/
theorem layer0_agg : W5 m ρ c (Proc.devRef .tc main_v43) = (Cert.ReferenceIdeal.ReadP.val_main_v43 (F := Ideal) (m ((c : Thread nD τ).loc main_arg0)) (m ((c : Thread nD τ).loc main_arg1)) (m ((c : Thread nD τ).loc main_arg2))) := by
  show StableHlo.after hostOps1 (W4 m ρ c) (Proc.devRef .tc main_v43) = _
  after_results_simp
  rw [layer0_dense m ρ c, Carry.v3_at_4 m ρ c, graph_v3 m ρ c, Carry.v6_at_4 m ρ c, graph_v6 m ρ c,
    Carry.v30_at_4 m ρ c, graph_v30 m ρ c]
  rfl

/-- The bias of layer 1, reshaped to one row. -/
theorem layer0_bias (q : Fin 64) : W5 m ρ c (Proc.devRef .tc main_v44) (ValueIdx.ix2 (0 : Fin 1) q) = (m ((c : Thread nD τ).loc main_arg3)) (ValueIdx.ix1 q) := by
  have e : W5 m ρ c (Proc.devRef .tc main_v44) = shapeCast S1x64 (W4 m ρ c (Proc.devRef .tc main_arg3)) shapeCasts_S64_S1x64 := by
    show StableHlo.after hostOps1 (W4 m ρ c) (Proc.devRef .tc main_v44) = _
    after_results_simp <;> rfl
  rw [e, Carry.arg3_at_4 m ρ c]
  exact ValueIdx.shapeCast_a_1a_apply _ shapeCasts_S64_S1x64 (0 : Fin 1) q

/-- Layer 1's output: bias and ReLU. -/
theorem layer0_out : W6 m ρ c (Proc.devRef .tc main_v45) = (Cert.ReferenceIdeal.ReadP.val_main_v47 (F := Ideal) (m ((c : Thread nD τ).loc main_arg0)) (m ((c : Thread nD τ).loc main_arg1)) (m ((c : Thread nD τ).loc main_arg2)) (m ((c : Thread nD τ).loc main_arg3))) :=
  (W6_arr m ρ c 2).trans ((Region1.result (V5 m ρ) c).trans (by
    rw [show V5 m ρ c main_v43 = (Cert.ReferenceIdeal.ReadP.val_main_v43 (F := Ideal) (m ((c : Thread nD τ).loc main_arg0)) (m ((c : Thread nD τ).loc main_arg1)) (m ((c : Thread nD τ).loc main_arg2))) from layer0_agg m ρ c]
    exact (Cert.ReferenceIdeal.Stages.biasRelu_v47 _ _ _ _ (V5 m ρ c main_v44) (layer0_bias m ρ c)).symm))

/-! ## Graph-convolution layer 2 -/

/-- The dense transform of layer 2. -/
theorem layer1_dense : W7 m ρ c (Proc.devRef .tc main_v46) = (Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :=
  (W7_arr m ρ c 2).trans ((Region2.result (V6 m ρ) c).trans (by
    rw [show V6 m ρ c main_v45 = (Cert.ReferenceIdeal.ReadP.val_main_v47 (F := Ideal) (m ((c : Thread nD τ).loc main_arg0)) (m ((c : Thread nD τ).loc main_arg1)) (m ((c : Thread nD τ).loc main_arg2)) (m ((c : Thread nD τ).loc main_arg3))) from layer0_out m ρ c,
      show V6 m ρ c main_arg4 = (m ((c : Thread nD τ).loc main_arg4)) from Carry.arg4_at_6 m ρ c]
    exact (Cert.ReferenceIdeal.Stages.dense_v48 _ _ _ _ _).symm))

/-- The aggregation of layer 2: gather the transformed rows at the edge sources, scale by the edge weights, add up at
    the edge destinations — the same host operations as the reference's, on equal inputs. -/
theorem layer1_agg : W8 m ρ c (Proc.devRef .tc main_v58) = (Cert.ReferenceIdeal.ReadP.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps3 (W7 m ρ c) (Proc.devRef .tc main_v58) = _
  after_results_simp
  rw [layer1_dense m ρ c, Carry.v3_at_7 m ρ c, graph_v3 m ρ c, Carry.v6_at_7 m ρ c, graph_v6 m ρ c,
    Carry.v30_at_7 m ρ c, graph_v30 m ρ c]
  rfl

/-- The bias of layer 2, reshaped to one row. -/
theorem layer1_bias (q : Fin 64) : W8 m ρ c (Proc.devRef .tc main_v59) (ValueIdx.ix2 (0 : Fin 1) q) = (m ((c : Thread nD τ).loc main_arg5)) (ValueIdx.ix1 q) := by
  have e : W8 m ρ c (Proc.devRef .tc main_v59) = shapeCast S1x64 (W7 m ρ c (Proc.devRef .tc main_arg5)) shapeCasts_S64_S1x64 := by
    show StableHlo.after hostOps3 (W7 m ρ c) (Proc.devRef .tc main_v59) = _
    after_results_simp <;> rfl
  rw [e, Carry.arg5_at_7 m ρ c]
  exact ValueIdx.shapeCast_a_1a_apply _ shapeCasts_S64_S1x64 (0 : Fin 1) q

/-- Layer 2's output: bias and ReLU. -/
theorem layer1_out : W9 m ρ c (Proc.devRef .tc main_v60) = (Cert.ReferenceIdeal.ReadP.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (W9_arr m ρ c 2).trans ((Region3.result (V8 m ρ) c).trans (by
    rw [show V8 m ρ c main_v58 = (Cert.ReferenceIdeal.ReadP.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4))) from layer1_agg m ρ c]
    exact (Cert.ReferenceIdeal.Stages.biasRelu_v64 _ _ _ _ _ _ (V8 m ρ c main_v59) (layer1_bias m ρ c)).symm))

/-! ## Graph-convolution layer 3 -/

/-- The dense transform of layer 3. -/
theorem layer2_dense : W10 m ρ c (Proc.devRef .tc main_v61) = (Cert.ReferenceIdeal.ReadP.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (W10_arr m ρ c 2).trans ((Region4.result (V9 m ρ) c).trans (by
    rw [show V9 m ρ c main_v60 = (Cert.ReferenceIdeal.ReadP.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) from layer1_out m ρ c,
      show V9 m ρ c main_arg6 = (m ((c : Thread nD τ).loc main_arg6)) from Carry.arg6_at_9 m ρ c]
    exact (Cert.ReferenceIdeal.Stages.dense_v65 _ _ _ _ _ _ _).symm))

/-- The aggregation of layer 3: gather the transformed rows at the edge sources, scale by the edge weights, add up at
    the edge destinations — the same host operations as the reference's, on equal inputs. -/
theorem layer2_agg : W11 m ρ c (Proc.devRef .tc main_v73) = (Cert.ReferenceIdeal.ReadP.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show StableHlo.after hostOps5 (W10 m ρ c) (Proc.devRef .tc main_v73) = _
  after_results_simp
  rw [layer2_dense m ρ c, Carry.v3_at_10 m ρ c, graph_v3 m ρ c, Carry.v6_at_10 m ρ c, graph_v6 m ρ c,
    Carry.v30_at_10 m ρ c, graph_v30 m ρ c]
  rfl

/-- The bias of layer 3, reshaped to one row. -/
theorem layer2_bias (q : Fin 64) : W11 m ρ c (Proc.devRef .tc main_v74) (ValueIdx.ix2 (0 : Fin 1) q) = (m ((c : Thread nD τ).loc main_arg7)) (ValueIdx.ix1 q) := by
  have e : W11 m ρ c (Proc.devRef .tc main_v74) = shapeCast S1x64 (W10 m ρ c (Proc.devRef .tc main_arg7)) shapeCasts_S64_S1x64 := by
    show StableHlo.after hostOps5 (W10 m ρ c) (Proc.devRef .tc main_v74) = _
    after_results_simp <;> rfl
  rw [e, Carry.arg7_at_10 m ρ c]
  exact ValueIdx.shapeCast_a_1a_apply _ shapeCasts_S64_S1x64 (0 : Fin 1) q

/-- Layer 3's output: bias and ReLU. -/
theorem layer2_out : W12 m ρ c (Proc.devRef .tc main_v75) = (Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (W12_arr m ρ c 2).trans ((Region5.result (V11 m ρ) c).trans (by
    rw [show V11 m ρ c main_v73 = (Cert.ReferenceIdeal.ReadP.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) from layer2_agg m ρ c]
    exact (Cert.ReferenceIdeal.Stages.biasRelu_v81 _ _ _ _ _ _ _ _ (V11 m ρ c main_v74) (layer2_bias m ρ c)).symm))

/-! ## LSTM step 1 -/

/-- The input weights, transposed on the host: entry (k, col) of the transposed matrix is entry (col, k) of the argument. -/
theorem lstm0_weights (k : Fin 64) (col : Fin 128) :
    W13 m ρ c (Proc.devRef .tc main_v76) (ValueIdx.ix2 k col) = (m ((c : Thread nD τ).loc main_arg8)) (ValueIdx.ix2 col k) := by
  have e : W13 m ρ c (Proc.devRef .tc main_v76) = transpose S64x128 [1, 0] (W12 m ρ c (Proc.devRef .tc main_arg8)) transposes_S128x64_S64x128_1_0 := by
    show StableHlo.after hostOps6 (W12 m ρ c) (Proc.devRef .tc main_v76) = _
    after_results_simp <;> rfl
  rw [e, Carry.arg8_at_12 m ρ c]
  exact transpose_apply [1, 0] _ transposes_S128x64_S64x128_1_0 (ValueIdx.ix2 k col) (ValueIdx.ix2 col k) (fun b => match b with
    | ⟨0, _⟩ => rfl
    | ⟨1, _⟩ => rfl)

/-- The two bias vectors, added on the host and reshaped to one row. -/
theorem lstm0_bias (col : Fin 128) :
    W13 m ρ c (Proc.devRef .tc main_v78) (ValueIdx.ix2 (0 : Fin 1) col) = (show EReal from (m ((c : Thread nD τ).loc main_arg10)) (ValueIdx.ix1 col)) + (show EReal from (m ((c : Thread nD τ).loc main_arg11)) (ValueIdx.ix1 col)) := by
  have e : W13 m ρ c (Proc.devRef .tc main_v78) = shapeCast S1x128 (addf (W12 m ρ c (Proc.devRef .tc main_arg10)) (W12 m ρ c (Proc.devRef .tc main_arg11)) : FVec Ideal S128 .f32) shapeCasts_S128_S1x128 := by
    show StableHlo.after hostOps6 (W12 m ρ c) (Proc.devRef .tc main_v78) = _
    after_results_simp <;> rfl
  rw [e, Carry.arg10_at_12 m ρ c, Carry.arg11_at_12 m ρ c]
  exact ValueIdx.shapeCast_a_1a_apply _ shapeCasts_S128_S1x128 (0 : Fin 1) col

/-- The LSTM step's output. -/
theorem lstm0_out : W14 m ρ c (Proc.devRef .tc main_v79) = (Cert.ReferenceIdeal.ReadP.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11))) :=
  (W14_arr m ρ c 3).trans ((Region6.result (V13 m ρ) c).trans (by
    rw [show V13 m ρ c main_v75 = (Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) from
      (show W13 m ρ c (Proc.devRef .tc main_v75) = W12 m ρ c (Proc.devRef .tc main_v75) by
        show StableHlo.after hostOps6 (W12 m ρ c) (Proc.devRef .tc main_v75) = _; host_keeps).trans (layer2_out m ρ c)]
    exact (Cert.ReferenceIdeal.Stages.lstm_v109 _ _ _ _ _ _ _ _ _ _ _ (V13 m ρ c main_v76) (V13 m ρ c main_v78)
      (lstm0_weights m ρ c) (lstm0_bias m ρ c)).symm))

/-! ## LSTM step 2 -/

/-- The input weights, transposed on the host: entry (k, col) of the transposed matrix is entry (col, k) of the argument. -/
theorem lstm1_weights (k : Fin 32) (col : Fin 128) :
    W15 m ρ c (Proc.devRef .tc main_v80) (ValueIdx.ix2 k col) = (m ((c : Thread nD τ).loc main_arg12)) (ValueIdx.ix2 col k) := by
  have e : W15 m ρ c (Proc.devRef .tc main_v80) = transpose S32x128 [1, 0] (W14 m ρ c (Proc.devRef .tc main_arg12)) transposes_S128x32_S32x128_1_0 := by
    show StableHlo.after hostOps7 (W14 m ρ c) (Proc.devRef .tc main_v80) = _
    after_results_simp <;> rfl
  rw [e, Carry.arg12_at_14 m ρ c]
  exact transpose_apply [1, 0] _ transposes_S128x32_S32x128_1_0 (ValueIdx.ix2 k col) (ValueIdx.ix2 col k) (fun b => match b with
    | ⟨0, _⟩ => rfl
    | ⟨1, _⟩ => rfl)

/-- The two bias vectors, added on the host and reshaped to one row. -/
theorem lstm1_bias (col : Fin 128) :
    W15 m ρ c (Proc.devRef .tc main_v82) (ValueIdx.ix2 (0 : Fin 1) col) = (show EReal from (m ((c : Thread nD τ).loc main_arg14)) (ValueIdx.ix1 col)) + (show EReal from (m ((c : Thread nD τ).loc main_arg15)) (ValueIdx.ix1 col)) := by
  have e : W15 m ρ c (Proc.devRef .tc main_v82) = shapeCast S1x128 (addf (W14 m ρ c (Proc.devRef .tc main_arg14)) (W14 m ρ c (Proc.devRef .tc main_arg15)) : FVec Ideal S128 .f32) shapeCasts_S128_S1x128 := by
    show StableHlo.after hostOps7 (W14 m ρ c) (Proc.devRef .tc main_v82) = _
    after_results_simp <;> rfl
  rw [e, Carry.arg14_at_14 m ρ c, Carry.arg15_at_14 m ρ c]
  exact ValueIdx.shapeCast_a_1a_apply _ shapeCasts_S128_S1x128 (0 : Fin 1) col

/-- The LSTM step's output. -/
theorem lstm1_out : W16 m ρ c (Proc.devRef .tc main_v83) = (Cert.ReferenceIdeal.ReadP.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (m ((c : Thread nD τ).loc main_arg12)) (m ((c : Thread nD τ).loc main_arg14)) (m ((c : Thread nD τ).loc main_arg15))) :=
  (W16_arr m ρ c 3).trans ((Region7.result (V15 m ρ) c).trans (by
    rw [show V15 m ρ c main_v79 = (Cert.ReferenceIdeal.ReadP.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11))) from
      (show W15 m ρ c (Proc.devRef .tc main_v79) = W14 m ρ c (Proc.devRef .tc main_v79) by
        show StableHlo.after hostOps7 (W14 m ρ c) (Proc.devRef .tc main_v79) = _; host_keeps).trans (lstm0_out m ρ c)]
    exact (Cert.ReferenceIdeal.Stages.lstm_v137 _ _ _ _ _ _ _ _ _ _ _ _ _ _ (V15 m ρ c main_v80) (V15 m ρ c main_v82)
      (lstm1_weights m ρ c) (lstm1_bias m ρ c)).symm))

/-! ## Prediction head 1 -/

theorem head0_bias1 (p : Fin 32) : W17 m ρ c (Proc.devRef .tc main_v84) (ValueIdx.ix2 (0 : Fin 1) p) = (m ((c : Thread nD τ).loc main_arg17)) (ValueIdx.ix1 p) := by
  have e : W17 m ρ c (Proc.devRef .tc main_v84) = shapeCast S1x32 (W16 m ρ c (Proc.devRef .tc main_arg17)) shapeCasts_S32_S1x32 := by
    show StableHlo.after hostOps8 (W16 m ρ c) (Proc.devRef .tc main_v84) = _
    after_results_simp <;> rfl
  rw [e, Carry.arg17_at_16 m ρ c]
  exact ValueIdx.shapeCast_a_1a_apply _ shapeCasts_S32_S1x32 (0 : Fin 1) p

theorem head0_bias2 (q : Fin 1) : W17 m ρ c (Proc.devRef .tc main_v85) (ValueIdx.ix2 (0 : Fin 1) q) = (m ((c : Thread nD τ).loc main_arg19)) (ValueIdx.ix1 q) := by
  have e : W17 m ρ c (Proc.devRef .tc main_v85) = shapeCast S1x1 (W16 m ρ c (Proc.devRef .tc main_arg19)) shapeCasts_S1_S1x1 := by
    show StableHlo.after hostOps8 (W16 m ρ c) (Proc.devRef .tc main_v85) = _
    after_results_simp <;> rfl
  rw [e, Carry.arg19_at_16 m ρ c]
  exact ValueIdx.shapeCast_a_1a_apply _ shapeCasts_S1_S1x1 (0 : Fin 1) q

/-- The head's output array. -/
theorem head0_out : W18 m ρ c (Proc.devRef .tc main_v86) = (Cert.ReferenceIdeal.ReadP.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (m ((c : Thread nD τ).loc main_arg12)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) :=
  (W18_arr m ρ c 5).trans ((Region8.result (V17 m ρ) c).trans (by
    rw [show V17 m ρ c main_v83 = (Cert.ReferenceIdeal.ReadP.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (m ((c : Thread nD τ).loc main_arg12)) (m ((c : Thread nD τ).loc main_arg14)) (m ((c : Thread nD τ).loc main_arg15))) from ((show W17 m ρ c (Proc.devRef .tc main_v83) = W16 m ρ c (Proc.devRef .tc main_v83) by show StableHlo.after hostOps8 (W16 m ρ c) (Proc.devRef .tc main_v83) = _; host_keeps)).trans (lstm1_out m ρ c),
      show V17 m ρ c main_arg16 = (m ((c : Thread nD τ).loc main_arg16)) from Carry.arg16_at_17 m ρ c,
      show V17 m ρ c main_arg18 = (m ((c : Thread nD τ).loc main_arg18)) from Carry.arg18_at_17 m ρ c]
    exact (Cert.ReferenceIdeal.Stages.head_v146 _ _ _ _ _ _ _ _ _ _ _ _ _ _ _ _ _ _ (V17 m ρ c main_v84) (V17 m ρ c main_v85)
      (head0_bias1 m ρ c) (head0_bias2 m ρ c)).symm))

/-! ## Prediction head 2 -/

theorem head1_bias1 (p : Fin 32) : W19 m ρ c (Proc.devRef .tc main_v87) (ValueIdx.ix2 (0 : Fin 1) p) = (m ((c : Thread nD τ).loc main_arg21)) (ValueIdx.ix1 p) := by
  have e : W19 m ρ c (Proc.devRef .tc main_v87) = shapeCast S1x32 (W18 m ρ c (Proc.devRef .tc main_arg21)) shapeCasts_S32_S1x32 := by
    show StableHlo.after hostOps9 (W18 m ρ c) (Proc.devRef .tc main_v87) = _
    after_results_simp <;> rfl
  rw [e, Carry.arg21_at_18 m ρ c]
  exact ValueIdx.shapeCast_a_1a_apply _ shapeCasts_S32_S1x32 (0 : Fin 1) p

theorem head1_bias2 (q : Fin 10) : W19 m ρ c (Proc.devRef .tc main_v88) (ValueIdx.ix2 (0 : Fin 1) q) = (m ((c : Thread nD τ).loc main_arg23)) (ValueIdx.ix1 q) := by
  have e : W19 m ρ c (Proc.devRef .tc main_v88) = shapeCast S1x10 (W18 m ρ c (Proc.devRef .tc main_arg23)) shapeCasts_S10_S1x10 := by
    show StableHlo.after hostOps9 (W18 m ρ c) (Proc.devRef .tc main_v88) = _
    after_results_simp <;> rfl
  rw [e, Carry.arg23_at_18 m ρ c]
  exact ValueIdx.shapeCast_a_1a_apply _ shapeCasts_S10_S1x10 (0 : Fin 1) q

/-- The head's output array. -/
theorem head1_out : W20 m ρ c (Proc.devRef .tc main_v89) = (Cert.ReferenceIdeal.ReadP.val_main_v155 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (m ((c : Thread nD τ).loc main_arg12)) (m ((c : Thread nD τ).loc main_arg14)) (m ((c : Thread nD τ).loc main_arg15)) (m ((c : Thread nD τ).loc main_arg20)) (m ((c : Thread nD τ).loc main_arg21)) (m ((c : Thread nD τ).loc main_arg22)) (m ((c : Thread nD τ).loc main_arg23))) :=
  (W20_arr m ρ c 5).trans ((Region9.result (V19 m ρ) c).trans (by
    rw [show V19 m ρ c main_v83 = (Cert.ReferenceIdeal.ReadP.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (m ((c : Thread nD τ).loc main_arg12)) (m ((c : Thread nD τ).loc main_arg14)) (m ((c : Thread nD τ).loc main_arg15))) from (((show W19 m ρ c (Proc.devRef .tc main_v83) = W18 m ρ c (Proc.devRef .tc main_v83) by show StableHlo.after hostOps9 (W18 m ρ c) (Proc.devRef .tc main_v83) = _; host_keeps).trans (((W18_arr m ρ c 0).trans (((dat8 (V17 m ρ) c).arrAt_in 0 rfl _).trans (A_eq8 (V17 m ρ) c 0))).trans (show W17 m ρ c (Proc.devRef .tc main_v83) = W16 m ρ c (Proc.devRef .tc main_v83) by show StableHlo.after hostOps8 (W16 m ρ c) (Proc.devRef .tc main_v83) = _; host_keeps)))).trans (lstm1_out m ρ c),
      show V19 m ρ c main_arg20 = (m ((c : Thread nD τ).loc main_arg20)) from Carry.arg20_at_19 m ρ c,
      show V19 m ρ c main_arg22 = (m ((c : Thread nD τ).loc main_arg22)) from Carry.arg22_at_19 m ρ c]
    exact (Cert.ReferenceIdeal.Stages.head_v155 _ _ _ _ _ _ _ _ _ _ _ _ _ _ _ _ _ _ (V19 m ρ c main_v87) (V19 m ρ c main_v88)
      (head1_bias1 m ρ c) (head1_bias2 m ρ c)).symm))

/-! ## The two results at the last boundary -/

/-- The volume prediction: written by the first head's region, untouched afterwards. -/
theorem result0 : W20 m ρ c (Proc.devRef .tc main_v86) = (Cert.ReferenceIdeal.ReadP.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (m ((c : Thread nD τ).loc main_arg12)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) :=
  (((W20_of_ne m ρ c main_v86 (by decide)).trans (show W19 m ρ c (Proc.devRef .tc main_v86) = W18 m ρ c (Proc.devRef .tc main_v86) by show StableHlo.after hostOps9 (W18 m ρ c) (Proc.devRef .tc main_v86) = _; host_keeps))).trans (head0_out m ρ c)

/-- The type prediction: written by the last region. -/
theorem result1 : W20 m ρ c (Proc.devRef .tc main_v89) = (Cert.ReferenceIdeal.ReadP.val_main_v155 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (m ((c : Thread nD τ).loc main_arg12)) (m ((c : Thread nD τ).loc main_arg14)) (m ((c : Thread nD τ).loc main_arg15)) (m ((c : Thread nD τ).loc main_arg20)) (m ((c : Thread nD τ).loc main_arg21)) (m ((c : Thread nD τ).loc main_arg22)) (m ((c : Thread nD τ).loc main_arg23))) := head1_out m ρ c

end Cert.KernelIdeal.Stagewise

end
-- ==== Proof.lean ====
/-
  A three-layer graph-convolution network with two LSTM steps and two prediction heads, as ten pipelined kernels, against
  its whole-array reference: the two programs compute equal results over the extended reals.

  The network, on N = 100000 nodes: add a self-loop to every node; weight every edge by d(src)^(-1/2) · d(dst)^(-1/2), d the
  in-degree; three times: multiply the node features by a weight matrix, sum the weighted source rows into the destination
  rows, add a bias and clamp at zero; then two LSTM steps from a zero state (so the recurrent weights never enter), each
  step g = h · Wᵀ + b_ih + b_hh, h' = σ(g_o) · tanh (σ(g_i) · tanh g_c); then two heads, each a dense layer, a clamp at zero, a
  dense layer.

  The kernel program runs the dense products, the bias-and-clamp, the LSTM steps and the heads as ten regions, each tiled
  over ten blocks of 10000 rows, and leaves the edge gather / scatter-add to host operations; the reference runs every
  stage as a host operation on the whole arrays.  Three things make the results equal, and none needs the inputs finite:
    * every region's stage acts row by row, so its ten written blocks are the restrictions of one whole-array function,
      which is the reference's stage (a block product against a whole product is the same sum over the contracted axis);
    * the kernel adds the two LSTM bias vectors to each other before adding them to the product, the reference one after
      the other: addition of extended reals is associative;
    * the kernel's logistic function against the reference's 1 / (1 + e^(−x)): that is the logistic function's definition on
      the extended reals, the float one being the real 1;
  the host operations on the graph (edge lists, degrees, weights, gather, scatter-add) are the same in both programs.

  The three frames: the two kernel programs' by the generated launch over their twenty segments, the reference's by its
  generated run.  The idealisation changed nothing in the kernel program (no entry in its ledger).
-/
import proofs.«128439_j84791244358296_1_alg».proof.Defs
import proofs.«128439_j84791244358296_1_alg».proof.Proof.Gen.Kernel
import proofs.«128439_j84791244358296_1_alg».proof.Proof.Gen.Kernel.Skeleton
import proofs.«128439_j84791244358296_1_alg».proof.Proof.Gen.Kernel.Launch
import proofs.«128439_j84791244358296_1_alg».proof.Proof.Gen.Kernel.Points
import proofs.«128439_j84791244358296_1_alg».proof.Proof.Gen.Kernel.Frame
import proofs.«128439_j84791244358296_1_alg».proof.Proof.Gen.KernelIdeal
import proofs.«128439_j84791244358296_1_alg».proof.Proof.Gen.KernelIdeal.Skeleton
import proofs.«128439_j84791244358296_1_alg».proof.Proof.Gen.KernelIdeal.Launch
import proofs.«128439_j84791244358296_1_alg».proof.Proof.Gen.KernelIdeal.Points
import proofs.«128439_j84791244358296_1_alg».proof.Proof.Gen.KernelIdeal.Frame
import proofs.«128439_j84791244358296_1_alg».proof.Proof.Gen.ReferenceIdeal
import proofs.«128439_j84791244358296_1_alg».proof.Proof.Gen.Pre_finite_inputs
import proofs.«128439_j84791244358296_1_alg».proof.Proof.RefRun
import proofs.«128439_j84791244358296_1_alg».proof.Proof.RefRead
import proofs.«128439_j84791244358296_1_alg».proof.Proof.KernelContents
import proofs.«128439_j84791244358296_1_alg».proof.Proof.KernelStagewise
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The ideal pass rewrote nothing in the kernel program. -/
theorem preserves : Cert.preserves_Kernel_KernelIdeal := trivial

/-- From memories that agree on the arguments, the kernel program's two result arrays end at the last boundary's
    contents, which are the reference's last stages of the kernel's arguments; the reference's results end at the same
    stages of its own arguments, which are the same arrays. -/
theorem algebraic : Cert.algebraic_KernelIdeal_ReferenceIdeal := by
  intro m ρ m' ρ' _ hagree
  refine ⟨fun c => Cert.KernelIdeal.Gen.W20 m ρ c (Proc.devRef .tc Cert.KernelIdeal.main_v86),
    fun c => Cert.KernelIdeal.Gen.W20 m ρ c (Proc.devRef .tc Cert.KernelIdeal.main_v89),
    Cert.KernelIdeal.Contents.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨h0, h1, h2, h3, h4, h5, h6, h7, h8, h9, h10, h11, h12, h13, h14, h15, h16, h17, h18, h19, h20, h21, h22, h23⟩ := hagree c
    show Cert.ReferenceIdeal.ValueP.res_main_v146 m' c = Cert.KernelIdeal.Gen.W20 m ρ c (Proc.devRef .tc Cert.KernelIdeal.main_v86)
    rw [Cert.ReferenceIdeal.ReadP.val_main_v146_eq, Cert.KernelIdeal.Stagewise.result0 m ρ c,
      h0, h1, h2, h3, h4, h5, h6, h7, h8, h10, h11, h12, h14, h15, h16, h17, h18, h19]
  · obtain ⟨h0, h1, h2, h3, h4, h5, h6, h7, h8, h9, h10, h11, h12, h13, h14, h15, h16, h17, h18, h19, h20, h21, h22, h23⟩ := hagree c
    show Cert.ReferenceIdeal.ValueP.res_main_v155 m' c = Cert.KernelIdeal.Gen.W20 m ρ c (Proc.devRef .tc Cert.KernelIdeal.main_v89)
    rw [Cert.ReferenceIdeal.ReadP.val_main_v155_eq, Cert.KernelIdeal.Stagewise.result1 m ρ c,
      h0, h1, h2, h3, h4, h5, h6, h7, h8, h10, h11, h12, h14, h15, h20, h21, h22, h23]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
